-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S800000 : Shape := ⟨1, ![800000]⟩
abbrev S128x128 : Shape := ⟨2, ![128, 128]⟩
abbrev S128 : Shape := ⟨1, ![128]⟩
abbrev S192x128 : Shape := ⟨2, ![192, 128]⟩
abbrev S256x128 : Shape := ⟨2, ![256, 128]⟩
abbrev S256x10 : Shape := ⟨2, ![256, 10]⟩
abbrev S10 : Shape := ⟨1, ![10]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S192x128 : S_.BroadcastsInDim S192x128 (![] : Fin 0 → Fin S192x128.rank)
  reducesTo_S192x128_S_d0_1 : S192x128.ReducesTo [0, 1] S_
  bcast_S_S256x128 : S_.BroadcastsInDim S256x128 (![] : Fin 0 → Fin S256x128.rank)
  reducesTo_S256x128_S_d0_1 : S256x128.ReducesTo [0, 1] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg13 : FVec F S10 .f32) (main_v48 : IVec S_ 1) (main_v49 : FVec F S256x10 .f32) (main_v50 : FVec F S256x10 .f32) : IVec S_ 1 :=
  let main_v51 : IVec S256x10 1 := cmpf .olt main_v49 main_v50
  let main_c_19 : IVec S_ 1 := constantI S_ 1 1#1
  let main_v52 : IVec S_ 1 := (fun x v => Host.reduce IntOp.andi x v reducesTo_S256x10_S_d0_1 h_S_) main_v51 main_c_19
  let main_v53 : IVec S_ 1 := andi main_v48 main_v52
  let main_v54 : FVec F S10 .f32 := Host.absf main_arg13
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  main_v58

def fn_part2 {F : FTy → Type} [FloatOps F] (main_arg9 : FVec F S128 .f32) (main_arg10 : FVec F S256x128 .f32) (main_arg11 : FVec F S128 .f32) (main_arg12 : FVec F S256x10 .f32) (main_arg13 : FVec F S10 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x10 .f32 := Host.absf main_arg12
  let main_cst_18 : FVec F S_ .f32 := constant S_ .f32 0x7F800000#32
  let main_v50 : FVec F S256x10 .f32 := broadcastInDim S256x10 ![] bcast_S_S256x10 main_cst_18
  fn_part3 (F := F) main_arg13 main_v48 main_v49 main_v50

def fn_part1 {F : FTy → Type} [FloatOps F] (main_arg6 : FVec F S192x128 .f32) (main_arg7 : FVec F S128 .f32) (main_arg8 : FVec F S192x128 .f32) (main_arg9 : FVec F S128 .f32) (main_arg10 : FVec F S256x128 .f32) (main_arg11 : FVec F S128 .f32) (main_arg12 : FVec F S256x10 .f32) (main_arg13 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S192x128 .f32 := Host.absf main_arg6
  let main_cst_6 : FVec F S_ .f32 := constant S_ .f32 0x7F800000#32
  let main_v20 : FVec F S192x128 .f32 := broadcastInDim S192x128 ![] bcast_S_S192x128 main_cst_6
  let main_v21 : IVec S192x128 1 := cmpf .olt main_v19 main_v20
  let main_c_7 : IVec S_ 1 := constantI S_ 1 1#1
  let main_v22 : IVec S_ 1 := (fun x v => Host.reduce IntOp.andi x v reducesTo_S192x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S192x128 .f32 := Host.absf main_arg8
  let main_cst_10 : FVec F S_ .f32 := constant S_ .f32 0x7F800000#32
  let main_v30 : FVec F S192x128 .f32 := broadcastInDim S192x128 ![] bcast_S_S192x128 main_cst_10
  let main_v31 : IVec S192x128 1 := cmpf .olt main_v29 main_v30
  let main_c_11 : IVec S_ 1 := constantI S_ 1 1#1
  let main_v32 : IVec S_ 1 := (fun x v => Host.reduce IntOp.andi x v reducesTo_S192x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x64 .f32) (main_arg1 : FVec F S800000x64 .f32) (main_arg2 : IVec S800000 32) (main_arg3 : IVec S800000 32) (main_arg4 : FVec F S128x128 .f32) (main_arg5 : FVec F S128 .f32) (main_arg6 : FVec F S192x128 .f32) (main_arg7 : FVec F S128 .f32) (main_arg8 : FVec F S192x128 .f32) (main_arg9 : FVec F S128 .f32) (main_arg10 : FVec F S256x128 .f32) (main_arg11 : FVec F S128 .f32) (main_arg12 : FVec F S256x10 .f32) (main_arg13 : FVec F S10 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_v13 main_v16
-- ==== Kernel.lean ====
abbrev S50000x64 : Shape := ⟨2, ![50000, 64]⟩
abbrev S800000x64 : Shape := ⟨2, ![800000, 64]⟩
abbrev S800000 : Shape := ⟨1, ![800000]⟩
abbrev S128x128 : Shape := ⟨2, ![128, 128]⟩
abbrev S128 : Shape := ⟨1, ![128]⟩
abbrev S192x128 : Shape := ⟨2, ![192, 128]⟩
abbrev S256x128 : Shape := ⟨2, ![256, 128]⟩
abbrev S256x10 : Shape := ⟨2, ![256, 10]⟩
abbrev S10 : Shape := ⟨1, ![10]⟩
abbrev S_ : Shape := ⟨0, ![]⟩
abbrev S800000x1 : Shape := ⟨2, ![800000, 1]⟩
abbrev S64x128 : Shape := ⟨2, ![64, 128]⟩
abbrev S1x128 : Shape := ⟨2, ![1, 128]⟩
abbrev S800000x128 : Shape := ⟨2, ![800000, 128]⟩
abbrev S10000x64 : Shape := ⟨2, ![10000, 64]⟩
abbrev S10000x128 : Shape := ⟨2, ![10000, 128]⟩
abbrev S50000x128 : Shape := ⟨2, ![50000, 128]⟩
abbrev S50000 : Shape := ⟨1, ![50000]⟩
abbrev S50000x1 : Shape := ⟨2, ![50000, 1]⟩
abbrev S128x10 : Shape := ⟨2, ![128, 10]⟩
abbrev S1x10 : Shape := ⟨2, ![1, 10]⟩
abbrev S800000x10 : Shape := ⟨2, ![800000, 10]⟩
abbrev S10000x10 : Shape := ⟨2, ![10000, 10]⟩

abbrev nBuf : Space → Nat
  | .hbm => 96
  | .vmem => 45
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128, .f32⟩
  | .hbm, ⟨6, _⟩ => ⟨S192x128, .f32⟩
  | .hbm, ⟨7, _⟩ => ⟨S128, .f32⟩
  | .hbm, ⟨8, _⟩ => ⟨S192x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S256x10, .f32⟩
  | .hbm, ⟨13, _⟩ => ⟨S10, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x64, .f32⟩
  | .hbm, ⟨23, _⟩ => ⟨S64x128, .f32⟩
  | .hbm, ⟨24, _⟩ => ⟨S64x128, .f32⟩
  | .hbm, ⟨25, _⟩ => ⟨S1x128, .f32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S_, .f32⟩
  | .hbm, ⟨32, _⟩ => ⟨S800000, .f32⟩
  | .hbm, ⟨33, _⟩ => ⟨S_, .f32⟩
  | .hbm, ⟨34, _⟩ => ⟨S50000, .f32⟩
  | .hbm, ⟨35, _⟩ => ⟨S800000x1, .i32⟩
  | .hbm, ⟨36, _⟩ => ⟨S50000, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000x1, .f32⟩
  | .hbm, ⟨41, _⟩ => ⟨S50000x128, .f32⟩
  | .hbm, ⟨42, _⟩ => ⟨S50000x128, .f32⟩
  | .hbm, ⟨43, _⟩ => ⟨S64x128, .f32⟩
  | .hbm, ⟨44, _⟩ => ⟨S128x128, .f32⟩
  | .hbm, ⟨45, _⟩ => ⟨S1x128, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S128x128, .f32⟩
  | .hbm, ⟨57, _⟩ => ⟨S64x128, .f32⟩
  | .hbm, ⟨58, _⟩ => ⟨S1x128, .f32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S_, .f32⟩
  | .hbm, ⟨65, _⟩ => ⟨S50000, .f32⟩
  | .hbm, ⟨66, _⟩ => ⟨S50000, .f32⟩
  | .hbm, ⟨67, _⟩ => ⟨S50000x1, .f32⟩
  | .hbm, ⟨68, _⟩ => ⟨S50000x128, .f32⟩
  | .hbm, ⟨69, _⟩ => ⟨S50000x128, .f32⟩
  | .hbm, ⟨70, _⟩ => ⟨S128x128, .f32⟩
  | .hbm, ⟨71, _⟩ => ⟨S128x128, .f32⟩
  | .hbm, ⟨72, _⟩ => ⟨S1x128, .f32⟩
  | .hbm, ⟨73, _⟩ => ⟨S50000x128, .f32⟩
  | .hbm, ⟨74, _⟩ => ⟨S_, .i32⟩
  | .hbm, ⟨75, _⟩ => ⟨S800000, .i32⟩
  | .hbm, ⟨76, _⟩ => ⟨S800000, .i1⟩
  | .hbm, ⟨77, _⟩ => ⟨S_, .i32⟩
  | .hbm, ⟨78, _⟩ => ⟨S800000, .i32⟩
  | .hbm, ⟨79, _⟩ => ⟨S800000, .i32⟩
  | .hbm, ⟨80, _⟩ => ⟨S800000, .i32⟩
  | .hbm, ⟨81, _⟩ => ⟨S800000x1, .i32⟩
  | .hbm, ⟨82, _⟩ => ⟨S800000x128, .f32⟩
  | .hbm, ⟨83, _⟩ => ⟨S_, .i32⟩
  | .hbm, ⟨84, _⟩ => ⟨S800000, .i32⟩
  | .hbm, ⟨85, _⟩ => ⟨S800000, .i1⟩
  | .hbm, ⟨86, _⟩ => ⟨S_, .i32⟩
  | .hbm, ⟨87, _⟩ => ⟨S800000, .i32⟩
  | .hbm, ⟨88, _⟩ => ⟨S800000, .i32⟩
  | .hbm, ⟨89, _⟩ => ⟨S800000, .i32⟩
  | .hbm, ⟨90, _⟩ => ⟨S800000x1, .i32⟩
  | .hbm, ⟨91, _⟩ => ⟨S800000x128, .f32⟩
  | .hbm, ⟨92, _⟩ => ⟨S128x10, .f32⟩
  | .hbm, ⟨93, _⟩ => ⟨S128x10, .f32⟩
  | .hbm, ⟨94, _⟩ => ⟨S1x10, .f32⟩
  | .hbm, ⟨95, _⟩ => ⟨S800000x10, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S10000x128, .f32⟩
  | .local _ .vmem, ⟨8, _⟩ => ⟨S10000x128, .f32⟩
  | .local _ .vmem, ⟨9, _⟩ => ⟨S10000x64, .f32⟩
  | .local _ .vmem, ⟨10, _⟩ => ⟨S10000x64, .f32⟩
  | .local _ .vmem, ⟨11, _⟩ => ⟨S10000x128, .f32⟩
  | .local _ .vmem, ⟨12, _⟩ => ⟨S10000x128, .f32⟩
  | .local _ .vmem, ⟨13, _⟩ => ⟨S64x128, .f32⟩
  | .local _ .vmem, ⟨14, _⟩ => ⟨S128x128, .f32⟩
  | .local _ .vmem, ⟨15, _⟩ => ⟨S1x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x64, .f32⟩
  | .local _ .vmem, ⟨21, _⟩ => ⟨S10000x64, .f32⟩
  | .local _ .vmem, ⟨22, _⟩ => ⟨S128x128, .f32⟩
  | .local _ .vmem, ⟨23, _⟩ => ⟨S64x128, .f32⟩
  | .local _ .vmem, ⟨24, _⟩ => ⟨S1x128, .f32⟩
  | .local _ .vmem, ⟨25, _⟩ => ⟨S10000x128, .f32⟩
  | .local _ .vmem, ⟨26, _⟩ => ⟨S10000x128, .f32⟩
  | .local _ .vmem, ⟨27, _⟩ => ⟨S10000x128, .f32⟩
  | .local _ .vmem, ⟨28, _⟩ => ⟨S10000x128, .f32⟩
  | .local _ .vmem, ⟨29, _⟩ => ⟨S10000x128, .f32⟩
  | .local _ .vmem, ⟨30, _⟩ => ⟨S10000x128, .f32⟩
  | .local _ .vmem, ⟨31, _⟩ => ⟨S128x128, .f32⟩
  | .local _ .vmem, ⟨32, _⟩ => ⟨S128x128, .f32⟩
  | .local _ .vmem, ⟨33, _⟩ => ⟨S1x128, .f32⟩
  | .local _ .vmem, ⟨34, _⟩ => ⟨S10000x128, .f32⟩
  | .local _ .vmem, ⟨35, _⟩ => ⟨S10000x128, .f32⟩
  | .local _ .vmem, ⟨36, _⟩ => ⟨S10000x128, .f32⟩
  | .local _ .vmem, ⟨37, _⟩ => ⟨S10000x128, .f32⟩
  | .local _ .vmem, ⟨38, _⟩ => ⟨S10000x128, .f32⟩
  | .local _ .vmem, ⟨39, _⟩ => ⟨S10000x128, .f32⟩
  | .local _ .vmem, ⟨40, _⟩ => ⟨S128x10, .f32⟩
  | .local _ .vmem, ⟨41, _⟩ => ⟨S128x10, .f32⟩
  | .local _ .vmem, ⟨42, _⟩ => ⟨S1x10, .f32⟩
  | .local _ .vmem, ⟨43, _⟩ => ⟨S10000x10, .f32⟩
  | .local _ .vmem, ⟨44, _⟩ => ⟨S10000x10, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_4 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_8 : Ref sig .tc := ⟨.hbm, 74, rfl⟩
abbrev main_v50 : Ref sig .tc := ⟨.hbm, 75, rfl⟩
abbrev main_v51 : Ref sig .tc := ⟨.hbm, 76, rfl⟩
abbrev main_c_9 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_10 : Ref sig .tc := ⟨.hbm, 83, rfl⟩
abbrev main_v57 : Ref sig .tc := ⟨.hbm, 84, rfl⟩
abbrev main_v58 : Ref sig .tc := ⟨.hbm, 85, rfl⟩
abbrev main_c_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem5_1 : DmaSem sig := 44

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![80], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x10 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x10 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  slices_S128x128_S64x128_0_0 : S128x128.Slices ![0, 0] S64x128
  slices_S128x128_S64x128_64_0 : S128x128.Slices ![64, 0] S64x128
  shapeCasts_S128_S1x128 : S128.ShapeCasts S1x128
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S192x128_S64x128_0_0 : S192x128.Slices ![0, 0] S64x128
  slices_S192x128_S128x128_64_0 : S192x128.Slices ![64, 0] S128x128
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S192x128_S128x128_0_0 : S192x128.Slices ![0, 0] S128x128
  slices_S192x128_S64x128_128_0 : S192x128.Slices ![128, 0] S64x128
  slices_S256x128_S128x128_0_0 : S256x128.Slices ![0, 0] S128x128
  slices_S256x128_S128x128_128_0 : S256x128.Slices ![128, 0] S128x128
  slices_S256x10_S128x10_0_0 : S256x10.Slices ![0, 0] S128x10
  slices_S256x10_S128x10_128_0 : S256x10.Slices ![128, 0] S128x10
  shapeCasts_S10_S1x10 : S10.ShapeCasts S1x10
  inb_S128x10_S128x10_0_0 : ∀ a, (![0, 0] : Fin 2 → Nat) a + S128x10.size a ≤ S128x10.size a
  h_S128x10 : 0 < S128x10.numel
  shapeCasts_S128x10_S128x10 : S128x10.ShapeCasts S128x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S10000x10 : S1x10.Broadcasts S10000x10
  inb_S10000x10_S10000x10_0_0 : ∀ a, (![0, 0] : Fin 2 → Nat) a + S10000x10.size a ≤ S10000x10.size a
  h_S10000x10 : 0 < S10000x10.numel
  gather_S50000x64_S800000x1_S800000x64_1_0_n_n_0_1_164_wf : GatherDims.WF S50000x64 S800000x1 S800000x64 [1] [0] [] [0] [] 1 ![1, 64]
  dot_S10000x64_S64x128_S10000x128_1_0_0_1_n_n_wf : DotDims.WF S10000x64 S64x128 S10000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S10000x128_S128x128_S10000x128_1_0_0_1_n_n_wf : DotDims.WF S10000x128 S128x128 S10000x128 [1] [0] [0] [1] [] []
  gather_S50000x128_S800000x1_S800000x128_1_0_n_n_0_1_1128_wf : GatherDims.WF S50000x128 S800000x1 S800000x128 [1] [0] [] [0] [] 1 ![1, 128]
  dot_S10000x128_S128x10_S10000x10_1_0_0_1_n_n_wf : DotDims.WF S10000x128 S128x10 S10000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S800000x64.size a
  hwx0_0 : ∀ i : grid0.Coords, EltTy.bits .f32 = 32 ∨ (Rect.block (s := S800000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S800000x64.size a
  hwx0_1 : ∀ i : grid0.Coords, EltTy.bits .f32 = 32 ∨ (Rect.block (s := S800000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S800000x128.size a
  hwx0_5 : ∀ i : grid0.Coords, EltTy.bits .f32 = 32 ∨ (Rect.block (s := S800000x128) S10000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S50000x128.size a
  hwx1_1 : ∀ i : grid1.Coords, EltTy.bits .f32 = 32 ∨ (Rect.block (s := S50000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S50000x128.size a
  hwx1_5 : ∀ i : grid1.Coords, EltTy.bits .f32 = 32 ∨ (Rect.block (s := S50000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S800000x128.size a
  hwx2_0 : ∀ i : grid2.Coords, EltTy.bits .f32 = 32 ∨ (Rect.block (s := S800000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S800000x64.size a
  hwx2_1 : ∀ i : grid2.Coords, EltTy.bits .f32 = 32 ∨ (Rect.block (s := S800000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x128.size a ≤ S800000x128.size a
  hwx2_5 : ∀ i : grid2.Coords, EltTy.bits .f32 = 32 ∨ (Rect.block (s := S800000x128) S10000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S50000x128.size a
  hwx3_1 : ∀ i : grid3.Coords, EltTy.bits .f32 = 32 ∨ (Rect.block (s := S50000x128) S10000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x128.size a ≤ S50000x128.size a
  hwx3_5 : ∀ i : grid3.Coords, EltTy.bits .f32 = 32 ∨ (Rect.block (s := S50000x128) S10000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S800000x128.size a
  hwx4_0 : ∀ i : grid4.Coords, EltTy.bits .f32 = 32 ∨ (Rect.block (s := S800000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S800000x128.size a
  hwx4_1 : ∀ i : grid4.Coords, EltTy.bits .f32 = 32 ∨ (Rect.block (s := S800000x128) S10000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x10.size a ≤ S128x10.size a
  hwx4_2 : ∀ i : grid4.Coords, EltTy.bits .f32 = 32 ∨ (Rect.block (s := S128x10) S128x10.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x10.size a ≤ S128x10.size a
  hwx4_3 : ∀ i : grid4.Coords, EltTy.bits .f32 = 32 ∨ (Rect.block (s := S128x10) S128x10.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x10.size a ≤ S1x10.size a
  hwx4_4 : ∀ i : grid4.Coords, EltTy.bits .f32 = 32 ∨ (Rect.block (s := S1x10) S1x10.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x10.size a ≤ S800000x10.size a
  hwx4_5 : ∀ i : grid4.Coords, EltTy.bits .f32 = 32 ∨ (Rect.block (s := S800000x10) S10000x10.size (cc4_transform_5 i) (hinb4_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S10000x128_S128x10_S10000x10_1_0_0_1_n_n : DotDims S10000x128 S128x10 S10000x10 where
  lhsContracting := [1]
  rhsContracting := [0]
  lhsNonContracting := [0]
  rhsNonContracting := [1]
  lhsBatch := []
  rhsBatch := []
  wf := dot_S10000x128_S128x10_S10000x10_1_0_0_1_n_n_wf

abbrev win0_0 : Pipeline.Window sig grid0 :=
  Pipeline.Window.ofSpec (Memref.whole main_v6) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v33) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v34) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v37) S10000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v26) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S10000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v46) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v47) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v48) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v49) S10000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v56) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v63) S10000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v64) S128x10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65) S128x10.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v66) S1x10.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v67) S10000x10.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S800000 : Shape := ⟨1, ![800000]⟩
abbrev S128x128 : Shape := ⟨2, ![128, 128]⟩
abbrev S128 : Shape := ⟨1, ![128]⟩
abbrev S192x128 : Shape := ⟨2, ![192, 128]⟩
abbrev S256x128 : Shape := ⟨2, ![256, 128]⟩
abbrev S256x10 : Shape := ⟨2, ![256, 10]⟩
abbrev S10 : Shape := ⟨1, ![10]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x128 : Shape := ⟨2, ![50000, 128]⟩
abbrev S50000 : Shape := ⟨1, ![50000]⟩
abbrev S50000x1 : Shape := ⟨2, ![50000, 1]⟩
abbrev S50000x192 : Shape := ⟨2, ![50000, 192]⟩
abbrev S800000x192 : Shape := ⟨2, ![800000, 192]⟩
abbrev S50000x256 : Shape := ⟨2, ![50000, 256]⟩
abbrev S800000x256 : Shape := ⟨2, ![800000, 256]⟩
abbrev S800000x10 : Shape := ⟨2, ![800000, 10]⟩
abbrev S1x10 : Shape := ⟨2, ![1, 10]⟩

abbrev nBuf : Space → Nat
  | .hbm => 113
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128, .f32⟩
  | .hbm, ⟨6, _⟩ => ⟨S192x128, .f32⟩
  | .hbm, ⟨7, _⟩ => ⟨S128, .f32⟩
  | .hbm, ⟨8, _⟩ => ⟨S192x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S256x10, .f32⟩
  | .hbm, ⟨13, _⟩ => ⟨S10, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x64, .f32⟩
  | .hbm, ⟨23, _⟩ => ⟨S800000x128, .f32⟩
  | .hbm, ⟨24, _⟩ => ⟨S800000x128, .f32⟩
  | .hbm, ⟨25, _⟩ => ⟨S1x128, .f32⟩
  | .hbm, ⟨26, _⟩ => ⟨S800000x128, .f32⟩
  | .hbm, ⟨27, _⟩ => ⟨S800000x128, .f32⟩
  | .hbm, ⟨28, _⟩ => ⟨S_, .f32⟩
  | .hbm, ⟨29, _⟩ => ⟨S50000x128, .f32⟩
  | .hbm, ⟨30, _⟩ => ⟨S800000x1, .i32⟩
  | .hbm, ⟨31, _⟩ => ⟨S50000x128, .f32⟩
  | .hbm, ⟨32, _⟩ => ⟨S_, .f32⟩
  | .hbm, ⟨33, _⟩ => ⟨S800000, .f32⟩
  | .hbm, ⟨34, _⟩ => ⟨S_, .f32⟩
  | .hbm, ⟨35, _⟩ => ⟨S50000, .f32⟩
  | .hbm, ⟨36, _⟩ => ⟨S800000x1, .i32⟩
  | .hbm, ⟨37, _⟩ => ⟨S50000, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S50000x1, .f32⟩
  | .hbm, ⟨42, _⟩ => ⟨S50000x128, .f32⟩
  | .hbm, ⟨43, _⟩ => ⟨S50000x128, .f32⟩
  | .hbm, ⟨44, _⟩ => ⟨S50000x192, .f32⟩
  | .hbm, ⟨45, _⟩ => ⟨S50000x128, .f32⟩
  | .hbm, ⟨46, _⟩ => ⟨S1x128, .f32⟩
  | .hbm, ⟨47, _⟩ => ⟨S50000x128, .f32⟩
  | .hbm, ⟨48, _⟩ => ⟨S50000x128, .f32⟩
  | .hbm, ⟨49, _⟩ => ⟨S_, .f32⟩
  | .hbm, ⟨50, _⟩ => ⟨S50000x128, .f32⟩
  | .hbm, ⟨51, _⟩ => ⟨S50000x128, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x128, .f32⟩
  | .hbm, ⟨61, _⟩ => ⟨S800000x192, .f32⟩
  | .hbm, ⟨62, _⟩ => ⟨S800000x128, .f32⟩
  | .hbm, ⟨63, _⟩ => ⟨S1x128, .f32⟩
  | .hbm, ⟨64, _⟩ => ⟨S800000x128, .f32⟩
  | .hbm, ⟨65, _⟩ => ⟨S800000x128, .f32⟩
  | .hbm, ⟨66, _⟩ => ⟨S_, .f32⟩
  | .hbm, ⟨67, _⟩ => ⟨S50000x128, .f32⟩
  | .hbm, ⟨68, _⟩ => ⟨S800000x1, .i32⟩
  | .hbm, ⟨69, _⟩ => ⟨S50000x128, .f32⟩
  | .hbm, ⟨70, _⟩ => ⟨S_, .f32⟩
  | .hbm, ⟨71, _⟩ => ⟨S800000, .f32⟩
  | .hbm, ⟨72, _⟩ => ⟨S_, .f32⟩
  | .hbm, ⟨73, _⟩ => ⟨S50000, .f32⟩
  | .hbm, ⟨74, _⟩ => ⟨S800000x1, .i32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .f32⟩
  | .hbm, ⟨79, _⟩ => ⟨S50000x1, .f32⟩
  | .hbm, ⟨80, _⟩ => ⟨S50000x128, .f32⟩
  | .hbm, ⟨81, _⟩ => ⟨S50000x128, .f32⟩
  | .hbm, ⟨82, _⟩ => ⟨S50000x256, .f32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x128, .f32⟩
  | .hbm, ⟨87, _⟩ => ⟨S_, .f32⟩
  | .hbm, ⟨88, _⟩ => ⟨S50000x128, .f32⟩
  | .hbm, ⟨89, _⟩ => ⟨S50000x128, .f32⟩
  | .hbm, ⟨90, _⟩ => ⟨S_, .i32⟩
  | .hbm, ⟨91, _⟩ => ⟨S800000, .i32⟩
  | .hbm, ⟨92, _⟩ => ⟨S800000, .i1⟩
  | .hbm, ⟨93, _⟩ => ⟨S_, .i32⟩
  | .hbm, ⟨94, _⟩ => ⟨S800000, .i32⟩
  | .hbm, ⟨95, _⟩ => ⟨S800000, .i32⟩
  | .hbm, ⟨96, _⟩ => ⟨S800000, .i32⟩
  | .hbm, ⟨97, _⟩ => ⟨S800000x1, .i32⟩
  | .hbm, ⟨98, _⟩ => ⟨S800000x128, .f32⟩
  | .hbm, ⟨99, _⟩ => ⟨S_, .i32⟩
  | .hbm, ⟨100, _⟩ => ⟨S800000, .i32⟩
  | .hbm, ⟨101, _⟩ => ⟨S800000, .i1⟩
  | .hbm, ⟨102, _⟩ => ⟨S_, .i32⟩
  | .hbm, ⟨103, _⟩ => ⟨S800000, .i32⟩
  | .hbm, ⟨104, _⟩ => ⟨S800000, .i32⟩
  | .hbm, ⟨105, _⟩ => ⟨S800000, .i32⟩
  | .hbm, ⟨106, _⟩ => ⟨S800000x1, .i32⟩
  | .hbm, ⟨107, _⟩ => ⟨S800000x128, .f32⟩
  | .hbm, ⟨108, _⟩ => ⟨S800000x256, .f32⟩
  | .hbm, ⟨109, _⟩ => ⟨S800000x10, .f32⟩
  | .hbm, ⟨110, _⟩ => ⟨S1x10, .f32⟩
  | .hbm, ⟨111, _⟩ => ⟨S800000x10, .f32⟩
  | .hbm, ⟨112, _⟩ => ⟨S800000x10, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call0_cst : Ref sig .tc := ⟨.hbm, 49, rfl⟩
abbrev main_call0_v0 : Ref sig .tc := ⟨.hbm, 50, rfl⟩
abbrev main_v29 : Ref sig .tc := ⟨.hbm, 51, rfl⟩
abbrev main_c_4 : Ref sig .tc := ⟨.hbm, 52, rfl⟩
abbrev main_v30 : Ref sig .tc := ⟨.hbm, 53, rfl⟩
abbrev main_v31 : Ref sig .tc := ⟨.hbm, 54, rfl⟩
abbrev main_c_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_6 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_7 : Ref sig .tc := ⟨.hbm, 70, rfl⟩
abbrev main_v45 : Ref sig .tc := ⟨.hbm, 71, rfl⟩
abbrev main_cst_8 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_call1_cst : Ref sig .tc := ⟨.hbm, 87, rfl⟩
abbrev main_call1_v0 : Ref sig .tc := ⟨.hbm, 88, rfl⟩
abbrev main_v59 : Ref sig .tc := ⟨.hbm, 89, rfl⟩
abbrev main_c_10 : Ref sig .tc := ⟨.hbm, 90, rfl⟩
abbrev main_v60 : Ref sig .tc := ⟨.hbm, 91, rfl⟩
abbrev main_v61 : Ref sig .tc := ⟨.hbm, 92, rfl⟩
abbrev main_c_11 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_12 : Ref sig .tc := ⟨.hbm, 99, rfl⟩
abbrev main_v67 : Ref sig .tc := ⟨.hbm, 100, rfl⟩
abbrev main_v68 : Ref sig .tc := ⟨.hbm, 101, rfl⟩
abbrev main_c_13 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x64_S50000x128_S50000x192_d1 : Shape.Concatenates [S50000x64, S50000x128] S50000x192 1
  bcast_S1x128_S50000x128_0_1 : S1x128.BroadcastsInDim S50000x128 (![0, 1] : Fin 2 → Fin S50000x128.rank)
  concatenates_S800000x128_S800000x64_S800000x192_d1 : Shape.Concatenates [S800000x128, S800000x64] S800000x192 1
  concatenates_S50000x128_S50000x128_S50000x256_d1 : Shape.Concatenates [S50000x128, S50000x128] S50000x256 1
  concatenates_S800000x128_S800000x128_S800000x256_d1 : Shape.Concatenates [S800000x128, S800000x128] S800000x256 1
  bcast_S10_S1x10_1 : S10.BroadcastsInDim S1x10 (![1] : Fin 1 → Fin S1x10.rank)
  bcast_S1x10_S800000x10_0_1 : S1x10.BroadcastsInDim S800000x10 (![0, 1] : Fin 2 → Fin S800000x10.rank)
  gather_S50000x64_S800000x1_S800000x64_1_0_n_n_0_1_164_wf : GatherDims.WF S50000x64 S800000x1 S800000x64 [1] [0] [] [0] [] 1 ![1, 64]
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x192_S192x128_S50000x128_1_0_0_1_n_n_wf : DotDims.WF S50000x192 S192x128 S50000x128 [1] [0] [0] [1] [] []
  gather_S50000x128_S800000x1_S800000x128_1_0_n_n_0_1_1128_wf : GatherDims.WF S50000x128 S800000x1 S800000x128 [1] [0] [] [0] [] 1 ![1, 128]
  dot_S800000x192_S192x128_S800000x128_1_0_0_1_n_n_wf : DotDims.WF S800000x192 S192x128 S800000x128 [1] [0] [0] [1] [] []
  dot_S50000x256_S256x128_S50000x128_1_0_0_1_n_n_wf : DotDims.WF S50000x256 S256x128 S50000x128 [1] [0] [0] [1] [] []
  dot_S800000x256_S256x10_S800000x10_1_0_0_1_n_n_wf : DotDims.WF S800000x256 S256x10 S800000x10 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x192_S192x128_S50000x128_1_0_0_1_n_n : DotDims S50000x192 S192x128 S50000x128 where
  lhsContracting := [1]
  rhsContracting := [0]
  lhsNonContracting := [0]
  rhsNonContracting := [1]
  lhsBatch := []
  rhsBatch := []
  wf := dot_S50000x192_S192x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x192_S192x128_S800000x128_1_0_0_1_n_n : DotDims S800000x192 S192x128 S800000x128 where
  lhsContracting := [1]
  rhsContracting := [0]
  lhsNonContracting := [0]
  rhsNonContracting := [1]
  lhsBatch := []
  rhsBatch := []
  wf := dot_S800000x192_S192x128_S800000x128_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S800000x256_S256x10_S800000x10_1_0_0_1_n_n : DotDims S800000x256 S256x10 S800000x10 where
  lhsContracting := [1]
  rhsContracting := [0]
  lhsNonContracting := [0]
  rhsNonContracting := [1]
  lhsBatch := []
  rhsBatch := []
  wf := dot_S800000x256_S256x10_S800000x10_1_0_0_1_n_n_wf

class Facts : Prop extends Facts₀ where

variable [Facts]
-- ==== Proof.KernelRun.lean ====
/-
  The idealized kernel's run with its result named. Every weakly fair execution of the program — five pipelined regions
  among stretches of host operations — terminates without a fault; at the end every buffer the program does not scope
  holds what the fold through the program's segments leaves there: the result buffer holds that fold's contents, and the
  fourteen argument buffers hold what they held at launch.
-/
import proofs.«119431_j55594056680038_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the program's ten segments, the last thread state read against the final memory: the result buffer
    at the fold's final contents, each argument buffer at its launch contents. -/
theorem run_named : θ_run defs (onTc (τ := τ) (main (F := F))) ⟨m, fun _ => 0, ρ⟩ (fun r => ∀ c : Dev nD,
      r.2.mem ((c.tc : Thread nD τ).loc main_v67) = W10 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v67 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c)⟩)

end Cert.KernelIdeal.Whole

end
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.LibFusedLinear.lean ====
/-
  A linear layer applied to two operands side by side. For row blocks a (R × A) and b (R × B), weights W (K × N) with
  K = A + B, and a bias row, the product of the row-wise concatenation [a | b] with W is the sum of the two partial
  products a · W[0:A, :] + b · W[A:K, :]: the sum over the contracted axis splits at A. On the extended reals this needs
  no finiteness, only that addition is commutative and associative.
-/
import Idealize.ShloMosaic.PureOps.Ideal
import Idealize.ShloMosaic.Lib.ValueIdx
import Idealize.ShloMosaic.Lib.Pipeline.Value
import Idealize.ShloMosaic.PureOps.Ideal.Laws
import proofs.«119431_j55594056680038_1_alg».proof.Proof.LibMatmul

noncomputable section

open scoped BigOperators

namespace Cert.Bridge.LibFusedLinear

open Idealize.ShloMosaic Idealize.ShloMosaic.ValueIdx Idealize.ShloMosaic.Pipeline Cert.Bridge

/-- A sum over `Fin K` with `K = A + B` splits into the first `A` terms and the last `B` terms. -/
theorem sum_split {α : Type} [AddCommMonoid α] {A B K : Nat} (h : A + B = K) (f : Fin K → α) :
    ∑ k : Fin K, f k = ∑ k : Fin A, f ⟨k.val, by omega⟩ + ∑ k : Fin B, f ⟨A + k.val, by omega⟩ := by
  subst h
  rw [Fin.sum_univ_add]
  rfl

variable {R A B K N : Nat}

/-- The fused layer at output index (p, q): a[p, :] · wa[:, q] + b[p, :] · wb[:, q] + bias[0, q]. -/
def linAt (a : (⟨2, ![R, A]⟩ : Shape).Idx → EReal) (b : (⟨2, ![R, B]⟩ : Shape).Idx → EReal)
    (wa : (⟨2, ![A, N]⟩ : Shape).Idx → EReal) (wb : (⟨2, ![B, N]⟩ : Shape).Idx → EReal)
    (bias : (⟨2, ![1, N]⟩ : Shape).Idx → EReal) (p : Fin R) (q : Fin N) : EReal :=
  (∑ k : Fin A, a (ix2 p k) * wa (ix2 k q)) + (∑ k : Fin B, b (ix2 p k) * wb (ix2 k q)) + bias (ix2 0 q)

/-- The contracted sum against the concatenation [a | b] is the sum of the two partial contracted sums, when `wa` and
    `wb` are the top `A` rows and the bottom `B` rows of `W`. -/
theorem concat_sum (h : A + B = K) (cat : (⟨2, ![R, K]⟩ : Shape).Idx → EReal)
    (a : (⟨2, ![R, A]⟩ : Shape).Idx → EReal) (b : (⟨2, ![R, B]⟩ : Shape).Idx → EReal)
    (W : (⟨2, ![K, N]⟩ : Shape).Idx → EReal)
    (wa : (⟨2, ![A, N]⟩ : Shape).Idx → EReal) (wb : (⟨2, ![B, N]⟩ : Shape).Idx → EReal) (p : Fin R) (q : Fin N)
    (hca : ∀ k : Fin A, cat (ix2 p ⟨k.val, by omega⟩) = a (ix2 p k))
    (hcb : ∀ k : Fin B, cat (ix2 p ⟨A + k.val, by omega⟩) = b (ix2 p k))
    (hwa : ∀ k : Fin A, wa (ix2 k q) = W (ix2 ⟨k.val, by omega⟩ q))
    (hwb : ∀ k : Fin B, wb (ix2 k q) = W (ix2 ⟨A + k.val, by omega⟩ q)) :
    ∑ k : Fin K, cat (ix2 p k) * W (ix2 k q)
      = (∑ k : Fin A, a (ix2 p k) * wa (ix2 k q)) + (∑ k : Fin B, b (ix2 p k) * wb (ix2 k q)) := by
  rw [sum_split h]
  refine congrArg₂ (· + ·) (Finset.sum_congr rfl fun k _ => ?_) (Finset.sum_congr rfl fun k _ => ?_)
  · rw [hca k, hwa k]
  · rw [hcb k, hwb k]

/-- The layer as the host computes it, read at (p, q): the product of the concatenation [a | b] with the whole weight
    matrix plus the bias broadcast along the rows, is the fused layer over the weight's top `A` rows and bottom `B` rows
    and the bias as a one-row matrix. -/
theorem concat_dot_bias_at (h : A + B = K)
    (a : FVec Ideal ⟨2, ![R, A]⟩ .f32) (b : FVec Ideal ⟨2, ![R, B]⟩ .f32) (W : FVec Ideal ⟨2, ![K, N]⟩ .f32)
    (bias : FVec Ideal ⟨1, ![N]⟩ .f32)
    (hc : Shape.Concatenates [(⟨2, ![R, A]⟩ : Shape), ⟨2, ![R, B]⟩] ⟨2, ![R, K]⟩ 1)
    (hb1 : (⟨1, ![N]⟩ : Shape).BroadcastsInDim ⟨2, ![1, N]⟩ ![1])
    (hb2 : (⟨2, ![1, N]⟩ : Shape).BroadcastsInDim ⟨2, ![R, N]⟩ ![0, 1])
    (hs0 : (⟨2, ![K, N]⟩ : Shape).Slices ![0, 0] ⟨2, ![A, N]⟩)
    (hs1 : (⟨2, ![K, N]⟩ : Shape).Slices ![A, 0] ⟨2, ![B, N]⟩)
    (hr : (⟨1, ![N]⟩ : Shape).ShapeCasts ⟨2, ![1, N]⟩)
    (prec : Option ContractPrecision) (sched : HostSchedule) (p : Fin R) (q : Fin N) :
    addf (FloatOps.dotGeneral (DotDims.plain R K N) prec sched
            (concatenate ⟨2, ![R, K]⟩ 1 [⟨⟨2, ![R, A]⟩, a⟩, ⟨⟨2, ![R, B]⟩, b⟩] hc) W)
        (broadcastInDim ⟨2, ![R, N]⟩ ![0, 1] hb2 (broadcastInDim ⟨2, ![1, N]⟩ ![1] hb1 bias)) (ix2 p q)
      = linAt a b (extractStridedSlice ⟨2, ![A, N]⟩ ![0, 0] W hs0) (extractStridedSlice ⟨2, ![B, N]⟩ ![A, 0] W hs1)
          (shapeCast ⟨2, ![1, N]⟩ bias hr) p q := by
  have hq : q.val < N := q.isLt
  -- the bias row, broadcast along the rows: first to one row, then to all
  have hk2 : ∀ d : Fin 2, ((ix2 (0 : Fin 1) q : (⟨2, ![1, N]⟩ : Shape).Idx) d).val
      = if (⟨2, ![1, N]⟩ : Shape).size d = 1 then 0 else ((ix2 p q : (⟨2, ![R, N]⟩ : Shape).Idx) ((![0, 1] : Fin 2 → Fin 2) d)).val := by
    intro d
    match d with
    | ⟨0, _⟩ => show (0 : ℕ) = if (1 : ℕ) = 1 then 0 else p.val; rw [if_pos rfl]
    | ⟨1, _⟩ =>
      show q.val = if N = 1 then 0 else q.val
      split
      · omega
      · rfl
  have hk1 : ∀ d : Fin 1, ((ix1 q : (⟨1, ![N]⟩ : Shape).Idx) d).val
      = if (⟨1, ![N]⟩ : Shape).size d = 1 then 0 else ((ix2 (0 : Fin 1) q : (⟨2, ![1, N]⟩ : Shape).Idx) ((![1] : Fin 1 → Fin 2) d)).val := by
    intro d
    match d with
    | ⟨0, _⟩ =>
      show q.val = if N = 1 then 0 else q.val
      split
      · omega
      · rfl
  have hbias : broadcastInDim ⟨2, ![R, N]⟩ ![0, 1] hb2 (broadcastInDim ⟨2, ![1, N]⟩ ![1] hb1 bias) (ix2 p q)
      = shapeCast ⟨2, ![1, N]⟩ bias hr (ix2 0 q) :=
    (broadcastInDim_apply ![0, 1] hb2 _ (ix2 p q) (ix2 0 q) hk2).trans
      ((broadcastInDim_apply ![1] hb1 bias (ix2 0 q) (ix1 q) hk1).trans
        (shapeCast_apply bias hr (ix2 0 q) (ix1 q) (by
          rw [Shape.rowMajor_val_one, Shape.rowMajor_val_two]; show q.val = 0 * N + q.val; omega)).symm)
  rw [addf_apply, LibMatmul.dotGeneral_apply, hbias]
  unfold linAt
  refine congrArg₂ (· + ·) ?_ rfl
  refine concat_sum h _ a b W _ _ p q (fun k => ?_) (fun k => ?_) (fun k => ?_) (fun k => ?_)
  · exact concatenate_pair_apply_left 1 a b hc _ rfl (ix2 p k)
      (fun d => by match d with | ⟨0, _⟩ => rfl | ⟨1, _⟩ => rfl)
  · exact concatenate_pair_apply_right 1 a b hc _ rfl rfl (ix2 p k)
      (fun d hd => by match d with | ⟨0, _⟩ => rfl | ⟨1, _⟩ => exact absurd rfl hd)
      (Nat.add_comm _ _)
  · exact extractStridedSlice_apply ![0, 0] W hs0 (ix2 k q) (ix2 ⟨k.val, by omega⟩ q)
      (fun d => by match d with | ⟨0, _⟩ => exact (Nat.zero_add _).symm | ⟨1, _⟩ => exact (Nat.zero_add _).symm)
  · exact extractStridedSlice_apply ![A, 0] W hs1 (ix2 k q) (ix2 ⟨A + k.val, by omega⟩ q)
      (fun d => by match d with | ⟨0, _⟩ => rfl | ⟨1, _⟩ => exact (Nat.zero_add _).symm)

/-- The same layer followed by the host's clamp at zero (the maximum with a zero broadcast from a scalar). -/
theorem relu_concat_dot_bias_at (h : A + B = K)
    (a : FVec Ideal ⟨2, ![R, A]⟩ .f32) (b : FVec Ideal ⟨2, ![R, B]⟩ .f32) (W : FVec Ideal ⟨2, ![K, N]⟩ .f32)
    (bias : FVec Ideal ⟨1, ![N]⟩ .f32)
    (hc : Shape.Concatenates [(⟨2, ![R, A]⟩ : Shape), ⟨2, ![R, B]⟩] ⟨2, ![R, K]⟩ 1)
    (hb1 : (⟨1, ![N]⟩ : Shape).BroadcastsInDim ⟨2, ![1, N]⟩ ![1])
    (hb2 : (⟨2, ![1, N]⟩ : Shape).BroadcastsInDim ⟨2, ![R, N]⟩ ![0, 1])
    (hs0 : (⟨2, ![K, N]⟩ : Shape).Slices ![0, 0] ⟨2, ![A, N]⟩)
    (hs1 : (⟨2, ![K, N]⟩ : Shape).Slices ![A, 0] ⟨2, ![B, N]⟩)
    (hr : (⟨1, ![N]⟩ : Shape).ShapeCasts ⟨2, ![1, N]⟩)
    (hz : (⟨0, ![]⟩ : Shape).BroadcastsInDim ⟨2, ![R, N]⟩ ![])
    (prec : Option ContractPrecision) (sched : HostSchedule) (p : Fin R) (q : Fin N) :
    maximumf (addf (FloatOps.dotGeneral (DotDims.plain R K N) prec sched
            (concatenate ⟨2, ![R, K]⟩ 1 [⟨⟨2, ![R, A]⟩, a⟩, ⟨⟨2, ![R, B]⟩, b⟩] hc) W)
        (broadcastInDim ⟨2, ![R, N]⟩ ![0, 1] hb2 (broadcastInDim ⟨2, ![1, N]⟩ ![1] hb1 bias)))
      (broadcastInDim ⟨2, ![R, N]⟩ ![] hz (constant (F := Ideal) ⟨0, ![]⟩ .f32 0x00000000#32)) (ix2 p q)
      = max (linAt a b (extractStridedSlice ⟨2, ![A, N]⟩ ![0, 0] W hs0) (extractStridedSlice ⟨2, ![B, N]⟩ ![A, 0] W hs1)
          (shapeCast ⟨2, ![1, N]⟩ bias hr) p q) (Ideal.ofBits .f32 0x00000000#32) := by
  rw [maximumf_apply]
  refine congrArg₂ max (concat_dot_bias_at h a b W bias hc hb1 hb2 hs0 hs1 hr prec sched p q) ?_
  exact broadcastInDim_apply ![] hz _ (ix2 p q) ix0 (fun d => d.elim0)

end Cert.Bridge.LibFusedLinear

end
-- ==== Proof.EdgeMessage1.lean ====
/-
  Region 0, the first layer's edge messages: each edge's gathered source features and its own features through the
  message weights, m1 = h_src · Wm1[0:64, :] + e · Wm1[64:128, :] + bm1, computed 10000 edges at a time. What the region
  leaves in its output array is that function of the arrays it is entered with, whatever they are.
-/
import proofs.«119431_j55594056680038_1_alg».proof.Proof.Gen.KernelIdeal.Frame
import proofs.«119431_j55594056680038_1_alg».proof.Proof.LibMatmul
import proofs.«119431_j55594056680038_1_alg».proof.Proof.LibFusedLinear
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.EdgeMessage1

open Cert.KernelIdeal Cert.KernelIdeal.Gen Idealize.ShloMosaic Idealize.ShloMosaic.TcCoe Idealize.SL.Sem
open Idealize.ShloMosaic.ValueIdx Idealize.ShloMosaic.Pipeline
open Cert.Bridge Cert.Bridge.LibFusedLinear

theorem zero_offsets : (![0, 0] : Fin 2 → Nat) = fun _ => 0 := funext fun a => by fin_cases a <;> rfl

/-- The first layer's edge messages as one function of the region's five input arrays: row p of the result is row p of `a` through `wa` plus row p of `b` through `wb` plus the bias row. -/
def layer (a : FVec Ideal S800000x64 .f32) (b : FVec Ideal S800000x64 .f32) (wa : FVec Ideal S64x128 .f32)
    (wb : FVec Ideal S64x128 .f32) (bias : FVec Ideal S1x128 .f32) : FVec Ideal S800000x128 .f32 :=
  fun i => linAt a b wa wb bias (i 0) (i 1)

/-- The body's stored value at (p, q) of a block: the two partial products and the bias row. -/
theorem body_at (x0 : Vec Ideal S10000x64 .f32) (x1 : Vec Ideal S10000x64 .f32) (x2 : Vec Ideal S64x128 .f32)
    (x3 : Vec Ideal S64x128 .f32) (x4 : Vec Ideal S1x128 .f32) (p : Fin 10000) (q : Fin 128) :
    k0_pay1 (F := Ideal) x0 x1 x2 x3 x4 (ix2 p q)
      = linAt x0 x1 x2 x3 x4 p q := by
  unfold k0_pay1
  simp only [shapeCast_self]
  rw [addf_apply, addf_apply]
  unfold linAt
  refine congrArg₂ (· + ·) (congrArg₂ (· + ·) (LibMatmul.matmul_zero_apply none x0 x2 p q)
    (LibMatmul.matmul_zero_apply none x1 x3 p q)) ?_
  exact broadcastTo_apply x4 broadcasts_S1x128_S10000x128 (ix2 p q) (ix2 0 q)
    (fun a => by match a with | ⟨0, _⟩ => rfl | ⟨1, _⟩ => rfl)

/-- The printed index maps over the grid: the two row-blocked operands move with the output's row block, the weights
    and the bias stay at block (0, 0), and the output's row block at point `t` is `t`. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- What point `t` writes back is block `t` of the layer's whole-array function of the arrays as the region finds them. -/
theorem flushed_eq (c : Dev nD) (t : Fin cfg0.N) :
    (dat0 (F := Ideal) V c).flushed 5 t = ((cfg0.win 5).blk t).view.read (Elt Ideal)
      (layer (V c main_v6) (V c main_arg1) (V c main_v7) (V c main_v8) (V c main_v9)) := by
  show (cfg0.win 5).cut (grid0.coords t) ((dat0 V c).after 5 t) = _
  rw [after0_5]
  unfold out0_5
  rw [View.canon_unit_zero zero_offsets]
  simp only [View.ld_unit_zero (S := S10000x64) zero_offsets, View.ld_unit_zero (S := S10000x64) zero_offsets,
    View.ld_unit_zero (S := S64x128) zero_offsets, View.ld_unit_zero (S := S64x128) zero_offsets,
    View.ld_unit_zero (S := S1x128) zero_offsets]
  obtain ⟨e00, e01, e10, e11, e20, e21, e30, e31, e40, e41, e50, e51⟩ := index_facts t
  funext j
  obtain ⟨p, q, rfl⟩ : ∃ (p : Fin 10000) (q : Fin 128), j = ix2 p q := ⟨j 0, j 1, eq_ix2 j⟩
  refine (body_at (iblk0 V c 0 t) (iblk0 V c 1 t) (iblk0 V c 2 t) (iblk0 V c 3 t) (iblk0 V c 4 t) p q).trans ?_
  show _ = layer (V c main_v6) (V c main_arg1) (V c main_v7) (V c main_v8) (V c main_v9)
    (((cfg0.win 5).blk t).view.emb (ix2 p q))
  unfold layer linAt
  refine congrArg₂ (· + ·) (congrArg₂ (· + ·)
    (Finset.sum_congr rfl fun k _ => congrArg₂ (· * ·) ?_ ?_)
    (Finset.sum_congr rfl fun k _ => congrArg₂ (· * ·) ?_ ?_)) ?_
  · show V c main_v6 (((cfg0.win 0).blk t).view.emb (ix2 p k)) = V c main_v6 _
    refine congrArg _ (funext fun a => Fin.ext ?_)
    match a with
    | ⟨0, _⟩ => show win0_0.index t (0 : Fin 2) * 10000 + 1 * p.val = win0_5.index t (0 : Fin 2) * 10000 + 1 * p.val; omega
    | ⟨1, _⟩ => show win0_0.index t (1 : Fin 2) * 64 + 1 * k.val = k.val; omega
  · show V c main_v7 (((cfg0.win 2).blk t).view.emb (ix2 k q)) = V c main_v7 _
    refine congrArg _ (funext fun a => Fin.ext ?_)
    match a with
    | ⟨0, _⟩ => show win0_2.index t (0 : Fin 2) * 64 + 1 * k.val = k.val; omega
    | ⟨1, _⟩ => show win0_2.index t (1 : Fin 2) * 128 + 1 * q.val = win0_5.index t (1 : Fin 2) * 128 + 1 * q.val; omega
  · show V c main_arg1 (((cfg0.win 1).blk t).view.emb (ix2 p k)) = V c main_arg1 _
    refine congrArg _ (funext fun a => Fin.ext ?_)
    match a with
    | ⟨0, _⟩ => show win0_1.index t (0 : Fin 2) * 10000 + 1 * p.val = win0_5.index t (0 : Fin 2) * 10000 + 1 * p.val; omega
    | ⟨1, _⟩ => show win0_1.index t (1 : Fin 2) * 64 + 1 * k.val = k.val; omega
  · show V c main_v8 (((cfg0.win 3).blk t).view.emb (ix2 k q)) = V c main_v8 _
    refine congrArg _ (funext fun a => Fin.ext ?_)
    match a with
    | ⟨0, _⟩ => show win0_3.index t (0 : Fin 2) * 64 + 1 * k.val = k.val; omega
    | ⟨1, _⟩ => show win0_3.index t (1 : Fin 2) * 128 + 1 * q.val = win0_5.index t (1 : Fin 2) * 128 + 1 * q.val; omega
  · show V c main_v9 (((cfg0.win 4).blk t).view.emb (ix2 0 q)) = V c main_v9 _
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * q.val = win0_5.index t (1 : Fin 2) * 128 + 1 * q.val; omega

/-- An index of the output array is in point `t`'s block iff each coordinate is in the block's range on its axis. -/
theorem mem_block (t : Fin cfg0.N) (i : S800000x128.Idx) :
    i ∈ ((cfg0.win 5).blk t).view.set ↔ ∀ a : Fin 2, win0_5.index t a * S10000x128.size a ≤ (i a).val ∧ (i a).val < win0_5.index t a * S10000x128.size a + S10000x128.size a := by
  show i ∈ ((View.whole main_v10).slice (win0_5.rect t)).set ↔ _
  rw [View.set_slice_whole, Rect.mem_set_unit]
  exact Iff.rfl

/-- Every row of the output lies in the block of the point numbered by its row divided by the block's 10000 rows. -/
theorem covered (i : S800000x128.Idx) :
    ∃ t : Fin cfg0.N, (cfg0.win 5).flush t = true ∧ i ∈ ((cfg0.win 5).blk t).view.set := by
  have hi0 : (i 0).val < 800000 := (i 0).isLt
  have hi1 : (i 1).val < 128 := (i 1).isLt
  have hN : cfg0.N = 80 := N_0
  let t : Fin cfg0.N := ⟨(i 0).val / 10000, by rw [hN]; omega⟩
  obtain ⟨e00, e01, e10, e11, e20, e21, e30, e31, e40, e41, e50, e51⟩ := index_facts t
  have ht : t.val = (i 0).val / 10000 := rfl
  refine ⟨t, flush0_5 t, ?_⟩
  rw [mem_block]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 128 ≤ (i 1).val ∧ (i 1).val < win0_5.index t (1 : Fin 2) * 128 + 128; omega

/-- The output array after the region: the layer's function of the arrays as the region finds them. -/
theorem array_eq (c : Dev nD) :
    (dat0 (F := Ideal) V c).arrAt 5 cfg0.N
      = layer (V c main_v6) (V c main_arg1) (V c main_v7) (V c main_v8) (V c main_v9) :=
  (dat0 (F := Ideal) V c).arrAt_eq_of_cover 5 _ (fun t _ => flushed_eq V c t) covered

end Cert.KernelIdeal.EdgeMessage1

end
-- ==== Proof.NodeUpdate1.lean ====
/-
  Region 1, the first layer's node update: each node's own features and the mean of its incoming messages through the
  apply weights, clamped below at zero, h1 = max(x · Wa1[0:64, :] + mean1 · Wa1[64:192, :] + ba1, 0), 10000 nodes at a time.
  What the region leaves in its output array is that function of the arrays it is entered with.
-/
import proofs.«119431_j55594056680038_1_alg».proof.Proof.Gen.KernelIdeal.Frame
import proofs.«119431_j55594056680038_1_alg».proof.Proof.LibMatmul
import proofs.«119431_j55594056680038_1_alg».proof.Proof.LibFusedLinear
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.NodeUpdate1

open Cert.KernelIdeal Cert.KernelIdeal.Gen Idealize.ShloMosaic Idealize.ShloMosaic.TcCoe Idealize.SL.Sem
open Idealize.ShloMosaic.ValueIdx Idealize.ShloMosaic.Pipeline
open Cert.Bridge Cert.Bridge.LibFusedLinear

theorem zero_offsets : (![0, 0] : Fin 2 → Nat) = fun _ => 0 := funext fun a => by fin_cases a <;> rfl

/-- The first layer's node update as one function of the region's five input arrays. -/
def layer (a : FVec Ideal S50000x64 .f32) (b : FVec Ideal S50000x128 .f32) (wa : FVec Ideal S64x128 .f32)
    (wb : FVec Ideal S128x128 .f32) (bias : FVec Ideal S1x128 .f32) : FVec Ideal S50000x128 .f32 :=
  fun i => max (linAt a b wa wb bias (i 0) (i 1)) (Ideal.ofBits .f32 0x00000000#32)

/-- The body's stored value at (p, q) of a block: the two partial products and the bias row, clamped below at zero. -/
theorem body_at (x0 : Vec Ideal S10000x64 .f32) (x1 : Vec Ideal S10000x128 .f32) (x2 : Vec Ideal S64x128 .f32)
    (x3 : Vec Ideal S128x128 .f32) (x4 : Vec Ideal S1x128 .f32) (p : Fin 10000) (q : Fin 128) :
    k1_pay1 (F := Ideal) x0 x1 x2 x3 x4 (ix2 p q)
      = max (linAt x0 x1 x2 x3 x4 p q) (Ideal.ofBits .f32 0x00000000#32) := by
  unfold k1_pay1
  simp only [shapeCast_self]
  rw [maximumf_apply, broadcast_apply]
  refine congrArg₂ max ?_ rfl
  rw [addf_apply, addf_apply]
  unfold linAt
  refine congrArg₂ (· + ·) (congrArg₂ (· + ·) (LibMatmul.matmul_zero_apply none x0 x2 p q)
    (LibMatmul.matmul_zero_apply none x1 x3 p q)) ?_
  exact broadcastTo_apply x4 broadcasts_S1x128_S10000x128 (ix2 p q) (ix2 0 q)
    (fun a => by match a with | ⟨0, _⟩ => rfl | ⟨1, _⟩ => rfl)

/-- The printed index maps over the grid: the two row-blocked operands move with the output's row block, the weights
    and the bias stay at block (0, 0), and the output's row block at point `t` is `t`. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- What point `t` writes back is block `t` of the layer's whole-array function of the arrays as the region finds them. -/
theorem flushed_eq (c : Dev nD) (t : Fin cfg1.N) :
    (dat1 (F := Ideal) V c).flushed 5 t = ((cfg1.win 5).blk t).view.read (Elt Ideal)
      (layer (V c main_arg0) (V c main_v22) (V c main_v23) (V c main_v24) (V c main_v25)) := by
  show (cfg1.win 5).cut (grid1.coords t) ((dat1 V c).after 5 t) = _
  rw [after1_5]
  unfold out1_5
  rw [View.canon_unit_zero zero_offsets]
  simp only [View.ld_unit_zero (S := S10000x64) zero_offsets, View.ld_unit_zero (S := S10000x128) zero_offsets,
    View.ld_unit_zero (S := S64x128) zero_offsets, View.ld_unit_zero (S := S128x128) zero_offsets,
    View.ld_unit_zero (S := S1x128) zero_offsets]
  obtain ⟨e00, e01, e10, e11, e20, e21, e30, e31, e40, e41, e50, e51⟩ := index_facts t
  funext j
  obtain ⟨p, q, rfl⟩ : ∃ (p : Fin 10000) (q : Fin 128), j = ix2 p q := ⟨j 0, j 1, eq_ix2 j⟩
  refine (body_at (iblk1 V c 0 t) (iblk1 V c 1 t) (iblk1 V c 2 t) (iblk1 V c 3 t) (iblk1 V c 4 t) p q).trans ?_
  show _ = layer (V c main_arg0) (V c main_v22) (V c main_v23) (V c main_v24) (V c main_v25)
    (((cfg1.win 5).blk t).view.emb (ix2 p q))
  unfold layer linAt
  refine congrArg₂ max ?_ rfl
  refine congrArg₂ (· + ·) (congrArg₂ (· + ·)
    (Finset.sum_congr rfl fun k _ => congrArg₂ (· * ·) ?_ ?_)
    (Finset.sum_congr rfl fun k _ => congrArg₂ (· * ·) ?_ ?_)) ?_
  · show V c main_arg0 (((cfg1.win 0).blk t).view.emb (ix2 p k)) = V c main_arg0 _
    refine congrArg _ (funext fun a => Fin.ext ?_)
    match a with
    | ⟨0, _⟩ => show win1_0.index t (0 : Fin 2) * 10000 + 1 * p.val = win1_5.index t (0 : Fin 2) * 10000 + 1 * p.val; omega
    | ⟨1, _⟩ => show win1_0.index t (1 : Fin 2) * 64 + 1 * k.val = k.val; omega
  · show V c main_v23 (((cfg1.win 2).blk t).view.emb (ix2 k q)) = V c main_v23 _
    refine congrArg _ (funext fun a => Fin.ext ?_)
    match a with
    | ⟨0, _⟩ => show win1_2.index t (0 : Fin 2) * 64 + 1 * k.val = k.val; omega
    | ⟨1, _⟩ => show win1_2.index t (1 : Fin 2) * 128 + 1 * q.val = win1_5.index t (1 : Fin 2) * 128 + 1 * q.val; omega
  · show V c main_v22 (((cfg1.win 1).blk t).view.emb (ix2 p k)) = V c main_v22 _
    refine congrArg _ (funext fun a => Fin.ext ?_)
    match a with
    | ⟨0, _⟩ => show win1_1.index t (0 : Fin 2) * 10000 + 1 * p.val = win1_5.index t (0 : Fin 2) * 10000 + 1 * p.val; omega
    | ⟨1, _⟩ => show win1_1.index t (1 : Fin 2) * 128 + 1 * k.val = k.val; omega
  · show V c main_v24 (((cfg1.win 3).blk t).view.emb (ix2 k q)) = V c main_v24 _
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * q.val = win1_5.index t (1 : Fin 2) * 128 + 1 * q.val; omega
  · show V c main_v25 (((cfg1.win 4).blk t).view.emb (ix2 0 q)) = V c main_v25 _
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * q.val = win1_5.index t (1 : Fin 2) * 128 + 1 * q.val; omega

/-- An index of the output array is in point `t`'s block iff each coordinate is in the block's range on its axis. -/
theorem mem_block (t : Fin cfg1.N) (i : S50000x128.Idx) :
    i ∈ ((cfg1.win 5).blk t).view.set ↔ ∀ a : Fin 2, win1_5.index t a * S10000x128.size a ≤ (i a).val ∧ (i a).val < win1_5.index t a * S10000x128.size a + S10000x128.size a := by
  show i ∈ ((View.whole main_v26).slice (win1_5.rect t)).set ↔ _
  rw [View.set_slice_whole, Rect.mem_set_unit]
  exact Iff.rfl

/-- Every row of the output lies in the block of the point numbered by its row divided by the block's 10000 rows. -/
theorem covered (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 5 := N_1
  let t : Fin cfg1.N := ⟨(i 0).val / 10000, by rw [hN]; omega⟩
  obtain ⟨e00, e01, e10, e11, e20, e21, e30, e31, e40, e41, e50, e51⟩ := index_facts t
  have ht : t.val = (i 0).val / 10000 := rfl
  refine ⟨t, flush1_5 t, ?_⟩
  rw [mem_block]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 128 ≤ (i 1).val ∧ (i 1).val < win1_5.index t (1 : Fin 2) * 128 + 128; omega

/-- The output array after the region: the layer's function of the arrays as the region finds them. -/
theorem array_eq (c : Dev nD) :
    (dat1 (F := Ideal) V c).arrAt 5 cfg1.N
      = layer (V c main_arg0) (V c main_v22) (V c main_v23) (V c main_v24) (V c main_v25) :=
  (dat1 (F := Ideal) V c).arrAt_eq_of_cover 5 _ (fun t _ => flushed_eq V c t) covered

end Cert.KernelIdeal.NodeUpdate1

end
-- ==== Proof.EdgeMessage2.lean ====
/-
  Region 2, the second layer's edge messages: each edge's gathered hidden source features and its own features through
  the message weights, m2 = h1_src · Wm2[0:128, :] + e · Wm2[128:192, :] + bm2, 10000 edges at a time. What the region
  leaves in its output array is that function of the arrays it is entered with.
-/
import proofs.«119431_j55594056680038_1_alg».proof.Proof.Gen.KernelIdeal.Frame
import proofs.«119431_j55594056680038_1_alg».proof.Proof.LibMatmul
import proofs.«119431_j55594056680038_1_alg».proof.Proof.LibFusedLinear
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.EdgeMessage2

open Cert.KernelIdeal Cert.KernelIdeal.Gen Idealize.ShloMosaic Idealize.ShloMosaic.TcCoe Idealize.SL.Sem
open Idealize.ShloMosaic.ValueIdx Idealize.ShloMosaic.Pipeline
open Cert.Bridge Cert.Bridge.LibFusedLinear

theorem zero_offsets : (![0, 0] : Fin 2 → Nat) = fun _ => 0 := funext fun a => by fin_cases a <;> rfl

/-- The second layer's edge messages as one function of the region's five input arrays. -/
def layer (a : FVec Ideal S800000x128 .f32) (b : FVec Ideal S800000x64 .f32) (wa : FVec Ideal S128x128 .f32)
    (wb : FVec Ideal S64x128 .f32) (bias : FVec Ideal S1x128 .f32) : FVec Ideal S800000x128 .f32 :=
  fun i => linAt a b wa wb bias (i 0) (i 1)

/-- The body's stored value at (p, q) of a block: the two partial products and the bias row. -/
theorem body_at (x0 : Vec Ideal S10000x128 .f32) (x1 : Vec Ideal S10000x64 .f32) (x2 : Vec Ideal S128x128 .f32)
    (x3 : Vec Ideal S64x128 .f32) (x4 : Vec Ideal S1x128 .f32) (p : Fin 10000) (q : Fin 128) :
    k2_pay1 (F := Ideal) x0 x1 x2 x3 x4 (ix2 p q)
      = linAt x0 x1 x2 x3 x4 p q := by
  unfold k2_pay1
  simp only [shapeCast_self]
  rw [addf_apply, addf_apply]
  unfold linAt
  refine congrArg₂ (· + ·) (congrArg₂ (· + ·) (LibMatmul.matmul_zero_apply none x0 x2 p q)
    (LibMatmul.matmul_zero_apply none x1 x3 p q)) ?_
  exact broadcastTo_apply x4 broadcasts_S1x128_S10000x128 (ix2 p q) (ix2 0 q)
    (fun a => by match a with | ⟨0, _⟩ => rfl | ⟨1, _⟩ => rfl)

/-- The printed index maps over the grid: the two row-blocked operands move with the output's row block, the weights
    and the bias stay at block (0, 0), and the output's row block at point `t` is `t`. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- What point `t` writes back is block `t` of the layer's whole-array function of the arrays as the region finds them. -/
theorem flushed_eq (c : Dev nD) (t : Fin cfg2.N) :
    (dat2 (F := Ideal) V c).flushed 5 t = ((cfg2.win 5).blk t).view.read (Elt Ideal)
      (layer (V c main_v33) (V c main_arg1) (V c main_v34) (V c main_v35) (V c main_v36)) := by
  show (cfg2.win 5).cut (grid2.coords t) ((dat2 V c).after 5 t) = _
  rw [after2_5]
  unfold out2_5
  rw [View.canon_unit_zero zero_offsets]
  simp only [View.ld_unit_zero (S := S10000x128) zero_offsets, View.ld_unit_zero (S := S10000x64) zero_offsets,
    View.ld_unit_zero (S := S128x128) zero_offsets, View.ld_unit_zero (S := S64x128) zero_offsets,
    View.ld_unit_zero (S := S1x128) zero_offsets]
  obtain ⟨e00, e01, e10, e11, e20, e21, e30, e31, e40, e41, e50, e51⟩ := index_facts t
  funext j
  obtain ⟨p, q, rfl⟩ : ∃ (p : Fin 10000) (q : Fin 128), j = ix2 p q := ⟨j 0, j 1, eq_ix2 j⟩
  refine (body_at (iblk2 V c 0 t) (iblk2 V c 1 t) (iblk2 V c 2 t) (iblk2 V c 3 t) (iblk2 V c 4 t) p q).trans ?_
  show _ = layer (V c main_v33) (V c main_arg1) (V c main_v34) (V c main_v35) (V c main_v36)
    (((cfg2.win 5).blk t).view.emb (ix2 p q))
  unfold layer linAt
  refine congrArg₂ (· + ·) (congrArg₂ (· + ·)
    (Finset.sum_congr rfl fun k _ => congrArg₂ (· * ·) ?_ ?_)
    (Finset.sum_congr rfl fun k _ => congrArg₂ (· * ·) ?_ ?_)) ?_
  · show V c main_v33 (((cfg2.win 0).blk t).view.emb (ix2 p k)) = V c main_v33 _
    refine congrArg _ (funext fun a => Fin.ext ?_)
    match a with
    | ⟨0, _⟩ => show win2_0.index t (0 : Fin 2) * 10000 + 1 * p.val = win2_5.index t (0 : Fin 2) * 10000 + 1 * p.val; omega
    | ⟨1, _⟩ => show win2_0.index t (1 : Fin 2) * 128 + 1 * k.val = k.val; omega
  · show V c main_v34 (((cfg2.win 2).blk t).view.emb (ix2 k q)) = V c main_v34 _
    refine congrArg _ (funext fun a => Fin.ext ?_)
    match a with
    | ⟨0, _⟩ => show win2_2.index t (0 : Fin 2) * 128 + 1 * k.val = k.val; omega
    | ⟨1, _⟩ => show win2_2.index t (1 : Fin 2) * 128 + 1 * q.val = win2_5.index t (1 : Fin 2) * 128 + 1 * q.val; omega
  · show V c main_arg1 (((cfg2.win 1).blk t).view.emb (ix2 p k)) = V c main_arg1 _
    refine congrArg _ (funext fun a => Fin.ext ?_)
    match a with
    | ⟨0, _⟩ => show win2_1.index t (0 : Fin 2) * 10000 + 1 * p.val = win2_5.index t (0 : Fin 2) * 10000 + 1 * p.val; omega
    | ⟨1, _⟩ => show win2_1.index t (1 : Fin 2) * 64 + 1 * k.val = k.val; omega
  · show V c main_v35 (((cfg2.win 3).blk t).view.emb (ix2 k q)) = V c main_v35 _
    refine congrArg _ (funext fun a => Fin.ext ?_)
    match a with
    | ⟨0, _⟩ => show win2_3.index t (0 : Fin 2) * 64 + 1 * k.val = k.val; omega
    | ⟨1, _⟩ => show win2_3.index t (1 : Fin 2) * 128 + 1 * q.val = win2_5.index t (1 : Fin 2) * 128 + 1 * q.val; omega
  · show V c main_v36 (((cfg2.win 4).blk t).view.emb (ix2 0 q)) = V c main_v36 _
    refine congrArg _ (funext fun a => Fin.ext ?_)
    match a with
    | ⟨0, _⟩ => show win2_4.index t (0 : Fin 2) * 1 + 1 * 0 = 0; omega
    | ⟨1, _⟩ => show win2_4.index t (1 : Fin 2) * 128 + 1 * q.val = win2_5.index t (1 : Fin 2) * 128 + 1 * q.val; omega

/-- An index of the output array is in point `t`'s block iff each coordinate is in the block's range on its axis. -/
theorem mem_block (t : Fin cfg2.N) (i : S800000x128.Idx) :
    i ∈ ((cfg2.win 5).blk t).view.set ↔ ∀ a : Fin 2, win2_5.index t a * S10000x128.size a ≤ (i a).val ∧ (i a).val < win2_5.index t a * S10000x128.size a + S10000x128.size a := by
  show i ∈ ((View.whole main_v37).slice (win2_5.rect t)).set ↔ _
  rw [View.set_slice_whole, Rect.mem_set_unit]
  exact Iff.rfl

/-- Every row of the output lies in the block of the point numbered by its row divided by the block's 10000 rows. -/
theorem covered (i : S800000x128.Idx) :
    ∃ t : Fin cfg2.N, (cfg2.win 5).flush t = true ∧ i ∈ ((cfg2.win 5).blk t).view.set := by
  have hi0 : (i 0).val < 800000 := (i 0).isLt
  have hi1 : (i 1).val < 128 := (i 1).isLt
  have hN : cfg2.N = 80 := N_2
  let t : Fin cfg2.N := ⟨(i 0).val / 10000, by rw [hN]; omega⟩
  obtain ⟨e00, e01, e10, e11, e20, e21, e30, e31, e40, e41, e50, e51⟩ := index_facts t
  have ht : t.val = (i 0).val / 10000 := rfl
  refine ⟨t, flush2_5 t, ?_⟩
  rw [mem_block]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 128 ≤ (i 1).val ∧ (i 1).val < win2_5.index t (1 : Fin 2) * 128 + 128; omega

/-- The output array after the region: the layer's function of the arrays as the region finds them. -/
theorem array_eq (c : Dev nD) :
    (dat2 (F := Ideal) V c).arrAt 5 cfg2.N
      = layer (V c main_v33) (V c main_arg1) (V c main_v34) (V c main_v35) (V c main_v36) :=
  (dat2 (F := Ideal) V c).arrAt_eq_of_cover 5 _ (fun t _ => flushed_eq V c t) covered

end Cert.KernelIdeal.EdgeMessage2

end
-- ==== Proof.NodeUpdate2.lean ====
/-
  Region 3, the second layer's node update: each node's hidden features and the mean of its incoming second-layer
  messages through the apply weights, clamped below at zero, h2 = max(h1 · Wa2[0:128, :] + mean2 · Wa2[128:256, :] + ba2, 0),
  10000 nodes at a time. What the region leaves in its output array is that function of the arrays it is entered with.
-/
import proofs.«119431_j55594056680038_1_alg».proof.Proof.Gen.KernelIdeal.Frame
import proofs.«119431_j55594056680038_1_alg».proof.Proof.LibMatmul
import proofs.«119431_j55594056680038_1_alg».proof.Proof.LibFusedLinear
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.NodeUpdate2

open Cert.KernelIdeal Cert.KernelIdeal.Gen Idealize.ShloMosaic Idealize.ShloMosaic.TcCoe Idealize.SL.Sem
open Idealize.ShloMosaic.ValueIdx Idealize.ShloMosaic.Pipeline
open Cert.Bridge Cert.Bridge.LibFusedLinear

theorem zero_offsets : (![0, 0] : Fin 2 → Nat) = fun _ => 0 := funext fun a => by fin_cases a <;> rfl

/-- The second layer's node update as one function of the region's five input arrays. -/
def layer (a : FVec Ideal S50000x128 .f32) (b : FVec Ideal S50000x128 .f32) (wa : FVec Ideal S128x128 .f32)
    (wb : FVec Ideal S128x128 .f32) (bias : FVec Ideal S1x128 .f32) : FVec Ideal S50000x128 .f32 :=
  fun i => max (linAt a b wa wb bias (i 0) (i 1)) (Ideal.ofBits .f32 0x00000000#32)

/-- The body's stored value at (p, q) of a block: the two partial products and the bias row, clamped below at zero. -/
theorem body_at (x0 : Vec Ideal S10000x128 .f32) (x1 : Vec Ideal S10000x128 .f32) (x2 : Vec Ideal S128x128 .f32)
    (x3 : Vec Ideal S128x128 .f32) (x4 : Vec Ideal S1x128 .f32) (p : Fin 10000) (q : Fin 128) :
    k3_pay1 (F := Ideal) x0 x1 x2 x3 x4 (ix2 p q)
      = max (linAt x0 x1 x2 x3 x4 p q) (Ideal.ofBits .f32 0x00000000#32) := by
  unfold k3_pay1
  simp only [shapeCast_self]
  rw [maximumf_apply, broadcast_apply]
  refine congrArg₂ max ?_ rfl
  rw [addf_apply, addf_apply]
  unfold linAt
  refine congrArg₂ (· + ·) (congrArg₂ (· + ·) (LibMatmul.matmul_zero_apply none x0 x2 p q)
    (LibMatmul.matmul_zero_apply none x1 x3 p q)) ?_
  exact broadcastTo_apply x4 broadcasts_S1x128_S10000x128 (ix2 p q) (ix2 0 q)
    (fun a => by match a with | ⟨0, _⟩ => rfl | ⟨1, _⟩ => rfl)

/-- The printed index maps over the grid: the two row-blocked operands move with the output's row block, the weights
    and the bias stay at block (0, 0), and the output's row block at point `t` is `t`. -/
theorem index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

variable (V : (c : Dev nD) → (b : Ref sig .tc) → Buf (Elt Ideal) ((c : Thread nD τ).loc b))

/-- What point `t` writes back is block `t` of the layer's whole-array function of the arrays as the region finds them. -/
theorem flushed_eq (c : Dev nD) (t : Fin cfg3.N) :
    (dat3 (F := Ideal) V c).flushed 5 t = ((cfg3.win 5).blk t).view.read (Elt Ideal)
      (layer (V c main_v26) (V c main_v45) (V c main_v46) (V c main_v47) (V c main_v48)) := by
  show (cfg3.win 5).cut (grid3.coords t) ((dat3 V c).after 5 t) = _
  rw [after3_5]
  unfold out3_5
  rw [View.canon_unit_zero zero_offsets]
  simp only [View.ld_unit_zero (S := S10000x128) zero_offsets, View.ld_unit_zero (S := S10000x128) zero_offsets,
    View.ld_unit_zero (S := S128x128) zero_offsets, View.ld_unit_zero (S := S128x128) zero_offsets,
    View.ld_unit_zero (S := S1x128) zero_offsets]
  obtain ⟨e00, e01, e10, e11, e20, e21, e30, e31, e40, e41, e50, e51⟩ := index_facts t
  funext j
  obtain ⟨p, q, rfl⟩ : ∃ (p : Fin 10000) (q : Fin 128), j = ix2 p q := ⟨j 0, j 1, eq_ix2 j⟩
  refine (body_at (iblk3 V c 0 t) (iblk3 V c 1 t) (iblk3 V c 2 t) (iblk3 V c 3 t) (iblk3 V c 4 t) p q).trans ?_
  show _ = layer (V c main_v26) (V c main_v45) (V c main_v46) (V c main_v47) (V c main_v48)
    (((cfg3.win 5).blk t).view.emb (ix2 p q))
  unfold layer linAt
  refine congrArg₂ max ?_ rfl
  refine congrArg₂ (· + ·) (congrArg₂ (· + ·)
    (Finset.sum_congr rfl fun k _ => congrArg₂ (· * ·) ?_ ?_)
    (Finset.sum_congr rfl fun k _ => congrArg₂ (· * ·) ?_ ?_)) ?_
  · show V c main_v26 (((cfg3.win 0).blk t).view.emb (ix2 p k)) = V c main_v26 _
    refine congrArg _ (funext fun a => Fin.ext ?_)
    match a with
    | ⟨0, _⟩ => show win3_0.index t (0 : Fin 2) * 10000 + 1 * p.val = win3_5.index t (0 : Fin 2) * 10000 + 1 * p.val; omega
    | ⟨1, _⟩ => show win3_0.index t (1 : Fin 2) * 128 + 1 * k.val = k.val; omega
  · show V c main_v46 (((cfg3.win 2).blk t).view.emb (ix2 k q)) = V c main_v46 _
    refine congrArg _ (funext fun a => Fin.ext ?_)
    match a with
    | ⟨0, _⟩ => show win3_2.index t (0 : Fin 2) * 128 + 1 * k.val = k.val; omega
    | ⟨1, _⟩ => show win3_2.index t (1 : Fin 2) * 128 + 1 * q.val = win3_5.index t (1 : Fin 2) * 128 + 1 * q.val; omega
  · show V c main_v45 (((cfg3.win 1).blk t).view.emb (ix2 p k)) = V c main_v45 _
    refine congrArg _ (funext fun a => Fin.ext ?_)
    match a with
    | ⟨0, _⟩ => show win3_1.index t (0 : Fin 2) * 10000 + 1 * p.val = win3_5.index t (0 : Fin 2) * 10000 + 1 * p.val; omega
    | ⟨1, _⟩ => show win3_1.index t (1 : Fin 2) * 128 + 1 * k.val = k.val; omega
  · show V c main_v47 (((cfg3.win 3).blk t).view.emb (ix2 k q)) = V c main_v47 _
    refine congrArg _ (funext fun a => Fin.ext ?_)
    match a with
    | ⟨0, _⟩ => show win3_3.index t (0 : Fin 2) * 128 + 1 * k.val = k.val; omega
    | ⟨1, _⟩ => show win3_3.index t (1 : Fin 2) * 128 + 1 * q.val = win3_5.index t (1 : Fin 2) * 128 + 1 * q.val; omega
  · show V c main_v48 (((cfg3.win 4).blk t).view.emb (ix2 0 q)) = V c main_v48 _
    refine congrArg _ (funext fun a => Fin.ext ?_)
    match a with
    | ⟨0, _⟩ => show win3_4.index t (0 : Fin 2) * 1 + 1 * 0 = 0; omega
    | ⟨1, _⟩ => show win3_4.index t (1 : Fin 2) * 128 + 1 * q.val = win3_5.index t (1 : Fin 2) * 128 + 1 * q.val; omega

/-- An index of the output array is in point `t`'s block iff each coordinate is in the block's range on its axis. -/
theorem mem_block (t : Fin cfg3.N) (i : S50000x128.Idx) :
    i ∈ ((cfg3.win 5).blk t).view.set ↔ ∀ a : Fin 2, win3_5.index t a * S10000x128.size a ≤ (i a).val ∧ (i a).val < win3_5.index t a * S10000x128.size a + S10000x128.size a := by
  show i ∈ ((View.whole main_v49).slice (win3_5.rect t)).set ↔ _
  rw [View.set_slice_whole, Rect.mem_set_unit]
  exact Iff.rfl

/-- Every row of the output lies in the block of the point numbered by its row divided by the block's 10000 rows. -/
theorem covered (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 5 := N_3
  let t : Fin cfg3.N := ⟨(i 0).val / 10000, by rw [hN]; omega⟩
  obtain ⟨e00, e01, e10, e11, e20, e21, e30, e31, e40, e41, e50, e51⟩ := index_facts t
  have ht : t.val = (i 0).val / 10000 := rfl
  refine ⟨t, flush3_5 t, ?_⟩
  rw [mem_block]
  intro a
  match a with
  | ⟨0, _⟩ => show win3_5.index t (0 : Fin 2) * 10000 ≤ (i 0).val ∧ (i 0).val < win3_5.index t (0 : Fin 2) * 10000 + 10000; omega
  | ⟨1, _⟩ => show win3_5.index t (1 : Fin 2) * 128 ≤ (i 1).val ∧ (i 1).val < win3_5.index t (1 : Fin 2) * 128 + 128; omega

/-- The output array after the region: the layer's function of the arrays as the region finds them. -/
theorem array_eq (c : Dev nD) :
    (dat3 (F := Ideal) V c).arrAt 5 cfg3.N
      = layer (V c main_v26) (V c main_v45) (V c main_v46) (V c main_v47) (V c main_v48) :=
  (dat3 (F := Ideal) V c).arrAt_eq_of_cover 5 _ (fun t _ => flushed_eq V c t) covered

end Cert.KernelIdeal.NodeUpdate2

end
-- ==== Proof.EdgeScore.lean ====
/-
  Region 4, the edge predictor: each edge's gathered source and destination embeddings through the predictor weights,
  score = h2_src · Wp[0:128, :] + h2_dst · Wp[128:256, :] + bp, 10000 edges at a time. What the region leaves in its
  output array is that function of the arrays it is entered with.
-/
import proofs.«119431_j55594056680038_1_alg».proof.Proof.Gen.KernelIdeal.Frame
import proofs.«119431_j55594056680038_1_alg».proof.Proof.LibMatmul
import proofs.«119431_j55594056680038_1_alg».proof.Proof.LibFusedLinear
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.EdgeScore

open Cert.KernelIdeal Cert.KernelIdeal.Gen Idealize.ShloMosaic Idealize.ShloMosaic.TcCoe Idealize.SL.Sem
open Idealize.ShloMosaic.ValueIdx Idealize.ShloMosaic.Pipeline
open Cert.Bridge Cert.Bridge.LibFusedLinear

theorem zero_offsets : (![0, 0] : Fin 2 → Nat) = fun _ => 0 := funext fun a => by fin_cases a <;> rfl

/-- The edge scores as one function of the region's five input arrays. -/
def layer (a : FVec Ideal S800000x128 .f32) (b : FVec Ideal S800000x128 .f32) (wa : FVec Ideal S128x10 .f32)
    (wb : FVec Ideal S128x10 .f32) (bias : FVec Ideal S1x10 .f32) : FVec Ideal S800000x10 .f32 :=
  fun i => linAt a b wa wb bias (i 0) (i 1)

/-- The body's stored value at (p, q) of a block: the two partial products and the bias row. -/
theorem body_at (x0 : Vec Ideal S10000x128 .f32) (x1 : Vec Ideal S10000x128 .f32) (x2 : Vec Ideal S128x10 .f32)
    (x3 : Vec Ideal S128x10 .f32) (x4 : Vec Ideal S1x10 .f32) (p : Fin 10000) (q : Fin 10) :
    k4_pay1 (F := Ideal) x0 x1 x2 x3 x4 (ix2 p q)
      = linAt x0 x1 x2 x3 x4 p q := by
  unfold k4_pay1
  simp only [shapeCast_self]
  rw [addf_apply, addf_apply]
  unfold linAt
  refine congrArg₂ (· + ·) (congrArg₂ (· + ·) (LibMatmul.matmul_zero_apply none x0 x2 p q)
    (LibMatmul.matmul_zero_apply none x1 x3 p q)) ?_
  exact broadcastTo_apply x4 broadcasts_S1x10_S10000x10 (ix2 p q) (ix2 0 q)
    (fun a => by match a with | ⟨0, _⟩ => rfl | ⟨1, _⟩ => rfl)

/-- The printed index maps over the grid: the two row-blocked operands move with the output's row block, the weights
    and the bias stay at block (0, 0), and the output's row block at point `t` is `t`. -/
theorem index_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

variable (V : (c : Dev nD) → (b : Ref sig .tc) → Buf (Elt Ideal) ((c : Thread nD τ).loc b))

/-- What point `t` writes back is block `t` of the layer's whole-array function of the arrays as the region finds them. -/
theorem flushed_eq (c : Dev nD) (t : Fin cfg4.N) :
    (dat4 (F := Ideal) V c).flushed 5 t = ((cfg4.win 5).blk t).view.read (Elt Ideal)
      (layer (V c main_v56) (V c main_v63) (V c main_v64) (V c main_v65) (V c main_v66)) := by
  show (cfg4.win 5).cut (grid4.coords t) ((dat4 V c).after 5 t) = _
  rw [after4_5]
  unfold out4_5
  rw [View.canon_unit_zero zero_offsets]
  simp only [View.ld_unit_zero (S := S10000x128) zero_offsets, View.ld_unit_zero (S := S10000x128) zero_offsets,
    View.ld_unit_zero (S := S128x10) zero_offsets, View.ld_unit_zero (S := S128x10) zero_offsets,
    View.ld_unit_zero (S := S1x10) zero_offsets]
  obtain ⟨e00, e01, e10, e11, e20, e21, e30, e31, e40, e41, e50, e51⟩ := index_facts t
  funext j
  obtain ⟨p, q, rfl⟩ : ∃ (p : Fin 10000) (q : Fin 10), j = ix2 p q := ⟨j 0, j 1, eq_ix2 j⟩
  refine (body_at (iblk4 V c 0 t) (iblk4 V c 1 t) (iblk4 V c 2 t) (iblk4 V c 3 t) (iblk4 V c 4 t) p q).trans ?_
  show _ = layer (V c main_v56) (V c main_v63) (V c main_v64) (V c main_v65) (V c main_v66)
    (((cfg4.win 5).blk t).view.emb (ix2 p q))
  unfold layer linAt
  refine congrArg₂ (· + ·) (congrArg₂ (· + ·)
    (Finset.sum_congr rfl fun k _ => congrArg₂ (· * ·) ?_ ?_)
    (Finset.sum_congr rfl fun k _ => congrArg₂ (· * ·) ?_ ?_)) ?_
  · show V c main_v56 (((cfg4.win 0).blk t).view.emb (ix2 p k)) = V c main_v56 _
    refine congrArg _ (funext fun a => Fin.ext ?_)
    match a with
    | ⟨0, _⟩ => show win4_0.index t (0 : Fin 2) * 10000 + 1 * p.val = win4_5.index t (0 : Fin 2) * 10000 + 1 * p.val; omega
    | ⟨1, _⟩ => show win4_0.index t (1 : Fin 2) * 128 + 1 * k.val = k.val; omega
  · show V c main_v64 (((cfg4.win 2).blk t).view.emb (ix2 k q)) = V c main_v64 _
    refine congrArg _ (funext fun a => Fin.ext ?_)
    match a with
    | ⟨0, _⟩ => show win4_2.index t (0 : Fin 2) * 128 + 1 * k.val = k.val; omega
    | ⟨1, _⟩ => show win4_2.index t (1 : Fin 2) * 10 + 1 * q.val = win4_5.index t (1 : Fin 2) * 10 + 1 * q.val; omega
  · show V c main_v63 (((cfg4.win 1).blk t).view.emb (ix2 p k)) = V c main_v63 _
    refine congrArg _ (funext fun a => Fin.ext ?_)
    match a with
    | ⟨0, _⟩ => show win4_1.index t (0 : Fin 2) * 10000 + 1 * p.val = win4_5.index t (0 : Fin 2) * 10000 + 1 * p.val; omega
    | ⟨1, _⟩ => show win4_1.index t (1 : Fin 2) * 128 + 1 * k.val = k.val; omega
  · show V c main_v65 (((cfg4.win 3).blk t).view.emb (ix2 k q)) = V c main_v65 _
    refine congrArg _ (funext fun a => Fin.ext ?_)
    match a with
    | ⟨0, _⟩ => show win4_3.index t (0 : Fin 2) * 128 + 1 * k.val = k.val; omega
    | ⟨1, _⟩ => show win4_3.index t (1 : Fin 2) * 10 + 1 * q.val = win4_5.index t (1 : Fin 2) * 10 + 1 * q.val; omega
  · show V c main_v66 (((cfg4.win 4).blk t).view.emb (ix2 0 q)) = V c main_v66 _
    refine congrArg _ (funext fun a => Fin.ext ?_)
    match a with
    | ⟨0, _⟩ => show win4_4.index t (0 : Fin 2) * 1 + 1 * 0 = 0; omega
    | ⟨1, _⟩ => show win4_4.index t (1 : Fin 2) * 10 + 1 * q.val = win4_5.index t (1 : Fin 2) * 10 + 1 * q.val; omega

/-- An index of the output array is in point `t`'s block iff each coordinate is in the block's range on its axis. -/
theorem mem_block (t : Fin cfg4.N) (i : S800000x10.Idx) :
    i ∈ ((cfg4.win 5).blk t).view.set ↔ ∀ a : Fin 2, win4_5.index t a * S10000x10.size a ≤ (i a).val ∧ (i a).val < win4_5.index t a * S10000x10.size a + S10000x10.size a := by
  show i ∈ ((View.whole main_v67).slice (win4_5.rect t)).set ↔ _
  rw [View.set_slice_whole, Rect.mem_set_unit]
  exact Iff.rfl

/-- Every row of the output lies in the block of the point numbered by its row divided by the block's 10000 rows. -/
theorem covered (i : S800000x10.Idx) :
    ∃ t : Fin cfg4.N, (cfg4.win 5).flush t = true ∧ i ∈ ((cfg4.win 5).blk t).view.set := by
  have hi0 : (i 0).val < 800000 := (i 0).isLt
  have hi1 : (i 1).val < 10 := (i 1).isLt
  have hN : cfg4.N = 80 := N_4
  let t : Fin cfg4.N := ⟨(i 0).val / 10000, by rw [hN]; omega⟩
  obtain ⟨e00, e01, e10, e11, e20, e21, e30, e31, e40, e41, e50, e51⟩ := index_facts t
  have ht : t.val = (i 0).val / 10000 := rfl
  refine ⟨t, flush4_5 t, ?_⟩
  rw [mem_block]
  intro a
  match a with
  | ⟨0, _⟩ => show win4_5.index t (0 : Fin 2) * 10000 ≤ (i 0).val ∧ (i 0).val < win4_5.index t (0 : Fin 2) * 10000 + 10000; omega
  | ⟨1, _⟩ => show win4_5.index t (1 : Fin 2) * 10 ≤ (i 1).val ∧ (i 1).val < win4_5.index t (1 : Fin 2) * 10 + 10; omega

/-- The output array after the region: the layer's function of the arrays as the region finds them. -/
theorem array_eq (c : Dev nD) :
    (dat4 (F := Ideal) V c).arrAt 5 cfg4.N
      = layer (V c main_v56) (V c main_v63) (V c main_v64) (V c main_v65) (V c main_v66) :=
  (dat4 (F := Ideal) V c).arrAt_eq_of_cover 5 _ (fun t _ => flushed_eq V c t) covered

end Cert.KernelIdeal.EdgeScore

end
-- ==== Proof.KernelFold.lean ====
/-
  The idealized kernel's result as one function of its fourteen arguments. The program alternates stretches of host
  operations (index normalisation and gathers, scatter-adds and the division by the clamped in-degree, the row slices of
  each weight matrix, the bias rows) with five pipelined regions, each a fused linear layer. Folding the buffer contents
  through the ten segments, each region's output array is its layer applied to what the preceding host stretch left, so
  the result buffer ends at the composition: edge messages, mean aggregation and node update, twice, then the edge scores.
-/
import proofs.«119431_j55594056680038_1_alg».proof.Proof.Gen.KernelIdeal.Frame
import proofs.«119431_j55594056680038_1_alg».proof.Proof.EdgeMessage1
import proofs.«119431_j55594056680038_1_alg».proof.Proof.NodeUpdate1
import proofs.«119431_j55594056680038_1_alg».proof.Proof.EdgeMessage2
import proofs.«119431_j55594056680038_1_alg».proof.Proof.NodeUpdate2
import proofs.«119431_j55594056680038_1_alg».proof.Proof.EdgeScore
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo Idealize.ShloMosaic.Pipeline

/-! ## The host stretches the layers share -/

/-- An edge endpoint as a row index into a 50000-row array: a negative index counts from the end. -/
def wrapIndex (s : (⟨S800000, .i32⟩ : BufTy).Contents (Elt Ideal)) : (⟨S800000x1, .i32⟩ : BufTy).Contents (Elt Ideal) :=
  broadcastInDim S800000x1 ![0] bcast_S800000_S800000x1_0 (select (cmpi .slt s (broadcastInDim S800000 ![] bcast_S_S800000 (constantI S_ 32 0#32))) (addi s (broadcastInDim S800000 ![] bcast_S_S800000 (constantI S_ 32 50000#32))) s)

/-- Each node's in-degree: ones scatter-added at the edges' destinations. -/
def inDegree (d : (⟨S800000, .i32⟩ : BufTy).Contents (Elt Ideal)) : (⟨S50000, .f32⟩ : BufTy).Contents (Elt Ideal) :=
  Host.scatterAdd (F := Ideal) scatter_S50000_S800000x1_S800000_n_0_0_1 (broadcastInDim S50000 ![] bcast_S_S50000 (constant S_ .f32 0x00000000#32)) (broadcastInDim S800000x1 ![0] bcast_S800000_S800000x1_0 d) (broadcastInDim S800000 ![] bcast_S_S800000 (constant S_ .f32 0x3F800000#32))

/-- The mean of the messages arriving at each node: their scatter-added sum over the in-degree clamped below at one. -/
def meanOver (msg : (⟨S800000x128, .f32⟩ : BufTy).Contents (Elt Ideal)) (d : (⟨S800000, .i32⟩ : BufTy).Contents (Elt Ideal)) : (⟨S50000x128, .f32⟩ : BufTy).Contents (Elt Ideal) :=
  Host.divf (F := Ideal) (Host.scatterAdd (F := Ideal) scatter_S50000x128_S800000x1_S800000x128_1_0_0_1 (broadcastInDim S50000x128 ![] bcast_S_S50000x128 (constant S_ .f32 0x00000000#32)) (broadcastInDim S800000x1 ![0] bcast_S800000_S800000x1_0 d) msg)
    (broadcastInDim S50000x128 ![0, 1] bcast_S50000x1_S50000x128_0_1 (broadcastInDim S50000x1 ![0] bcast_S50000_S50000x1_0 (maximumf (inDegree d) (broadcastInDim S50000 ![] bcast_S_S50000 (constant S_ .f32 0x3F800000#32)))))

/-! ## The network, layer by layer -/

/-- First-layer edge messages. -/
def msg1 (a0 : (⟨S50000x64, .f32⟩ : BufTy).Contents (Elt Ideal)) (a1 : (⟨S800000x64, .f32⟩ : BufTy).Contents (Elt Ideal)) (a2 : (⟨S800000, .i32⟩ : BufTy).Contents (Elt Ideal)) (a4 : (⟨S128x128, .f32⟩ : BufTy).Contents (Elt Ideal)) (a5 : (⟨S128, .f32⟩ : BufTy).Contents (Elt Ideal)) : (⟨S800000x128, .f32⟩ : BufTy).Contents (Elt Ideal) :=
  EdgeMessage1.layer (Host.gather gather_S50000x64_S800000x1_S800000x64_1_0_n_n_0_1_164 a0 (wrapIndex a2)) a1 (extractStridedSlice S64x128 ![0, 0] a4 slices_S128x128_S64x128_0_0) (extractStridedSlice S64x128 ![64, 0] a4 slices_S128x128_S64x128_64_0) (shapeCast S1x128 a5 shapeCasts_S128_S1x128)

/-- First-layer node features. -/
def hid1 (a0 : (⟨S50000x64, .f32⟩ : BufTy).Contents (Elt Ideal)) (a1 : (⟨S800000x64, .f32⟩ : BufTy).Contents (Elt Ideal)) (a2 : (⟨S800000, .i32⟩ : BufTy).Contents (Elt Ideal)) (a3 : (⟨S800000, .i32⟩ : BufTy).Contents (Elt Ideal)) (a4 : (⟨S128x128, .f32⟩ : BufTy).Contents (Elt Ideal)) (a5 : (⟨S128, .f32⟩ : BufTy).Contents (Elt Ideal)) (a6 : (⟨S192x128, .f32⟩ : BufTy).Contents (Elt Ideal)) (a7 : (⟨S128, .f32⟩ : BufTy).Contents (Elt Ideal)) : (⟨S50000x128, .f32⟩ : BufTy).Contents (Elt Ideal) :=
  NodeUpdate1.layer a0 (meanOver (msg1 a0 a1 a2 a4 a5) a3) (extractStridedSlice S64x128 ![0, 0] a6 slices_S192x128_S64x128_0_0) (extractStridedSlice S128x128 ![64, 0] a6 slices_S192x128_S128x128_64_0) (shapeCast S1x128 a7 shapeCasts_S128_S1x128)

/-- Second-layer edge messages. -/
def msg2 (a0 : (⟨S50000x64, .f32⟩ : BufTy).Contents (Elt Ideal)) (a1 : (⟨S800000x64, .f32⟩ : BufTy).Contents (Elt Ideal)) (a2 : (⟨S800000, .i32⟩ : BufTy).Contents (Elt Ideal)) (a3 : (⟨S800000, .i32⟩ : BufTy).Contents (Elt Ideal)) (a4 : (⟨S128x128, .f32⟩ : BufTy).Contents (Elt Ideal)) (a5 : (⟨S128, .f32⟩ : BufTy).Contents (Elt Ideal)) (a6 : (⟨S192x128, .f32⟩ : BufTy).Contents (Elt Ideal)) (a7 : (⟨S128, .f32⟩ : BufTy).Contents (Elt Ideal)) (a8 : (⟨S192x128, .f32⟩ : BufTy).Contents (Elt Ideal)) (a9 : (⟨S128, .f32⟩ : BufTy).Contents (Elt Ideal)) : (⟨S800000x128, .f32⟩ : BufTy).Contents (Elt Ideal) :=
  EdgeMessage2.layer (Host.gather gather_S50000x128_S800000x1_S800000x128_1_0_n_n_0_1_1128 (hid1 a0 a1 a2 a3 a4 a5 a6 a7) (wrapIndex a2)) a1 (extractStridedSlice S128x128 ![0, 0] a8 slices_S192x128_S128x128_0_0) (extractStridedSlice S64x128 ![128, 0] a8 slices_S192x128_S64x128_128_0) (shapeCast S1x128 a9 shapeCasts_S128_S1x128)

/-- Second-layer node features. -/
def hid2 (a0 : (⟨S50000x64, .f32⟩ : BufTy).Contents (Elt Ideal)) (a1 : (⟨S800000x64, .f32⟩ : BufTy).Contents (Elt Ideal)) (a2 : (⟨S800000, .i32⟩ : BufTy).Contents (Elt Ideal)) (a3 : (⟨S800000, .i32⟩ : BufTy).Contents (Elt Ideal)) (a4 : (⟨S128x128, .f32⟩ : BufTy).Contents (Elt Ideal)) (a5 : (⟨S128, .f32⟩ : BufTy).Contents (Elt Ideal)) (a6 : (⟨S192x128, .f32⟩ : BufTy).Contents (Elt Ideal)) (a7 : (⟨S128, .f32⟩ : BufTy).Contents (Elt Ideal)) (a8 : (⟨S192x128, .f32⟩ : BufTy).Contents (Elt Ideal)) (a9 : (⟨S128, .f32⟩ : BufTy).Contents (Elt Ideal)) (a10 : (⟨S256x128, .f32⟩ : BufTy).Contents (Elt Ideal)) (a11 : (⟨S128, .f32⟩ : BufTy).Contents (Elt Ideal)) : (⟨S50000x128, .f32⟩ : BufTy).Contents (Elt Ideal) :=
  NodeUpdate2.layer (hid1 a0 a1 a2 a3 a4 a5 a6 a7) (meanOver (msg2 a0 a1 a2 a3 a4 a5 a6 a7 a8 a9) a3) (extractStridedSlice S128x128 ![0, 0] a10 slices_S256x128_S128x128_0_0) (extractStridedSlice S128x128 ![128, 0] a10 slices_S256x128_S128x128_128_0) (shapeCast S1x128 a11 shapeCasts_S128_S1x128)

/-- The edge scores: the network's result. -/
def score (a0 : (⟨S50000x64, .f32⟩ : BufTy).Contents (Elt Ideal)) (a1 : (⟨S800000x64, .f32⟩ : BufTy).Contents (Elt Ideal)) (a2 : (⟨S800000, .i32⟩ : BufTy).Contents (Elt Ideal)) (a3 : (⟨S800000, .i32⟩ : BufTy).Contents (Elt Ideal)) (a4 : (⟨S128x128, .f32⟩ : BufTy).Contents (Elt Ideal)) (a5 : (⟨S128, .f32⟩ : BufTy).Contents (Elt Ideal)) (a6 : (⟨S192x128, .f32⟩ : BufTy).Contents (Elt Ideal)) (a7 : (⟨S128, .f32⟩ : BufTy).Contents (Elt Ideal)) (a8 : (⟨S192x128, .f32⟩ : BufTy).Contents (Elt Ideal)) (a9 : (⟨S128, .f32⟩ : BufTy).Contents (Elt Ideal)) (a10 : (⟨S256x128, .f32⟩ : BufTy).Contents (Elt Ideal)) (a11 : (⟨S128, .f32⟩ : BufTy).Contents (Elt Ideal)) (a12 : (⟨S256x10, .f32⟩ : BufTy).Contents (Elt Ideal)) (a13 : (⟨S10, .f32⟩ : BufTy).Contents (Elt Ideal)) : (⟨S800000x10, .f32⟩ : BufTy).Contents (Elt Ideal) :=
  EdgeScore.layer (Host.gather gather_S50000x128_S800000x1_S800000x128_1_0_n_n_0_1_1128 (hid2 a0 a1 a2 a3 a4 a5 a6 a7 a8 a9 a10 a11) (wrapIndex a2)) (Host.gather gather_S50000x128_S800000x1_S800000x128_1_0_n_n_0_1_1128 (hid2 a0 a1 a2 a3 a4 a5 a6 a7 a8 a9 a10 a11) (wrapIndex a3)) (extractStridedSlice S128x10 ![0, 0] a12 slices_S256x10_S128x10_0_0) (extractStridedSlice S128x10 ![128, 0] a12 slices_S256x10_S128x10_128_0) (shapeCast S1x10 a13 shapeCasts_S10_S1x10)

variable (m : (ℓ : Loc nD τ sig) → Buf (Elt Ideal) ℓ) (ρ : Dev nD → PrngReg) (c : Dev nD)

/-! ## Buffers a host stretch does not write keep their contents -/

theorem host0_keeps_arg0 : W1 m ρ c (Proc.devRef .tc main_arg0) = W0 m ρ c (Proc.devRef .tc main_arg0) := by
  show StableHlo.after hostOps0 (W0 m ρ c) (Proc.devRef .tc main_arg0) = _
  simp only [hostOps0]
  after_results_simp

theorem host0_keeps_arg3 : W1 m ρ c (Proc.devRef .tc main_arg3) = W0 m ρ c (Proc.devRef .tc main_arg3) := by
  show StableHlo.after hostOps0 (W0 m ρ c) (Proc.devRef .tc main_arg3) = _
  simp only [hostOps0]
  after_results_simp

theorem host0_keeps_arg6 : W1 m ρ c (Proc.devRef .tc main_arg6) = W0 m ρ c (Proc.devRef .tc main_arg6) := by
  show StableHlo.after hostOps0 (W0 m ρ c) (Proc.devRef .tc main_arg6) = _
  simp only [hostOps0]
  after_results_simp

theorem host0_keeps_arg7 : W1 m ρ c (Proc.devRef .tc main_arg7) = W0 m ρ c (Proc.devRef .tc main_arg7) := by
  show StableHlo.after hostOps0 (W0 m ρ c) (Proc.devRef .tc main_arg7) = _
  simp only [hostOps0]
  after_results_simp

theorem host1_keeps_arg1 : W3 m ρ c (Proc.devRef .tc main_arg1) = W2 m ρ c (Proc.devRef .tc main_arg1) := by
  show StableHlo.after hostOps1 (W2 m ρ c) (Proc.devRef .tc main_arg1) = _
  simp only [hostOps1]
  after_results_simp

theorem host0_keeps_arg1 : W1 m ρ c (Proc.devRef .tc main_arg1) = W0 m ρ c (Proc.devRef .tc main_arg1) := by
  show StableHlo.after hostOps0 (W0 m ρ c) (Proc.devRef .tc main_arg1) = _
  simp only [hostOps0]
  after_results_simp

theorem host1_keeps_arg2 : W3 m ρ c (Proc.devRef .tc main_arg2) = W2 m ρ c (Proc.devRef .tc main_arg2) := by
  show StableHlo.after hostOps1 (W2 m ρ c) (Proc.devRef .tc main_arg2) = _
  simp only [hostOps1]
  after_results_simp

theorem host0_keeps_arg2 : W1 m ρ c (Proc.devRef .tc main_arg2) = W0 m ρ c (Proc.devRef .tc main_arg2) := by
  show StableHlo.after hostOps0 (W0 m ρ c) (Proc.devRef .tc main_arg2) = _
  simp only [hostOps0]
  after_results_simp

theorem host1_keeps_arg8 : W3 m ρ c (Proc.devRef .tc main_arg8) = W2 m ρ c (Proc.devRef .tc main_arg8) := by
  show StableHlo.after hostOps1 (W2 m ρ c) (Proc.devRef .tc main_arg8) = _
  simp only [hostOps1]
  after_results_simp

theorem host0_keeps_arg8 : W1 m ρ c (Proc.devRef .tc main_arg8) = W0 m ρ c (Proc.devRef .tc main_arg8) := by
  show StableHlo.after hostOps0 (W0 m ρ c) (Proc.devRef .tc main_arg8) = _
  simp only [hostOps0]
  after_results_simp

theorem host1_keeps_arg9 : W3 m ρ c (Proc.devRef .tc main_arg9) = W2 m ρ c (Proc.devRef .tc main_arg9) := by
  show StableHlo.after hostOps1 (W2 m ρ c) (Proc.devRef .tc main_arg9) = _
  simp only [hostOps1]
  after_results_simp

theorem host0_keeps_arg9 : W1 m ρ c (Proc.devRef .tc main_arg9) = W0 m ρ c (Proc.devRef .tc main_arg9) := by
  show StableHlo.after hostOps0 (W0 m ρ c) (Proc.devRef .tc main_arg9) = _
  simp only [hostOps0]
  after_results_simp

theorem host2_keeps_arg3 : W5 m ρ c (Proc.devRef .tc main_arg3) = W4 m ρ c (Proc.devRef .tc main_arg3) := by
  show StableHlo.after hostOps2 (W4 m ρ c) (Proc.devRef .tc main_arg3) = _
  simp only [hostOps2]
  after_results_simp

theorem host1_keeps_arg3 : W3 m ρ c (Proc.devRef .tc main_arg3) = W2 m ρ c (Proc.devRef .tc main_arg3) := by
  show StableHlo.after hostOps1 (W2 m ρ c) (Proc.devRef .tc main_arg3) = _
  simp only [hostOps1]
  after_results_simp

theorem host2_keeps_arg10 : W5 m ρ c (Proc.devRef .tc main_arg10) = W4 m ρ c (Proc.devRef .tc main_arg10) := by
  show StableHlo.after hostOps2 (W4 m ρ c) (Proc.devRef .tc main_arg10) = _
  simp only [hostOps2]
  after_results_simp

theorem host1_keeps_arg10 : W3 m ρ c (Proc.devRef .tc main_arg10) = W2 m ρ c (Proc.devRef .tc main_arg10) := by
  show StableHlo.after hostOps1 (W2 m ρ c) (Proc.devRef .tc main_arg10) = _
  simp only [hostOps1]
  after_results_simp

theorem host0_keeps_arg10 : W1 m ρ c (Proc.devRef .tc main_arg10) = W0 m ρ c (Proc.devRef .tc main_arg10) := by
  show StableHlo.after hostOps0 (W0 m ρ c) (Proc.devRef .tc main_arg10) = _
  simp only [hostOps0]
  after_results_simp

theorem host2_keeps_arg11 : W5 m ρ c (Proc.devRef .tc main_arg11) = W4 m ρ c (Proc.devRef .tc main_arg11) := by
  show StableHlo.after hostOps2 (W4 m ρ c) (Proc.devRef .tc main_arg11) = _
  simp only [hostOps2]
  after_results_simp

theorem host1_keeps_arg11 : W3 m ρ c (Proc.devRef .tc main_arg11) = W2 m ρ c (Proc.devRef .tc main_arg11) := by
  show StableHlo.after hostOps1 (W2 m ρ c) (Proc.devRef .tc main_arg11) = _
  simp only [hostOps1]
  after_results_simp

theorem host0_keeps_arg11 : W1 m ρ c (Proc.devRef .tc main_arg11) = W0 m ρ c (Proc.devRef .tc main_arg11) := by
  show StableHlo.after hostOps0 (W0 m ρ c) (Proc.devRef .tc main_arg11) = _
  simp only [hostOps0]
  after_results_simp

theorem host3_keeps_arg2 : W7 m ρ c (Proc.devRef .tc main_arg2) = W6 m ρ c (Proc.devRef .tc main_arg2) := by
  show StableHlo.after hostOps3 (W6 m ρ c) (Proc.devRef .tc main_arg2) = _
  simp only [hostOps3]
  after_results_simp

theorem host2_keeps_arg2 : W5 m ρ c (Proc.devRef .tc main_arg2) = W4 m ρ c (Proc.devRef .tc main_arg2) := by
  show StableHlo.after hostOps2 (W4 m ρ c) (Proc.devRef .tc main_arg2) = _
  simp only [hostOps2]
  after_results_simp

theorem host3_keeps_arg3 : W7 m ρ c (Proc.devRef .tc main_arg3) = W6 m ρ c (Proc.devRef .tc main_arg3) := by
  show StableHlo.after hostOps3 (W6 m ρ c) (Proc.devRef .tc main_arg3) = _
  simp only [hostOps3]
  after_results_simp

theorem host3_keeps_arg12 : W7 m ρ c (Proc.devRef .tc main_arg12) = W6 m ρ c (Proc.devRef .tc main_arg12) := by
  show StableHlo.after hostOps3 (W6 m ρ c) (Proc.devRef .tc main_arg12) = _
  simp only [hostOps3]
  after_results_simp

theorem host2_keeps_arg12 : W5 m ρ c (Proc.devRef .tc main_arg12) = W4 m ρ c (Proc.devRef .tc main_arg12) := by
  show StableHlo.after hostOps2 (W4 m ρ c) (Proc.devRef .tc main_arg12) = _
  simp only [hostOps2]
  after_results_simp

theorem host1_keeps_arg12 : W3 m ρ c (Proc.devRef .tc main_arg12) = W2 m ρ c (Proc.devRef .tc main_arg12) := by
  show StableHlo.after hostOps1 (W2 m ρ c) (Proc.devRef .tc main_arg12) = _
  simp only [hostOps1]
  after_results_simp

theorem host0_keeps_arg12 : W1 m ρ c (Proc.devRef .tc main_arg12) = W0 m ρ c (Proc.devRef .tc main_arg12) := by
  show StableHlo.after hostOps0 (W0 m ρ c) (Proc.devRef .tc main_arg12) = _
  simp only [hostOps0]
  after_results_simp

theorem host3_keeps_arg13 : W7 m ρ c (Proc.devRef .tc main_arg13) = W6 m ρ c (Proc.devRef .tc main_arg13) := by
  show StableHlo.after hostOps3 (W6 m ρ c) (Proc.devRef .tc main_arg13) = _
  simp only [hostOps3]
  after_results_simp

theorem host2_keeps_arg13 : W5 m ρ c (Proc.devRef .tc main_arg13) = W4 m ρ c (Proc.devRef .tc main_arg13) := by
  show StableHlo.after hostOps2 (W4 m ρ c) (Proc.devRef .tc main_arg13) = _
  simp only [hostOps2]
  after_results_simp

theorem host1_keeps_arg13 : W3 m ρ c (Proc.devRef .tc main_arg13) = W2 m ρ c (Proc.devRef .tc main_arg13) := by
  show StableHlo.after hostOps1 (W2 m ρ c) (Proc.devRef .tc main_arg13) = _
  simp only [hostOps1]
  after_results_simp

theorem host0_keeps_arg13 : W1 m ρ c (Proc.devRef .tc main_arg13) = W0 m ρ c (Proc.devRef .tc main_arg13) := by
  show StableHlo.after hostOps0 (W0 m ρ c) (Proc.devRef .tc main_arg13) = _
  simp only [hostOps0]
  after_results_simp

theorem host2_keeps_v17 : W5 m ρ c (Proc.devRef .tc main_v17) = W4 m ρ c (Proc.devRef .tc main_v17) := by
  show StableHlo.after hostOps2 (W4 m ρ c) (Proc.devRef .tc main_v17) = _
  simp only [hostOps2]
  after_results_simp

theorem host2_keeps_v26 : W5 m ρ c (Proc.devRef .tc main_v26) = W4 m ρ c (Proc.devRef .tc main_v26) := by
  show StableHlo.after hostOps2 (W4 m ρ c) (Proc.devRef .tc main_v26) = _
  simp only [hostOps2]
  after_results_simp

theorem host3_keeps_v26 : W7 m ρ c (Proc.devRef .tc main_v26) = W6 m ρ c (Proc.devRef .tc main_v26) := by
  show StableHlo.after hostOps3 (W6 m ρ c) (Proc.devRef .tc main_v26) = _
  simp only [hostOps3]
  after_results_simp

theorem host1_keeps_arg0 : W3 m ρ c (Proc.devRef .tc main_arg0) = W2 m ρ c (Proc.devRef .tc main_arg0) := by
  show StableHlo.after hostOps1 (W2 m ρ c) (Proc.devRef .tc main_arg0) = _
  simp only [hostOps1]
  after_results_simp

theorem host2_keeps_arg1 : W5 m ρ c (Proc.devRef .tc main_arg1) = W4 m ρ c (Proc.devRef .tc main_arg1) := by
  show StableHlo.after hostOps2 (W4 m ρ c) (Proc.devRef .tc main_arg1) = _
  simp only [hostOps2]
  after_results_simp

/-! ## An argument's buffer, at the boundaries where it is read, holds its launch contents -/

theorem W0_arg0 : W0 m ρ c (Proc.devRef .tc main_arg0) = m ((c : Thread nD τ).loc main_arg0) :=
  rfl

theorem W0_arg1 : W0 m ρ c (Proc.devRef .tc main_arg1) = m ((c : Thread nD τ).loc main_arg1) :=
  rfl

theorem W0_arg2 : W0 m ρ c (Proc.devRef .tc main_arg2) = m ((c : Thread nD τ).loc main_arg2) :=
  rfl

theorem W0_arg4 : W0 m ρ c (Proc.devRef .tc main_arg4) = m ((c : Thread nD τ).loc main_arg4) :=
  rfl

theorem W0_arg5 : W0 m ρ c (Proc.devRef .tc main_arg5) = m ((c : Thread nD τ).loc main_arg5) :=
  rfl

theorem W2_arg0 : W2 m ρ c (Proc.devRef .tc main_arg0) = m ((c : Thread nD τ).loc main_arg0) :=
  ((W2_of_ne m ρ c main_arg0 (by decide)).trans ((host0_keeps_arg0 m ρ c).trans rfl))

theorem W2_arg3 : W2 m ρ c (Proc.devRef .tc main_arg3) = m ((c : Thread nD τ).loc main_arg3) :=
  ((W2_of_ne m ρ c main_arg3 (by decide)).trans ((host0_keeps_arg3 m ρ c).trans rfl))

theorem W2_arg6 : W2 m ρ c (Proc.devRef .tc main_arg6) = m ((c : Thread nD τ).loc main_arg6) :=
  ((W2_of_ne m ρ c main_arg6 (by decide)).trans ((host0_keeps_arg6 m ρ c).trans rfl))

theorem W2_arg7 : W2 m ρ c (Proc.devRef .tc main_arg7) = m ((c : Thread nD τ).loc main_arg7) :=
  ((W2_of_ne m ρ c main_arg7 (by decide)).trans ((host0_keeps_arg7 m ρ c).trans rfl))

theorem W4_arg1 : W4 m ρ c (Proc.devRef .tc main_arg1) = m ((c : Thread nD τ).loc main_arg1) :=
  ((W4_of_ne m ρ c main_arg1 (by decide)).trans ((host1_keeps_arg1 m ρ c).trans ((W2_arr m ρ c 1).trans (((dat0 (V1 m ρ) c).arrAt_in 1 rfl _).trans ((A_eq0 (V1 m ρ) c 1).trans ((host0_keeps_arg1 m ρ c).trans rfl))))))

theorem W4_arg2 : W4 m ρ c (Proc.devRef .tc main_arg2) = m ((c : Thread nD τ).loc main_arg2) :=
  ((W4_of_ne m ρ c main_arg2 (by decide)).trans ((host1_keeps_arg2 m ρ c).trans ((W2_of_ne m ρ c main_arg2 (by decide)).trans ((host0_keeps_arg2 m ρ c).trans rfl))))

theorem W4_arg8 : W4 m ρ c (Proc.devRef .tc main_arg8) = m ((c : Thread nD τ).loc main_arg8) :=
  ((W4_of_ne m ρ c main_arg8 (by decide)).trans ((host1_keeps_arg8 m ρ c).trans ((W2_of_ne m ρ c main_arg8 (by decide)).trans ((host0_keeps_arg8 m ρ c).trans rfl))))

theorem W4_arg9 : W4 m ρ c (Proc.devRef .tc main_arg9) = m ((c : Thread nD τ).loc main_arg9) :=
  ((W4_of_ne m ρ c main_arg9 (by decide)).trans ((host1_keeps_arg9 m ρ c).trans ((W2_of_ne m ρ c main_arg9 (by decide)).trans ((host0_keeps_arg9 m ρ c).trans rfl))))

theorem W6_arg3 : W6 m ρ c (Proc.devRef .tc main_arg3) = m ((c : Thread nD τ).loc main_arg3) :=
  ((W6_of_ne m ρ c main_arg3 (by decide)).trans ((host2_keeps_arg3 m ρ c).trans ((W4_of_ne m ρ c main_arg3 (by decide)).trans ((host1_keeps_arg3 m ρ c).trans ((W2_of_ne m ρ c main_arg3 (by decide)).trans ((host0_keeps_arg3 m ρ c).trans rfl))))))

theorem W6_arg10 : W6 m ρ c (Proc.devRef .tc main_arg10) = m ((c : Thread nD τ).loc main_arg10) :=
  ((W6_of_ne m ρ c main_arg10 (by decide)).trans ((host2_keeps_arg10 m ρ c).trans ((W4_of_ne m ρ c main_arg10 (by decide)).trans ((host1_keeps_arg10 m ρ c).trans ((W2_of_ne m ρ c main_arg10 (by decide)).trans ((host0_keeps_arg10 m ρ c).trans rfl))))))

theorem W6_arg11 : W6 m ρ c (Proc.devRef .tc main_arg11) = m ((c : Thread nD τ).loc main_arg11) :=
  ((W6_of_ne m ρ c main_arg11 (by decide)).trans ((host2_keeps_arg11 m ρ c).trans ((W4_of_ne m ρ c main_arg11 (by decide)).trans ((host1_keeps_arg11 m ρ c).trans ((W2_of_ne m ρ c main_arg11 (by decide)).trans ((host0_keeps_arg11 m ρ c).trans rfl))))))

theorem W8_arg2 : W8 m ρ c (Proc.devRef .tc main_arg2) = m ((c : Thread nD τ).loc main_arg2) :=
  ((W8_of_ne m ρ c main_arg2 (by decide)).trans ((host3_keeps_arg2 m ρ c).trans ((W6_of_ne m ρ c main_arg2 (by decide)).trans ((host2_keeps_arg2 m ρ c).trans ((W4_of_ne m ρ c main_arg2 (by decide)).trans ((host1_keeps_arg2 m ρ c).trans ((W2_of_ne m ρ c main_arg2 (by decide)).trans ((host0_keeps_arg2 m ρ c).trans rfl))))))))

theorem W8_arg3 : W8 m ρ c (Proc.devRef .tc main_arg3) = m ((c : Thread nD τ).loc main_arg3) :=
  ((W8_of_ne m ρ c main_arg3 (by decide)).trans ((host3_keeps_arg3 m ρ c).trans ((W6_of_ne m ρ c main_arg3 (by decide)).trans ((host2_keeps_arg3 m ρ c).trans ((W4_of_ne m ρ c main_arg3 (by decide)).trans ((host1_keeps_arg3 m ρ c).trans ((W2_of_ne m ρ c main_arg3 (by decide)).trans ((host0_keeps_arg3 m ρ c).trans rfl))))))))

theorem W8_arg12 : W8 m ρ c (Proc.devRef .tc main_arg12) = m ((c : Thread nD τ).loc main_arg12) :=
  ((W8_of_ne m ρ c main_arg12 (by decide)).trans ((host3_keeps_arg12 m ρ c).trans ((W6_of_ne m ρ c main_arg12 (by decide)).trans ((host2_keeps_arg12 m ρ c).trans ((W4_of_ne m ρ c main_arg12 (by decide)).trans ((host1_keeps_arg12 m ρ c).trans ((W2_of_ne m ρ c main_arg12 (by decide)).trans ((host0_keeps_arg12 m ρ c).trans rfl))))))))

theorem W8_arg13 : W8 m ρ c (Proc.devRef .tc main_arg13) = m ((c : Thread nD τ).loc main_arg13) :=
  ((W8_of_ne m ρ c main_arg13 (by decide)).trans ((host3_keeps_arg13 m ρ c).trans ((W6_of_ne m ρ c main_arg13 (by decide)).trans ((host2_keeps_arg13 m ρ c).trans ((W4_of_ne m ρ c main_arg13 (by decide)).trans ((host1_keeps_arg13 m ρ c).trans ((W2_of_ne m ρ c main_arg13 (by decide)).trans ((host0_keeps_arg13 m ρ c).trans rfl))))))))

/-! ## Layer 1 -/

theorem in0_0 : V1 m ρ c main_v6 = Host.gather gather_S50000x64_S800000x1_S800000x64_1_0_n_n_0_1_164 (m ((c : Thread nD τ).loc main_arg0)) (wrapIndex (m ((c : Thread nD τ).loc main_arg2))) := by
  show StableHlo.after hostOps0 (W0 m ρ c) (Proc.devRef .tc main_v6) = _
  simp only [hostOps0]
  after_results_simp
  <;> rfl
theorem in0_1 : V1 m ρ c main_arg1 = (m ((c : Thread nD τ).loc main_arg1)) := by
  show StableHlo.after hostOps0 (W0 m ρ c) (Proc.devRef .tc main_arg1) = _
  simp only [hostOps0]
  after_results_simp
  <;> rfl
theorem in0_2 : V1 m ρ c main_v7 = (extractStridedSlice S64x128 ![0, 0] (m ((c : Thread nD τ).loc main_arg4)) slices_S128x128_S64x128_0_0) := by
  show StableHlo.after hostOps0 (W0 m ρ c) (Proc.devRef .tc main_v7) = _
  simp only [hostOps0]
  after_results_simp
  <;> rfl
theorem in0_3 : V1 m ρ c main_v8 = (extractStridedSlice S64x128 ![64, 0] (m ((c : Thread nD τ).loc main_arg4)) slices_S128x128_S64x128_64_0) := by
  show StableHlo.after hostOps0 (W0 m ρ c) (Proc.devRef .tc main_v8) = _
  simp only [hostOps0]
  after_results_simp
  <;> rfl
theorem in0_4 : V1 m ρ c main_v9 = shapeCast S1x128 (m ((c : Thread nD τ).loc main_arg5)) shapeCasts_S128_S1x128 := by
  show StableHlo.after hostOps0 (W0 m ρ c) (Proc.devRef .tc main_v9) = _
  simp only [hostOps0]
  after_results_simp
  <;> rfl

/-- Region 0 leaves the first layer's edge messages. -/
theorem out_msg1 : W2 m ρ c (Proc.devRef .tc main_v10) = msg1 (m ((c : Thread nD τ).loc main_arg0)) (m ((c : Thread nD τ).loc main_arg1)) (m ((c : Thread nD τ).loc main_arg2)) (m ((c : Thread nD τ).loc main_arg4)) (m ((c : Thread nD τ).loc main_arg5)) := by
  refine (W2_arr m ρ c 5).trans ((EdgeMessage1.array_eq (V1 m ρ) c).trans ?_)
  unfold msg1
  exact congr (congr (congr (congr (congrArg _ (in0_0 m ρ c)) (in0_1 m ρ c)) (in0_2 m ρ c)) (in0_3 m ρ c)) (in0_4 m ρ c)

theorem in1_0 : V3 m ρ c main_arg0 = (m ((c : Thread nD τ).loc main_arg0)) := (host1_keeps_arg0 m ρ c).trans (W2_arg0 m ρ c)
theorem in1_1 : V3 m ρ c main_v22 = meanOver (msg1 (m ((c : Thread nD τ).loc main_arg0)) (m ((c : Thread nD τ).loc main_arg1)) (m ((c : Thread nD τ).loc main_arg2)) (m ((c : Thread nD τ).loc main_arg4)) (m ((c : Thread nD τ).loc main_arg5))) (m ((c : Thread nD τ).loc main_arg3)) := by
  show StableHlo.after hostOps1 (W2 m ρ c) (Proc.devRef .tc main_v22) = _
  simp only [hostOps1]
  after_results_simp
  rw [out_msg1 m ρ c, W2_arg3 m ρ c]
  <;> rfl
theorem in1_2 : V3 m ρ c main_v23 = (extractStridedSlice S64x128 ![0, 0] (m ((c : Thread nD τ).loc main_arg6)) slices_S192x128_S64x128_0_0) := by
  show StableHlo.after hostOps1 (W2 m ρ c) (Proc.devRef .tc main_v23) = _
  simp only [hostOps1]
  after_results_simp
  rw [W2_arg6 m ρ c]
  <;> rfl
theorem in1_3 : V3 m ρ c main_v24 = (extractStridedSlice S128x128 ![64, 0] (m ((c : Thread nD τ).loc main_arg6)) slices_S192x128_S128x128_64_0) := by
  show StableHlo.after hostOps1 (W2 m ρ c) (Proc.devRef .tc main_v24) = _
  simp only [hostOps1]
  after_results_simp
  rw [W2_arg6 m ρ c]
  <;> rfl
theorem in1_4 : V3 m ρ c main_v25 = shapeCast S1x128 (m ((c : Thread nD τ).loc main_arg7)) shapeCasts_S128_S1x128 := by
  show StableHlo.after hostOps1 (W2 m ρ c) (Proc.devRef .tc main_v25) = _
  simp only [hostOps1]
  after_results_simp
  rw [W2_arg7 m ρ c]
  <;> rfl

/-- The in-degree the first layer computes, which the second layer reads again. -/
theorem deg_at3 : W3 m ρ c (Proc.devRef .tc main_v17) = inDegree (m ((c : Thread nD τ).loc main_arg3)) := by
  show StableHlo.after hostOps1 (W2 m ρ c) (Proc.devRef .tc main_v17) = _
  simp only [hostOps1]
  after_results_simp
  rw [W2_arg3 m ρ c]
  <;> rfl

/-- Region 1 leaves the first layer's node features. -/
theorem out_hid1 : W4 m ρ c (Proc.devRef .tc main_v26) = hid1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ((NodeUpdate1.array_eq (V3 m ρ) c).trans ?_)
  unfold hid1
  exact congr (congr (congr (congr (congrArg _ (in1_0 m ρ c)) (in1_1 m ρ c)) (in1_2 m ρ c)) (in1_3 m ρ c)) (in1_4 m ρ c)

/-! ## Layer 2 -/

theorem in2_0 : V5 m ρ c main_v33 = Host.gather gather_S50000x128_S800000x1_S800000x128_1_0_n_n_0_1_1128 (hid1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (wrapIndex (m ((c : Thread nD τ).loc main_arg2))) := by
  show StableHlo.after hostOps2 (W4 m ρ c) (Proc.devRef .tc main_v33) = _
  simp only [hostOps2]
  after_results_simp
  rw [out_hid1 m ρ c, W4_arg2 m ρ c]
  <;> rfl
theorem in2_1 : V5 m ρ c main_arg1 = (m ((c : Thread nD τ).loc main_arg1)) := (host2_keeps_arg1 m ρ c).trans (W4_arg1 m ρ c)
theorem in2_2 : V5 m ρ c main_v34 = (extractStridedSlice S128x128 ![0, 0] (m ((c : Thread nD τ).loc main_arg8)) slices_S192x128_S128x128_0_0) := by
  show StableHlo.after hostOps2 (W4 m ρ c) (Proc.devRef .tc main_v34) = _
  simp only [hostOps2]
  after_results_simp
  rw [W4_arg8 m ρ c]
  <;> rfl
theorem in2_3 : V5 m ρ c main_v35 = (extractStridedSlice S64x128 ![128, 0] (m ((c : Thread nD τ).loc main_arg8)) slices_S192x128_S64x128_128_0) := by
  show StableHlo.after hostOps2 (W4 m ρ c) (Proc.devRef .tc main_v35) = _
  simp only [hostOps2]
  after_results_simp
  rw [W4_arg8 m ρ c]
  <;> rfl
theorem in2_4 : V5 m ρ c main_v36 = shapeCast S1x128 (m ((c : Thread nD τ).loc main_arg9)) shapeCasts_S128_S1x128 := by
  show StableHlo.after hostOps2 (W4 m ρ c) (Proc.devRef .tc main_v36) = _
  simp only [hostOps2]
  after_results_simp
  rw [W4_arg9 m ρ c]
  <;> rfl

/-- Region 2 leaves the second layer's edge messages. -/
theorem out_msg2 : W6 m ρ c (Proc.devRef .tc main_v37) = msg2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W6_arr m ρ c 5).trans ((EdgeMessage2.array_eq (V5 m ρ) c).trans ?_)
  unfold msg2
  exact congr (congr (congr (congr (congrArg _ (in2_0 m ρ c)) (in2_1 m ρ c)) (in2_2 m ρ c)) (in2_3 m ρ c)) (in2_4 m ρ c)

/-- The in-degree and the first layer's node features are still in their buffers when the second layer's host
    stretch reads them: neither region 1, the stretch after it, nor region 2 writes them. -/
theorem deg_at6 : W6 m ρ c (Proc.devRef .tc main_v17) = inDegree (m ((c : Thread nD τ).loc main_arg3)) :=
  (W6_of_ne m ρ c main_v17 (by decide)).trans ((host2_keeps_v17 m ρ c).trans ((W4_of_ne m ρ c main_v17 (by decide)).trans (deg_at3 m ρ c)))
theorem hid1_at6 : W6 m ρ c (Proc.devRef .tc main_v26) = hid1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W6_of_ne m ρ c main_v26 (by decide)).trans ((host2_keeps_v26 m ρ c).trans (out_hid1 m ρ c))

theorem in3_0 : V7 m ρ c main_v26 = hid1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := (host3_keeps_v26 m ρ c).trans (hid1_at6 m ρ c)
theorem in3_1 : V7 m ρ c main_v45 = meanOver (msg2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg3)) := by
  show StableHlo.after hostOps3 (W6 m ρ c) (Proc.devRef .tc main_v45) = _
  simp only [hostOps3]
  after_results_simp
  rw [out_msg2 m ρ c, W6_arg3 m ρ c, deg_at6 m ρ c]
  <;> rfl
theorem in3_2 : V7 m ρ c main_v46 = (extractStridedSlice S128x128 ![0, 0] (m ((c : Thread nD τ).loc main_arg10)) slices_S256x128_S128x128_0_0) := by
  show StableHlo.after hostOps3 (W6 m ρ c) (Proc.devRef .tc main_v46) = _
  simp only [hostOps3]
  after_results_simp
  rw [W6_arg10 m ρ c]
  <;> rfl
theorem in3_3 : V7 m ρ c main_v47 = (extractStridedSlice S128x128 ![128, 0] (m ((c : Thread nD τ).loc main_arg10)) slices_S256x128_S128x128_128_0) := by
  show StableHlo.after hostOps3 (W6 m ρ c) (Proc.devRef .tc main_v47) = _
  simp only [hostOps3]
  after_results_simp
  rw [W6_arg10 m ρ c]
  <;> rfl
theorem in3_4 : V7 m ρ c main_v48 = shapeCast S1x128 (m ((c : Thread nD τ).loc main_arg11)) shapeCasts_S128_S1x128 := by
  show StableHlo.after hostOps3 (W6 m ρ c) (Proc.devRef .tc main_v48) = _
  simp only [hostOps3]
  after_results_simp
  rw [W6_arg11 m ρ c]
  <;> rfl

/-- Region 3 leaves the second layer's node features. -/
theorem out_hid2 : W8 m ρ c (Proc.devRef .tc main_v49) = hid2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W8_arr m ρ c 5).trans ((NodeUpdate2.array_eq (V7 m ρ) c).trans ?_)
  unfold hid2
  exact congr (congr (congr (congr (congrArg _ (in3_0 m ρ c)) (in3_1 m ρ c)) (in3_2 m ρ c)) (in3_3 m ρ c)) (in3_4 m ρ c)

/-! ## The predictor -/

theorem in4_0 : V9 m ρ c main_v56 = Host.gather gather_S50000x128_S800000x1_S800000x128_1_0_n_n_0_1_1128 (hid2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (wrapIndex (m ((c : Thread nD τ).loc main_arg2))) := by
  show StableHlo.after hostOps4 (W8 m ρ c) (Proc.devRef .tc main_v56) = _
  simp only [hostOps4]
  after_results_simp
  rw [out_hid2 m ρ c, W8_arg2 m ρ c]
  <;> rfl
theorem in4_1 : V9 m ρ c main_v63 = Host.gather gather_S50000x128_S800000x1_S800000x128_1_0_n_n_0_1_1128 (hid2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (wrapIndex (m ((c : Thread nD τ).loc main_arg3))) := by
  show StableHlo.after hostOps4 (W8 m ρ c) (Proc.devRef .tc main_v63) = _
  simp only [hostOps4]
  after_results_simp
  rw [out_hid2 m ρ c, W8_arg3 m ρ c]
  <;> rfl
theorem in4_2 : V9 m ρ c main_v64 = (extractStridedSlice S128x10 ![0, 0] (m ((c : Thread nD τ).loc main_arg12)) slices_S256x10_S128x10_0_0) := by
  show StableHlo.after hostOps4 (W8 m ρ c) (Proc.devRef .tc main_v64) = _
  simp only [hostOps4]
  after_results_simp
  rw [W8_arg12 m ρ c]
  <;> rfl
theorem in4_3 : V9 m ρ c main_v65 = (extractStridedSlice S128x10 ![128, 0] (m ((c : Thread nD τ).loc main_arg12)) slices_S256x10_S128x10_128_0) := by
  show StableHlo.after hostOps4 (W8 m ρ c) (Proc.devRef .tc main_v65) = _
  simp only [hostOps4]
  after_results_simp
  rw [W8_arg12 m ρ c]
  <;> rfl
theorem in4_4 : V9 m ρ c main_v66 = shapeCast S1x10 (m ((c : Thread nD τ).loc main_arg13)) shapeCasts_S10_S1x10 := by
  show StableHlo.after hostOps4 (W8 m ρ c) (Proc.devRef .tc main_v66) = _
  simp only [hostOps4]
  after_results_simp
  rw [W8_arg13 m ρ c]
  <;> rfl

/-- Region 4 leaves the edge scores in the result buffer. -/
theorem out_score : W10 m ρ c (Proc.devRef .tc main_v67) = score (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W10_arr m ρ c 5).trans ((EdgeScore.array_eq (V9 m ρ) c).trans ?_)
  unfold score
  exact congr (congr (congr (congr (congrArg _ (in4_0 m ρ c)) (in4_1 m ρ c)) (in4_2 m ρ c)) (in4_3 m ρ c)) (in4_4 m ρ c)

end Cert.KernelIdeal.Whole

end
-- ==== Proof.RefRun.lean ====
/-
  The idealized reference's run, written out: its @main is a straight line of 99 host operations (the two relu calls
  standing in their callers' places), so every weakly fair execution terminates with each buffer at the fold of the
  operations' results over its launch contents. The line is cut into five stretches, one per layer of the network, and
  the fold is taken stretch by stretch; no operation writes an argument's buffer, so each argument keeps its launch
  contents through every stretch.
-/
import proofs.«119431_j55594056680038_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The fold over a line cut in two is the fold over the second part from the fold over the first. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- @main's 99 operations, in order. -/
abbrev ops : List (HloOp τ sig (Elt F)) :=
  [ nullary main_c (constantI S_ 32 0#32),
    unary main_c main_v0 (broadcastInDim S800000 ![] bcast_S_S800000 : (⟨S_, .i32⟩ : BufTy).Contents (Elt F) → (⟨S800000, .i32⟩ : BufTy).Contents (Elt F)),
    binary main_arg2 main_v0 main_v1 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v2 (broadcastInDim S800000 ![] bcast_S_S800000 : (⟨S_, .i32⟩ : BufTy).Contents (Elt F) → (⟨S800000, .i32⟩ : BufTy).Contents (Elt F)),
    binary main_arg2 main_v2 main_v3 (addi : (⟨S800000, .i32⟩ : BufTy).Contents (Elt F) → (⟨S800000, .i32⟩ : BufTy).Contents (Elt F) → (⟨S800000, .i32⟩ : BufTy).Contents (Elt F)),
    ternary main_v1 main_v3 main_arg2 main_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v4 main_v5 (broadcastInDim S800000x1 ![0] bcast_S800000_S800000x1_0 : (⟨S800000, .i32⟩ : BufTy).Contents (Elt F) → (⟨S800000x1, .i32⟩ : BufTy).Contents (Elt F)),
    binary main_arg0 main_v5 main_v6 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v6 main_arg1 main_v7 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    binary main_v7 main_arg4 main_v8 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    unary main_arg5 main_v9 (broadcastInDim S1x128 ![1] bcast_S128_S1x128_1 : (⟨S128, .f32⟩ : BufTy).Contents (Elt F) → (⟨S1x128, .f32⟩ : BufTy).Contents (Elt F)),
    unary main_v9 main_v10 (broadcastInDim S800000x128 ![0, 1] bcast_S1x128_S800000x128_0_1 : (⟨S1x128, .f32⟩ : BufTy).Contents (Elt F) → (⟨S800000x128, .f32⟩ : BufTy).Contents (Elt F)),
    binary main_v8 main_v10 main_v11 (addf : (⟨S800000x128, .f32⟩ : BufTy).Contents (Elt F) → (⟨S800000x128, .f32⟩ : BufTy).Contents (Elt F) → (⟨S800000x128, .f32⟩ : BufTy).Contents (Elt F)),
    nullary main_cst (constant S_ .f32 0x00000000#32),
    unary main_cst main_v12 (broadcastInDim S50000x128 ![] bcast_S_S50000x128 : (⟨S_, .f32⟩ : BufTy).Contents (Elt F) → (⟨S50000x128, .f32⟩ : BufTy).Contents (Elt F)),
    unary main_arg3 main_v13 (broadcastInDim S800000x1 ![0] bcast_S800000_S800000x1_0 : (⟨S800000, .i32⟩ : BufTy).Contents (Elt F) → (⟨S800000x1, .i32⟩ : BufTy).Contents (Elt F)),
    ternary main_v12 main_v13 main_v11 main_v14 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v15 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v16 (broadcastInDim S50000 ![] bcast_S_S50000 : (⟨S_, .f32⟩ : BufTy).Contents (Elt F) → (⟨S50000, .f32⟩ : BufTy).Contents (Elt F)),
    unary main_arg3 main_v17 (broadcastInDim S800000x1 ![0] bcast_S800000_S800000x1_0 : (⟨S800000, .i32⟩ : BufTy).Contents (Elt F) → (⟨S800000x1, .i32⟩ : BufTy).Contents (Elt F)),
    ternary main_v16 main_v17 main_v15 main_v18 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v19 (broadcastInDim S50000 ![] bcast_S_S50000 : (⟨S_, .f32⟩ : BufTy).Contents (Elt F) → (⟨S50000, .f32⟩ : BufTy).Contents (Elt F)),
    binary main_v18 main_v19 main_v20 (maximumf : (⟨S50000, .f32⟩ : BufTy).Contents (Elt F) → (⟨S50000, .f32⟩ : BufTy).Contents (Elt F) → (⟨S50000, .f32⟩ : BufTy).Contents (Elt F)),
    unary main_v20 main_v21 (broadcastInDim S50000x1 ![0] bcast_S50000_S50000x1_0 : (⟨S50000, .f32⟩ : BufTy).Contents (Elt F) → (⟨S50000x1, .f32⟩ : BufTy).Contents (Elt F)),
    unary main_v21 main_v22 (broadcastInDim S50000x128 ![0, 1] bcast_S50000x1_S50000x128_0_1 : (⟨S50000x1, .f32⟩ : BufTy).Contents (Elt F) → (⟨S50000x128, .f32⟩ : BufTy).Contents (Elt F)),
    binary main_v14 main_v22 main_v23 (Host.divf : (⟨S50000x128, .f32⟩ : BufTy).Contents (Elt F) → (⟨S50000x128, .f32⟩ : BufTy).Contents (Elt F) → (⟨S50000x128, .f32⟩ : BufTy).Contents (Elt F)),
    binary main_arg0 main_v23 main_v24 ((fun a b => concatenate S50000x192 1 [⟨S50000x64, a⟩, ⟨S50000x128, b⟩] concatenates_S50000x64_S50000x128_S50000x192_d1) : (⟨S50000x64, .f32⟩ : BufTy).Contents (Elt F) → (⟨S50000x128, .f32⟩ : BufTy).Contents (Elt F) → (⟨S50000x192, .f32⟩ : BufTy).Contents (Elt F)),
    binary main_v24 main_arg6 main_v25 ((fun l r => Host.dotGeneral dot_S50000x192_S192x128_S50000x128_1_0_0_1_n_n none l r) : (⟨S50000x192, .f32⟩ : BufTy).Contents (Elt F) → (⟨S192x128, .f32⟩ : BufTy).Contents (Elt F) → (⟨S50000x128, .f32⟩ : BufTy).Contents (Elt F)),
    unary main_arg7 main_v26 (broadcastInDim S1x128 ![1] bcast_S128_S1x128_1 : (⟨S128, .f32⟩ : BufTy).Contents (Elt F) → (⟨S1x128, .f32⟩ : BufTy).Contents (Elt F)),
    unary main_v26 main_v27 (broadcastInDim S50000x128 ![0, 1] bcast_S1x128_S50000x128_0_1 : (⟨S1x128, .f32⟩ : BufTy).Contents (Elt F) → (⟨S50000x128, .f32⟩ : BufTy).Contents (Elt F)),
    binary main_v25 main_v27 main_v28 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v28) (TRef.of (T := ⟨S50000x128, .f32⟩) main_call0_v0) (TRef.of (T := ⟨S50000x128, .f32⟩) main_v29) maximumf,
    nullary main_c_4 (constantI S_ 32 0#32),
    unary main_c_4 main_v30 (broadcastInDim S800000 ![] bcast_S_S800000 : (⟨S_, .i32⟩ : BufTy).Contents (Elt F) → (⟨S800000, .i32⟩ : BufTy).Contents (Elt F)),
    binary main_arg2 main_v30 main_v31 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v32 (broadcastInDim S800000 ![] bcast_S_S800000 : (⟨S_, .i32⟩ : BufTy).Contents (Elt F) → (⟨S800000, .i32⟩ : BufTy).Contents (Elt F)),
    binary main_arg2 main_v32 main_v33 (addi : (⟨S800000, .i32⟩ : BufTy).Contents (Elt F) → (⟨S800000, .i32⟩ : BufTy).Contents (Elt F) → (⟨S800000, .i32⟩ : BufTy).Contents (Elt F)),
    ternary main_v31 main_v33 main_arg2 main_v34 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v34 main_v35 (broadcastInDim S800000x1 ![0] bcast_S800000_S800000x1_0 : (⟨S800000, .i32⟩ : BufTy).Contents (Elt F) → (⟨S800000x1, .i32⟩ : BufTy).Contents (Elt F)),
    binary main_v29 main_v35 main_v36 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    binary main_v36 main_arg1 main_v37 ((fun a b => concatenate S800000x192 1 [⟨S800000x128, a⟩, ⟨S800000x64, b⟩] concatenates_S800000x128_S800000x64_S800000x192_d1) : (⟨S800000x128, .f32⟩ : BufTy).Contents (Elt F) → (⟨S800000x64, .f32⟩ : BufTy).Contents (Elt F) → (⟨S800000x192, .f32⟩ : BufTy).Contents (Elt F)),
    binary main_v37 main_arg8 main_v38 ((fun l r => Host.dotGeneral dot_S800000x192_S192x128_S800000x128_1_0_0_1_n_n none l r) : (⟨S800000x192, .f32⟩ : BufTy).Contents (Elt F) → (⟨S192x128, .f32⟩ : BufTy).Contents (Elt F) → (⟨S800000x128, .f32⟩ : BufTy).Contents (Elt F)),
    unary main_arg9 main_v39 (broadcastInDim S1x128 ![1] bcast_S128_S1x128_1 : (⟨S128, .f32⟩ : BufTy).Contents (Elt F) → (⟨S1x128, .f32⟩ : BufTy).Contents (Elt F)),
    unary main_v39 main_v40 (broadcastInDim S800000x128 ![0, 1] bcast_S1x128_S800000x128_0_1 : (⟨S1x128, .f32⟩ : BufTy).Contents (Elt F) → (⟨S800000x128, .f32⟩ : BufTy).Contents (Elt F)),
    binary main_v38 main_v40 main_v41 (addf : (⟨S800000x128, .f32⟩ : BufTy).Contents (Elt F) → (⟨S800000x128, .f32⟩ : BufTy).Contents (Elt F) → (⟨S800000x128, .f32⟩ : BufTy).Contents (Elt F)),
    nullary main_cst_6 (constant S_ .f32 0x00000000#32),
    unary main_cst_6 main_v42 (broadcastInDim S50000x128 ![] bcast_S_S50000x128 : (⟨S_, .f32⟩ : BufTy).Contents (Elt F) → (⟨S50000x128, .f32⟩ : BufTy).Contents (Elt F)),
    unary main_arg3 main_v43 (broadcastInDim S800000x1 ![0] bcast_S800000_S800000x1_0 : (⟨S800000, .i32⟩ : BufTy).Contents (Elt F) → (⟨S800000x1, .i32⟩ : BufTy).Contents (Elt F)),
    ternary main_v42 main_v43 main_v41 main_v44 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_7 (constant S_ .f32 0x3F800000#32),
    unary main_cst_7 main_v45 (broadcastInDim S800000 ![] bcast_S_S800000 : (⟨S_, .f32⟩ : BufTy).Contents (Elt F) → (⟨S800000, .f32⟩ : BufTy).Contents (Elt F)),
    nullary main_cst_8 (constant S_ .f32 0x00000000#32),
    unary main_cst_8 main_v46 (broadcastInDim S50000 ![] bcast_S_S50000 : (⟨S_, .f32⟩ : BufTy).Contents (Elt F) → (⟨S50000, .f32⟩ : BufTy).Contents (Elt F)),
    unary main_arg3 main_v47 (broadcastInDim S800000x1 ![0] bcast_S800000_S800000x1_0 : (⟨S800000, .i32⟩ : BufTy).Contents (Elt F) → (⟨S800000x1, .i32⟩ : BufTy).Contents (Elt F)),
    ternary main_v46 main_v47 main_v45 main_v48 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_9 (constant S_ .f32 0x3F800000#32),
    unary main_cst_9 main_v49 (broadcastInDim S50000 ![] bcast_S_S50000 : (⟨S_, .f32⟩ : BufTy).Contents (Elt F) → (⟨S50000, .f32⟩ : BufTy).Contents (Elt F)),
    binary main_v48 main_v49 main_v50 (maximumf : (⟨S50000, .f32⟩ : BufTy).Contents (Elt F) → (⟨S50000, .f32⟩ : BufTy).Contents (Elt F) → (⟨S50000, .f32⟩ : BufTy).Contents (Elt F)),
    unary main_v50 main_v51 (broadcastInDim S50000x1 ![0] bcast_S50000_S50000x1_0 : (⟨S50000, .f32⟩ : BufTy).Contents (Elt F) → (⟨S50000x1, .f32⟩ : BufTy).Contents (Elt F)),
    unary main_v51 main_v52 (broadcastInDim S50000x128 ![0, 1] bcast_S50000x1_S50000x128_0_1 : (⟨S50000x1, .f32⟩ : BufTy).Contents (Elt F) → (⟨S50000x128, .f32⟩ : BufTy).Contents (Elt F)),
    binary main_v44 main_v52 main_v53 (Host.divf : (⟨S50000x128, .f32⟩ : BufTy).Contents (Elt F) → (⟨S50000x128, .f32⟩ : BufTy).Contents (Elt F) → (⟨S50000x128, .f32⟩ : BufTy).Contents (Elt F)),
    binary main_v29 main_v53 main_v54 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v54 main_arg10 main_v55 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg11 main_v56 (broadcastInDim S1x128 ![1] bcast_S128_S1x128_1 : (⟨S128, .f32⟩ : BufTy).Contents (Elt F) → (⟨S1x128, .f32⟩ : BufTy).Contents (Elt F)),
    unary main_v56 main_v57 (broadcastInDim S50000x128 ![0, 1] bcast_S1x128_S50000x128_0_1 : (⟨S1x128, .f32⟩ : BufTy).Contents (Elt F) → (⟨S50000x128, .f32⟩ : BufTy).Contents (Elt F)),
    binary main_v55 main_v57 main_v58 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v58) (TRef.of (T := ⟨S50000x128, .f32⟩) main_call1_v0) (TRef.of (T := ⟨S50000x128, .f32⟩) main_v59) maximumf,
    nullary main_c_10 (constantI S_ 32 0#32),
    unary main_c_10 main_v60 (broadcastInDim S800000 ![] bcast_S_S800000 : (⟨S_, .i32⟩ : BufTy).Contents (Elt F) → (⟨S800000, .i32⟩ : BufTy).Contents (Elt F)),
    binary main_arg2 main_v60 main_v61 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v62 (broadcastInDim S800000 ![] bcast_S_S800000 : (⟨S_, .i32⟩ : BufTy).Contents (Elt F) → (⟨S800000, .i32⟩ : BufTy).Contents (Elt F)),
    binary main_arg2 main_v62 main_v63 (addi : (⟨S800000, .i32⟩ : BufTy).Contents (Elt F) → (⟨S800000, .i32⟩ : BufTy).Contents (Elt F) → (⟨S800000, .i32⟩ : BufTy).Contents (Elt F)),
    ternary main_v61 main_v63 main_arg2 main_v64 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v64 main_v65 (broadcastInDim S800000x1 ![0] bcast_S800000_S800000x1_0 : (⟨S800000, .i32⟩ : BufTy).Contents (Elt F) → (⟨S800000x1, .i32⟩ : BufTy).Contents (Elt F)),
    binary main_v59 main_v65 main_v66 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_12 (constantI S_ 32 0#32),
    unary main_c_12 main_v67 (broadcastInDim S800000 ![] bcast_S_S800000 : (⟨S_, .i32⟩ : BufTy).Contents (Elt F) → (⟨S800000, .i32⟩ : BufTy).Contents (Elt F)),
    binary main_arg3 main_v67 main_v68 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v69 (broadcastInDim S800000 ![] bcast_S_S800000 : (⟨S_, .i32⟩ : BufTy).Contents (Elt F) → (⟨S800000, .i32⟩ : BufTy).Contents (Elt F)),
    binary main_arg3 main_v69 main_v70 (addi : (⟨S800000, .i32⟩ : BufTy).Contents (Elt F) → (⟨S800000, .i32⟩ : BufTy).Contents (Elt F) → (⟨S800000, .i32⟩ : BufTy).Contents (Elt F)),
    ternary main_v68 main_v70 main_arg3 main_v71 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v71 main_v72 (broadcastInDim S800000x1 ![0] bcast_S800000_S800000x1_0 : (⟨S800000, .i32⟩ : BufTy).Contents (Elt F) → (⟨S800000x1, .i32⟩ : BufTy).Contents (Elt F)),
    binary main_v59 main_v72 main_v73 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    binary main_v66 main_v73 main_v74 ((fun a b => concatenate S800000x256 1 [⟨S800000x128, a⟩, ⟨S800000x128, b⟩] concatenates_S800000x128_S800000x128_S800000x256_d1) : (⟨S800000x128, .f32⟩ : BufTy).Contents (Elt F) → (⟨S800000x128, .f32⟩ : BufTy).Contents (Elt F) → (⟨S800000x256, .f32⟩ : BufTy).Contents (Elt F)),
    binary main_v74 main_arg12 main_v75 ((fun l r => Host.dotGeneral dot_S800000x256_S256x10_S800000x10_1_0_0_1_n_n none l r) : (⟨S800000x256, .f32⟩ : BufTy).Contents (Elt F) → (⟨S256x10, .f32⟩ : BufTy).Contents (Elt F) → (⟨S800000x10, .f32⟩ : BufTy).Contents (Elt F)),
    unary main_arg13 main_v76 (broadcastInDim S1x10 ![1] bcast_S10_S1x10_1 : (⟨S10, .f32⟩ : BufTy).Contents (Elt F) → (⟨S1x10, .f32⟩ : BufTy).Contents (Elt F)),
    unary main_v76 main_v77 (broadcastInDim S800000x10 ![0, 1] bcast_S1x10_S800000x10_0_1 : (⟨S1x10, .f32⟩ : BufTy).Contents (Elt F) → (⟨S800000x10, .f32⟩ : BufTy).Contents (Elt F)),
    binary main_v75 main_v77 main_v78 (addf : (⟨S800000x10, .f32⟩ : BufTy).Contents (Elt F) → (⟨S800000x10, .f32⟩ : BufTy).Contents (Elt F) → (⟨S800000x10, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub ..⟩

/-! ## The line in five stretches -/

/-- Stretch 1: the first layer's edge messages. -/
abbrev ops1 : List (HloOp τ sig (Elt F)) :=
  [ nullary main_c (constantI S_ 32 0#32),
    unary main_c main_v0 (broadcastInDim S800000 ![] bcast_S_S800000 : (⟨S_, .i32⟩ : BufTy).Contents (Elt F) → (⟨S800000, .i32⟩ : BufTy).Contents (Elt F)),
    binary main_arg2 main_v0 main_v1 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v2 (broadcastInDim S800000 ![] bcast_S_S800000 : (⟨S_, .i32⟩ : BufTy).Contents (Elt F) → (⟨S800000, .i32⟩ : BufTy).Contents (Elt F)),
    binary main_arg2 main_v2 main_v3 (addi : (⟨S800000, .i32⟩ : BufTy).Contents (Elt F) → (⟨S800000, .i32⟩ : BufTy).Contents (Elt F) → (⟨S800000, .i32⟩ : BufTy).Contents (Elt F)),
    ternary main_v1 main_v3 main_arg2 main_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v4 main_v5 (broadcastInDim S800000x1 ![0] bcast_S800000_S800000x1_0 : (⟨S800000, .i32⟩ : BufTy).Contents (Elt F) → (⟨S800000x1, .i32⟩ : BufTy).Contents (Elt F)),
    binary main_arg0 main_v5 main_v6 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v6 main_arg1 main_v7 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    binary main_v7 main_arg4 main_v8 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    unary main_arg5 main_v9 (broadcastInDim S1x128 ![1] bcast_S128_S1x128_1 : (⟨S128, .f32⟩ : BufTy).Contents (Elt F) → (⟨S1x128, .f32⟩ : BufTy).Contents (Elt F)),
    unary main_v9 main_v10 (broadcastInDim S800000x128 ![0, 1] bcast_S1x128_S800000x128_0_1 : (⟨S1x128, .f32⟩ : BufTy).Contents (Elt F) → (⟨S800000x128, .f32⟩ : BufTy).Contents (Elt F)),
    binary main_v8 main_v10 main_v11 (addf : (⟨S800000x128, .f32⟩ : BufTy).Contents (Elt F) → (⟨S800000x128, .f32⟩ : BufTy).Contents (Elt F) → (⟨S800000x128, .f32⟩ : BufTy).Contents (Elt F)) ]

/-- Stretch 2: the first layer's aggregation and node update. -/
abbrev ops2 : List (HloOp τ sig (Elt F)) :=
  [ nullary main_cst (constant S_ .f32 0x00000000#32),
    unary main_cst main_v12 (broadcastInDim S50000x128 ![] bcast_S_S50000x128 : (⟨S_, .f32⟩ : BufTy).Contents (Elt F) → (⟨S50000x128, .f32⟩ : BufTy).Contents (Elt F)),
    unary main_arg3 main_v13 (broadcastInDim S800000x1 ![0] bcast_S800000_S800000x1_0 : (⟨S800000, .i32⟩ : BufTy).Contents (Elt F) → (⟨S800000x1, .i32⟩ : BufTy).Contents (Elt F)),
    ternary main_v12 main_v13 main_v11 main_v14 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v15 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v16 (broadcastInDim S50000 ![] bcast_S_S50000 : (⟨S_, .f32⟩ : BufTy).Contents (Elt F) → (⟨S50000, .f32⟩ : BufTy).Contents (Elt F)),
    unary main_arg3 main_v17 (broadcastInDim S800000x1 ![0] bcast_S800000_S800000x1_0 : (⟨S800000, .i32⟩ : BufTy).Contents (Elt F) → (⟨S800000x1, .i32⟩ : BufTy).Contents (Elt F)),
    ternary main_v16 main_v17 main_v15 main_v18 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v19 (broadcastInDim S50000 ![] bcast_S_S50000 : (⟨S_, .f32⟩ : BufTy).Contents (Elt F) → (⟨S50000, .f32⟩ : BufTy).Contents (Elt F)),
    binary main_v18 main_v19 main_v20 (maximumf : (⟨S50000, .f32⟩ : BufTy).Contents (Elt F) → (⟨S50000, .f32⟩ : BufTy).Contents (Elt F) → (⟨S50000, .f32⟩ : BufTy).Contents (Elt F)),
    unary main_v20 main_v21 (broadcastInDim S50000x1 ![0] bcast_S50000_S50000x1_0 : (⟨S50000, .f32⟩ : BufTy).Contents (Elt F) → (⟨S50000x1, .f32⟩ : BufTy).Contents (Elt F)),
    unary main_v21 main_v22 (broadcastInDim S50000x128 ![0, 1] bcast_S50000x1_S50000x128_0_1 : (⟨S50000x1, .f32⟩ : BufTy).Contents (Elt F) → (⟨S50000x128, .f32⟩ : BufTy).Contents (Elt F)),
    binary main_v14 main_v22 main_v23 (Host.divf : (⟨S50000x128, .f32⟩ : BufTy).Contents (Elt F) → (⟨S50000x128, .f32⟩ : BufTy).Contents (Elt F) → (⟨S50000x128, .f32⟩ : BufTy).Contents (Elt F)),
    binary main_arg0 main_v23 main_v24 ((fun a b => concatenate S50000x192 1 [⟨S50000x64, a⟩, ⟨S50000x128, b⟩] concatenates_S50000x64_S50000x128_S50000x192_d1) : (⟨S50000x64, .f32⟩ : BufTy).Contents (Elt F) → (⟨S50000x128, .f32⟩ : BufTy).Contents (Elt F) → (⟨S50000x192, .f32⟩ : BufTy).Contents (Elt F)),
    binary main_v24 main_arg6 main_v25 ((fun l r => Host.dotGeneral dot_S50000x192_S192x128_S50000x128_1_0_0_1_n_n none l r) : (⟨S50000x192, .f32⟩ : BufTy).Contents (Elt F) → (⟨S192x128, .f32⟩ : BufTy).Contents (Elt F) → (⟨S50000x128, .f32⟩ : BufTy).Contents (Elt F)),
    unary main_arg7 main_v26 (broadcastInDim S1x128 ![1] bcast_S128_S1x128_1 : (⟨S128, .f32⟩ : BufTy).Contents (Elt F) → (⟨S1x128, .f32⟩ : BufTy).Contents (Elt F)),
    unary main_v26 main_v27 (broadcastInDim S50000x128 ![0, 1] bcast_S1x128_S50000x128_0_1 : (⟨S1x128, .f32⟩ : BufTy).Contents (Elt F) → (⟨S50000x128, .f32⟩ : BufTy).Contents (Elt F)),
    binary main_v25 main_v27 main_v28 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v28) (TRef.of (T := ⟨S50000x128, .f32⟩) main_call0_v0) (TRef.of (T := ⟨S50000x128, .f32⟩) main_v29) maximumf ]

/-- Stretch 3: the second layer's edge messages. -/
abbrev ops3 : List (HloOp τ sig (Elt F)) :=
  [ nullary main_c_4 (constantI S_ 32 0#32),
    unary main_c_4 main_v30 (broadcastInDim S800000 ![] bcast_S_S800000 : (⟨S_, .i32⟩ : BufTy).Contents (Elt F) → (⟨S800000, .i32⟩ : BufTy).Contents (Elt F)),
    binary main_arg2 main_v30 main_v31 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v32 (broadcastInDim S800000 ![] bcast_S_S800000 : (⟨S_, .i32⟩ : BufTy).Contents (Elt F) → (⟨S800000, .i32⟩ : BufTy).Contents (Elt F)),
    binary main_arg2 main_v32 main_v33 (addi : (⟨S800000, .i32⟩ : BufTy).Contents (Elt F) → (⟨S800000, .i32⟩ : BufTy).Contents (Elt F) → (⟨S800000, .i32⟩ : BufTy).Contents (Elt F)),
    ternary main_v31 main_v33 main_arg2 main_v34 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v34 main_v35 (broadcastInDim S800000x1 ![0] bcast_S800000_S800000x1_0 : (⟨S800000, .i32⟩ : BufTy).Contents (Elt F) → (⟨S800000x1, .i32⟩ : BufTy).Contents (Elt F)),
    binary main_v29 main_v35 main_v36 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    binary main_v36 main_arg1 main_v37 ((fun a b => concatenate S800000x192 1 [⟨S800000x128, a⟩, ⟨S800000x64, b⟩] concatenates_S800000x128_S800000x64_S800000x192_d1) : (⟨S800000x128, .f32⟩ : BufTy).Contents (Elt F) → (⟨S800000x64, .f32⟩ : BufTy).Contents (Elt F) → (⟨S800000x192, .f32⟩ : BufTy).Contents (Elt F)),
    binary main_v37 main_arg8 main_v38 ((fun l r => Host.dotGeneral dot_S800000x192_S192x128_S800000x128_1_0_0_1_n_n none l r) : (⟨S800000x192, .f32⟩ : BufTy).Contents (Elt F) → (⟨S192x128, .f32⟩ : BufTy).Contents (Elt F) → (⟨S800000x128, .f32⟩ : BufTy).Contents (Elt F)),
    unary main_arg9 main_v39 (broadcastInDim S1x128 ![1] bcast_S128_S1x128_1 : (⟨S128, .f32⟩ : BufTy).Contents (Elt F) → (⟨S1x128, .f32⟩ : BufTy).Contents (Elt F)),
    unary main_v39 main_v40 (broadcastInDim S800000x128 ![0, 1] bcast_S1x128_S800000x128_0_1 : (⟨S1x128, .f32⟩ : BufTy).Contents (Elt F) → (⟨S800000x128, .f32⟩ : BufTy).Contents (Elt F)),
    binary main_v38 main_v40 main_v41 (addf : (⟨S800000x128, .f32⟩ : BufTy).Contents (Elt F) → (⟨S800000x128, .f32⟩ : BufTy).Contents (Elt F) → (⟨S800000x128, .f32⟩ : BufTy).Contents (Elt F)) ]

/-- Stretch 4: the second layer's aggregation and node update. -/
abbrev ops4 : List (HloOp τ sig (Elt F)) :=
  [ nullary main_cst_6 (constant S_ .f32 0x00000000#32),
    unary main_cst_6 main_v42 (broadcastInDim S50000x128 ![] bcast_S_S50000x128 : (⟨S_, .f32⟩ : BufTy).Contents (Elt F) → (⟨S50000x128, .f32⟩ : BufTy).Contents (Elt F)),
    unary main_arg3 main_v43 (broadcastInDim S800000x1 ![0] bcast_S800000_S800000x1_0 : (⟨S800000, .i32⟩ : BufTy).Contents (Elt F) → (⟨S800000x1, .i32⟩ : BufTy).Contents (Elt F)),
    ternary main_v42 main_v43 main_v41 main_v44 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_7 (constant S_ .f32 0x3F800000#32),
    unary main_cst_7 main_v45 (broadcastInDim S800000 ![] bcast_S_S800000 : (⟨S_, .f32⟩ : BufTy).Contents (Elt F) → (⟨S800000, .f32⟩ : BufTy).Contents (Elt F)),
    nullary main_cst_8 (constant S_ .f32 0x00000000#32),
    unary main_cst_8 main_v46 (broadcastInDim S50000 ![] bcast_S_S50000 : (⟨S_, .f32⟩ : BufTy).Contents (Elt F) → (⟨S50000, .f32⟩ : BufTy).Contents (Elt F)),
    unary main_arg3 main_v47 (broadcastInDim S800000x1 ![0] bcast_S800000_S800000x1_0 : (⟨S800000, .i32⟩ : BufTy).Contents (Elt F) → (⟨S800000x1, .i32⟩ : BufTy).Contents (Elt F)),
    ternary main_v46 main_v47 main_v45 main_v48 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_9 (constant S_ .f32 0x3F800000#32),
    unary main_cst_9 main_v49 (broadcastInDim S50000 ![] bcast_S_S50000 : (⟨S_, .f32⟩ : BufTy).Contents (Elt F) → (⟨S50000, .f32⟩ : BufTy).Contents (Elt F)),
    binary main_v48 main_v49 main_v50 (maximumf : (⟨S50000, .f32⟩ : BufTy).Contents (Elt F) → (⟨S50000, .f32⟩ : BufTy).Contents (Elt F) → (⟨S50000, .f32⟩ : BufTy).Contents (Elt F)),
    unary main_v50 main_v51 (broadcastInDim S50000x1 ![0] bcast_S50000_S50000x1_0 : (⟨S50000, .f32⟩ : BufTy).Contents (Elt F) → (⟨S50000x1, .f32⟩ : BufTy).Contents (Elt F)),
    unary main_v51 main_v52 (broadcastInDim S50000x128 ![0, 1] bcast_S50000x1_S50000x128_0_1 : (⟨S50000x1, .f32⟩ : BufTy).Contents (Elt F) → (⟨S50000x128, .f32⟩ : BufTy).Contents (Elt F)),
    binary main_v44 main_v52 main_v53 (Host.divf : (⟨S50000x128, .f32⟩ : BufTy).Contents (Elt F) → (⟨S50000x128, .f32⟩ : BufTy).Contents (Elt F) → (⟨S50000x128, .f32⟩ : BufTy).Contents (Elt F)),
    binary main_v29 main_v53 main_v54 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v54 main_arg10 main_v55 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg11 main_v56 (broadcastInDim S1x128 ![1] bcast_S128_S1x128_1 : (⟨S128, .f32⟩ : BufTy).Contents (Elt F) → (⟨S1x128, .f32⟩ : BufTy).Contents (Elt F)),
    unary main_v56 main_v57 (broadcastInDim S50000x128 ![0, 1] bcast_S1x128_S50000x128_0_1 : (⟨S1x128, .f32⟩ : BufTy).Contents (Elt F) → (⟨S50000x128, .f32⟩ : BufTy).Contents (Elt F)),
    binary main_v55 main_v57 main_v58 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v58) (TRef.of (T := ⟨S50000x128, .f32⟩) main_call1_v0) (TRef.of (T := ⟨S50000x128, .f32⟩) main_v59) maximumf ]

/-- Stretch 5: the predictor. -/
abbrev ops5 : List (HloOp τ sig (Elt F)) :=
  [ nullary main_c_10 (constantI S_ 32 0#32),
    unary main_c_10 main_v60 (broadcastInDim S800000 ![] bcast_S_S800000 : (⟨S_, .i32⟩ : BufTy).Contents (Elt F) → (⟨S800000, .i32⟩ : BufTy).Contents (Elt F)),
    binary main_arg2 main_v60 main_v61 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v62 (broadcastInDim S800000 ![] bcast_S_S800000 : (⟨S_, .i32⟩ : BufTy).Contents (Elt F) → (⟨S800000, .i32⟩ : BufTy).Contents (Elt F)),
    binary main_arg2 main_v62 main_v63 (addi : (⟨S800000, .i32⟩ : BufTy).Contents (Elt F) → (⟨S800000, .i32⟩ : BufTy).Contents (Elt F) → (⟨S800000, .i32⟩ : BufTy).Contents (Elt F)),
    ternary main_v61 main_v63 main_arg2 main_v64 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v64 main_v65 (broadcastInDim S800000x1 ![0] bcast_S800000_S800000x1_0 : (⟨S800000, .i32⟩ : BufTy).Contents (Elt F) → (⟨S800000x1, .i32⟩ : BufTy).Contents (Elt F)),
    binary main_v59 main_v65 main_v66 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_12 (constantI S_ 32 0#32),
    unary main_c_12 main_v67 (broadcastInDim S800000 ![] bcast_S_S800000 : (⟨S_, .i32⟩ : BufTy).Contents (Elt F) → (⟨S800000, .i32⟩ : BufTy).Contents (Elt F)),
    binary main_arg3 main_v67 main_v68 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v69 (broadcastInDim S800000 ![] bcast_S_S800000 : (⟨S_, .i32⟩ : BufTy).Contents (Elt F) → (⟨S800000, .i32⟩ : BufTy).Contents (Elt F)),
    binary main_arg3 main_v69 main_v70 (addi : (⟨S800000, .i32⟩ : BufTy).Contents (Elt F) → (⟨S800000, .i32⟩ : BufTy).Contents (Elt F) → (⟨S800000, .i32⟩ : BufTy).Contents (Elt F)),
    ternary main_v68 main_v70 main_arg3 main_v71 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v71 main_v72 (broadcastInDim S800000x1 ![0] bcast_S800000_S800000x1_0 : (⟨S800000, .i32⟩ : BufTy).Contents (Elt F) → (⟨S800000x1, .i32⟩ : BufTy).Contents (Elt F)),
    binary main_v59 main_v72 main_v73 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    binary main_v66 main_v73 main_v74 ((fun a b => concatenate S800000x256 1 [⟨S800000x128, a⟩, ⟨S800000x128, b⟩] concatenates_S800000x128_S800000x128_S800000x256_d1) : (⟨S800000x128, .f32⟩ : BufTy).Contents (Elt F) → (⟨S800000x128, .f32⟩ : BufTy).Contents (Elt F) → (⟨S800000x256, .f32⟩ : BufTy).Contents (Elt F)),
    binary main_v74 main_arg12 main_v75 ((fun l r => Host.dotGeneral dot_S800000x256_S256x10_S800000x10_1_0_0_1_n_n none l r) : (⟨S800000x256, .f32⟩ : BufTy).Contents (Elt F) → (⟨S256x10, .f32⟩ : BufTy).Contents (Elt F) → (⟨S800000x10, .f32⟩ : BufTy).Contents (Elt F)),
    unary main_arg13 main_v76 (broadcastInDim S1x10 ![1] bcast_S10_S1x10_1 : (⟨S10, .f32⟩ : BufTy).Contents (Elt F) → (⟨S1x10, .f32⟩ : BufTy).Contents (Elt F)),
    unary main_v76 main_v77 (broadcastInDim S800000x10 ![0, 1] bcast_S1x10_S800000x10_0_1 : (⟨S1x10, .f32⟩ : BufTy).Contents (Elt F) → (⟨S800000x10, .f32⟩ : BufTy).Contents (Elt F)),
    binary main_v75 main_v77 main_v78 (addf : (⟨S800000x10, .f32⟩ : BufTy).Contents (Elt F) → (⟨S800000x10, .f32⟩ : BufTy).Contents (Elt F) → (⟨S800000x10, .f32⟩ : BufTy).Contents (Elt F)) ]

set_option maxRecDepth 8192 in
theorem ops_split : (ops : List (HloOp τ sig (Elt F))) = ops1 ++ (ops2 ++ (ops3 ++ (ops4 ++ ops5))) := rfl

variable (m : (ℓ : Loc nD τ sig) → Buf (Elt F) ℓ) (c : Dev nD)

/-- The buffer contents at launch, then after each stretch (each level a definition of its own, so that a later
    stretch's fold is read over the earlier level's contents as they stand). -/
abbrev R0 : Valuation τ sig (Elt F) := launchContents m c
def R1 : Valuation τ sig (Elt F) := after ops1 (R0 m c)
def R2 : Valuation τ sig (Elt F) := after ops2 (R1 m c)
def R3 : Valuation τ sig (Elt F) := after ops3 (R2 m c)
def R4 : Valuation τ sig (Elt F) := after ops4 (R3 m c)
def R5 : Valuation τ sig (Elt F) := after ops5 (R4 m c)

theorem after_ops : after ops (launchContents m c) = R5 m c := by
  rw [ops_split, after_append, after_append, after_append, after_append]
  rfl

/-- Every weakly fair execution of the reference terminates with each buffer at the fold's final contents. -/
theorem run_fold (ρ : Dev nD → PrngReg) :
    θ_run defs (onTc (τ := τ) (main (F := F))) ⟨m, fun _ => 0, ρ⟩ fun r =>
      ∀ (c : Dev nD) (b : Ref sig .tc), r.2.mem ((c.tc : Thread nD τ).loc b) = R5 m c (Proc.devRef .tc b) :=
  (θ_run defs _ _).mono (fun _ h c b => (h c b).trans (congrFun (after_ops m c) _))
    (run_seq scopedRefs_eq scopedSems_eq defs main (fun _ => ops) main_eq (fun _ => ops_sub) m ρ)

/-! ## What each stretch leaves untouched -/

theorem stretch1_keeps_arg0 : R1 m c (Proc.devRef .tc main_arg0) = R0 m c (Proc.devRef .tc main_arg0) := by
  show after ops1 (R0 m c) (Proc.devRef .tc main_arg0) = _
  simp only [ops1]
  after_results_simp

theorem stretch1_keeps_arg1 : R1 m c (Proc.devRef .tc main_arg1) = R0 m c (Proc.devRef .tc main_arg1) := by
  show after ops1 (R0 m c) (Proc.devRef .tc main_arg1) = _
  simp only [ops1]
  after_results_simp

theorem stretch1_keeps_arg2 : R1 m c (Proc.devRef .tc main_arg2) = R0 m c (Proc.devRef .tc main_arg2) := by
  show after ops1 (R0 m c) (Proc.devRef .tc main_arg2) = _
  simp only [ops1]
  after_results_simp

theorem stretch1_keeps_arg3 : R1 m c (Proc.devRef .tc main_arg3) = R0 m c (Proc.devRef .tc main_arg3) := by
  show after ops1 (R0 m c) (Proc.devRef .tc main_arg3) = _
  simp only [ops1]
  after_results_simp

theorem stretch1_keeps_arg4 : R1 m c (Proc.devRef .tc main_arg4) = R0 m c (Proc.devRef .tc main_arg4) := by
  show after ops1 (R0 m c) (Proc.devRef .tc main_arg4) = _
  simp only [ops1]
  after_results_simp

theorem stretch1_keeps_arg5 : R1 m c (Proc.devRef .tc main_arg5) = R0 m c (Proc.devRef .tc main_arg5) := by
  show after ops1 (R0 m c) (Proc.devRef .tc main_arg5) = _
  simp only [ops1]
  after_results_simp

theorem stretch1_keeps_arg6 : R1 m c (Proc.devRef .tc main_arg6) = R0 m c (Proc.devRef .tc main_arg6) := by
  show after ops1 (R0 m c) (Proc.devRef .tc main_arg6) = _
  simp only [ops1]
  after_results_simp

theorem stretch1_keeps_arg7 : R1 m c (Proc.devRef .tc main_arg7) = R0 m c (Proc.devRef .tc main_arg7) := by
  show after ops1 (R0 m c) (Proc.devRef .tc main_arg7) = _
  simp only [ops1]
  after_results_simp

theorem stretch1_keeps_arg8 : R1 m c (Proc.devRef .tc main_arg8) = R0 m c (Proc.devRef .tc main_arg8) := by
  show after ops1 (R0 m c) (Proc.devRef .tc main_arg8) = _
  simp only [ops1]
  after_results_simp

theorem stretch1_keeps_arg9 : R1 m c (Proc.devRef .tc main_arg9) = R0 m c (Proc.devRef .tc main_arg9) := by
  show after ops1 (R0 m c) (Proc.devRef .tc main_arg9) = _
  simp only [ops1]
  after_results_simp

theorem stretch1_keeps_arg10 : R1 m c (Proc.devRef .tc main_arg10) = R0 m c (Proc.devRef .tc main_arg10) := by
  show after ops1 (R0 m c) (Proc.devRef .tc main_arg10) = _
  simp only [ops1]
  after_results_simp

theorem stretch1_keeps_arg11 : R1 m c (Proc.devRef .tc main_arg11) = R0 m c (Proc.devRef .tc main_arg11) := by
  show after ops1 (R0 m c) (Proc.devRef .tc main_arg11) = _
  simp only [ops1]
  after_results_simp

theorem stretch1_keeps_arg12 : R1 m c (Proc.devRef .tc main_arg12) = R0 m c (Proc.devRef .tc main_arg12) := by
  show after ops1 (R0 m c) (Proc.devRef .tc main_arg12) = _
  simp only [ops1]
  after_results_simp

theorem stretch1_keeps_arg13 : R1 m c (Proc.devRef .tc main_arg13) = R0 m c (Proc.devRef .tc main_arg13) := by
  show after ops1 (R0 m c) (Proc.devRef .tc main_arg13) = _
  simp only [ops1]
  after_results_simp

theorem stretch2_keeps_arg0 : R2 m c (Proc.devRef .tc main_arg0) = R1 m c (Proc.devRef .tc main_arg0) := by
  show after ops2 (R1 m c) (Proc.devRef .tc main_arg0) = _
  simp only [ops2]
  after_results_simp

theorem stretch2_keeps_arg1 : R2 m c (Proc.devRef .tc main_arg1) = R1 m c (Proc.devRef .tc main_arg1) := by
  show after ops2 (R1 m c) (Proc.devRef .tc main_arg1) = _
  simp only [ops2]
  after_results_simp

theorem stretch2_keeps_arg2 : R2 m c (Proc.devRef .tc main_arg2) = R1 m c (Proc.devRef .tc main_arg2) := by
  show after ops2 (R1 m c) (Proc.devRef .tc main_arg2) = _
  simp only [ops2]
  after_results_simp

theorem stretch2_keeps_arg3 : R2 m c (Proc.devRef .tc main_arg3) = R1 m c (Proc.devRef .tc main_arg3) := by
  show after ops2 (R1 m c) (Proc.devRef .tc main_arg3) = _
  simp only [ops2]
  after_results_simp

theorem stretch2_keeps_arg4 : R2 m c (Proc.devRef .tc main_arg4) = R1 m c (Proc.devRef .tc main_arg4) := by
  show after ops2 (R1 m c) (Proc.devRef .tc main_arg4) = _
  simp only [ops2]
  after_results_simp

theorem stretch2_keeps_arg5 : R2 m c (Proc.devRef .tc main_arg5) = R1 m c (Proc.devRef .tc main_arg5) := by
  show after ops2 (R1 m c) (Proc.devRef .tc main_arg5) = _
  simp only [ops2]
  after_results_simp

theorem stretch2_keeps_arg6 : R2 m c (Proc.devRef .tc main_arg6) = R1 m c (Proc.devRef .tc main_arg6) := by
  show after ops2 (R1 m c) (Proc.devRef .tc main_arg6) = _
  simp only [ops2]
  after_results_simp

theorem stretch2_keeps_arg7 : R2 m c (Proc.devRef .tc main_arg7) = R1 m c (Proc.devRef .tc main_arg7) := by
  show after ops2 (R1 m c) (Proc.devRef .tc main_arg7) = _
  simp only [ops2]
  after_results_simp

theorem stretch2_keeps_arg8 : R2 m c (Proc.devRef .tc main_arg8) = R1 m c (Proc.devRef .tc main_arg8) := by
  show after ops2 (R1 m c) (Proc.devRef .tc main_arg8) = _
  simp only [ops2]
  after_results_simp

theorem stretch2_keeps_arg9 : R2 m c (Proc.devRef .tc main_arg9) = R1 m c (Proc.devRef .tc main_arg9) := by
  show after ops2 (R1 m c) (Proc.devRef .tc main_arg9) = _
  simp only [ops2]
  after_results_simp

theorem stretch2_keeps_arg10 : R2 m c (Proc.devRef .tc main_arg10) = R1 m c (Proc.devRef .tc main_arg10) := by
  show after ops2 (R1 m c) (Proc.devRef .tc main_arg10) = _
  simp only [ops2]
  after_results_simp

theorem stretch2_keeps_arg11 : R2 m c (Proc.devRef .tc main_arg11) = R1 m c (Proc.devRef .tc main_arg11) := by
  show after ops2 (R1 m c) (Proc.devRef .tc main_arg11) = _
  simp only [ops2]
  after_results_simp

theorem stretch2_keeps_arg12 : R2 m c (Proc.devRef .tc main_arg12) = R1 m c (Proc.devRef .tc main_arg12) := by
  show after ops2 (R1 m c) (Proc.devRef .tc main_arg12) = _
  simp only [ops2]
  after_results_simp

theorem stretch2_keeps_arg13 : R2 m c (Proc.devRef .tc main_arg13) = R1 m c (Proc.devRef .tc main_arg13) := by
  show after ops2 (R1 m c) (Proc.devRef .tc main_arg13) = _
  simp only [ops2]
  after_results_simp

theorem stretch3_keeps_arg0 : R3 m c (Proc.devRef .tc main_arg0) = R2 m c (Proc.devRef .tc main_arg0) := by
  show after ops3 (R2 m c) (Proc.devRef .tc main_arg0) = _
  simp only [ops3]
  after_results_simp

theorem stretch3_keeps_arg1 : R3 m c (Proc.devRef .tc main_arg1) = R2 m c (Proc.devRef .tc main_arg1) := by
  show after ops3 (R2 m c) (Proc.devRef .tc main_arg1) = _
  simp only [ops3]
  after_results_simp

theorem stretch3_keeps_arg2 : R3 m c (Proc.devRef .tc main_arg2) = R2 m c (Proc.devRef .tc main_arg2) := by
  show after ops3 (R2 m c) (Proc.devRef .tc main_arg2) = _
  simp only [ops3]
  after_results_simp

theorem stretch3_keeps_arg3 : R3 m c (Proc.devRef .tc main_arg3) = R2 m c (Proc.devRef .tc main_arg3) := by
  show after ops3 (R2 m c) (Proc.devRef .tc main_arg3) = _
  simp only [ops3]
  after_results_simp

theorem stretch3_keeps_arg4 : R3 m c (Proc.devRef .tc main_arg4) = R2 m c (Proc.devRef .tc main_arg4) := by
  show after ops3 (R2 m c) (Proc.devRef .tc main_arg4) = _
  simp only [ops3]
  after_results_simp

theorem stretch3_keeps_arg5 : R3 m c (Proc.devRef .tc main_arg5) = R2 m c (Proc.devRef .tc main_arg5) := by
  show after ops3 (R2 m c) (Proc.devRef .tc main_arg5) = _
  simp only [ops3]
  after_results_simp

theorem stretch3_keeps_arg6 : R3 m c (Proc.devRef .tc main_arg6) = R2 m c (Proc.devRef .tc main_arg6) := by
  show after ops3 (R2 m c) (Proc.devRef .tc main_arg6) = _
  simp only [ops3]
  after_results_simp

theorem stretch3_keeps_arg7 : R3 m c (Proc.devRef .tc main_arg7) = R2 m c (Proc.devRef .tc main_arg7) := by
  show after ops3 (R2 m c) (Proc.devRef .tc main_arg7) = _
  simp only [ops3]
  after_results_simp

theorem stretch3_keeps_arg8 : R3 m c (Proc.devRef .tc main_arg8) = R2 m c (Proc.devRef .tc main_arg8) := by
  show after ops3 (R2 m c) (Proc.devRef .tc main_arg8) = _
  simp only [ops3]
  after_results_simp

theorem stretch3_keeps_arg9 : R3 m c (Proc.devRef .tc main_arg9) = R2 m c (Proc.devRef .tc main_arg9) := by
  show after ops3 (R2 m c) (Proc.devRef .tc main_arg9) = _
  simp only [ops3]
  after_results_simp

theorem stretch3_keeps_arg10 : R3 m c (Proc.devRef .tc main_arg10) = R2 m c (Proc.devRef .tc main_arg10) := by
  show after ops3 (R2 m c) (Proc.devRef .tc main_arg10) = _
  simp only [ops3]
  after_results_simp

theorem stretch3_keeps_arg11 : R3 m c (Proc.devRef .tc main_arg11) = R2 m c (Proc.devRef .tc main_arg11) := by
  show after ops3 (R2 m c) (Proc.devRef .tc main_arg11) = _
  simp only [ops3]
  after_results_simp

theorem stretch3_keeps_arg12 : R3 m c (Proc.devRef .tc main_arg12) = R2 m c (Proc.devRef .tc main_arg12) := by
  show after ops3 (R2 m c) (Proc.devRef .tc main_arg12) = _
  simp only [ops3]
  after_results_simp

theorem stretch3_keeps_arg13 : R3 m c (Proc.devRef .tc main_arg13) = R2 m c (Proc.devRef .tc main_arg13) := by
  show after ops3 (R2 m c) (Proc.devRef .tc main_arg13) = _
  simp only [ops3]
  after_results_simp

theorem stretch3_keeps_v29 : R3 m c (Proc.devRef .tc main_v29) = R2 m c (Proc.devRef .tc main_v29) := by
  show after ops3 (R2 m c) (Proc.devRef .tc main_v29) = _
  simp only [ops3]
  after_results_simp

theorem stretch4_keeps_arg0 : R4 m c (Proc.devRef .tc main_arg0) = R3 m c (Proc.devRef .tc main_arg0) := by
  show after ops4 (R3 m c) (Proc.devRef .tc main_arg0) = _
  simp only [ops4]
  after_results_simp

theorem stretch4_keeps_arg1 : R4 m c (Proc.devRef .tc main_arg1) = R3 m c (Proc.devRef .tc main_arg1) := by
  show after ops4 (R3 m c) (Proc.devRef .tc main_arg1) = _
  simp only [ops4]
  after_results_simp

theorem stretch4_keeps_arg2 : R4 m c (Proc.devRef .tc main_arg2) = R3 m c (Proc.devRef .tc main_arg2) := by
  show after ops4 (R3 m c) (Proc.devRef .tc main_arg2) = _
  simp only [ops4]
  after_results_simp

theorem stretch4_keeps_arg3 : R4 m c (Proc.devRef .tc main_arg3) = R3 m c (Proc.devRef .tc main_arg3) := by
  show after ops4 (R3 m c) (Proc.devRef .tc main_arg3) = _
  simp only [ops4]
  after_results_simp

theorem stretch4_keeps_arg4 : R4 m c (Proc.devRef .tc main_arg4) = R3 m c (Proc.devRef .tc main_arg4) := by
  show after ops4 (R3 m c) (Proc.devRef .tc main_arg4) = _
  simp only [ops4]
  after_results_simp

theorem stretch4_keeps_arg5 : R4 m c (Proc.devRef .tc main_arg5) = R3 m c (Proc.devRef .tc main_arg5) := by
  show after ops4 (R3 m c) (Proc.devRef .tc main_arg5) = _
  simp only [ops4]
  after_results_simp

theorem stretch4_keeps_arg6 : R4 m c (Proc.devRef .tc main_arg6) = R3 m c (Proc.devRef .tc main_arg6) := by
  show after ops4 (R3 m c) (Proc.devRef .tc main_arg6) = _
  simp only [ops4]
  after_results_simp

theorem stretch4_keeps_arg7 : R4 m c (Proc.devRef .tc main_arg7) = R3 m c (Proc.devRef .tc main_arg7) := by
  show after ops4 (R3 m c) (Proc.devRef .tc main_arg7) = _
  simp only [ops4]
  after_results_simp

theorem stretch4_keeps_arg8 : R4 m c (Proc.devRef .tc main_arg8) = R3 m c (Proc.devRef .tc main_arg8) := by
  show after ops4 (R3 m c) (Proc.devRef .tc main_arg8) = _
  simp only [ops4]
  after_results_simp

theorem stretch4_keeps_arg9 : R4 m c (Proc.devRef .tc main_arg9) = R3 m c (Proc.devRef .tc main_arg9) := by
  show after ops4 (R3 m c) (Proc.devRef .tc main_arg9) = _
  simp only [ops4]
  after_results_simp

theorem stretch4_keeps_arg10 : R4 m c (Proc.devRef .tc main_arg10) = R3 m c (Proc.devRef .tc main_arg10) := by
  show after ops4 (R3 m c) (Proc.devRef .tc main_arg10) = _
  simp only [ops4]
  after_results_simp

theorem stretch4_keeps_arg11 : R4 m c (Proc.devRef .tc main_arg11) = R3 m c (Proc.devRef .tc main_arg11) := by
  show after ops4 (R3 m c) (Proc.devRef .tc main_arg11) = _
  simp only [ops4]
  after_results_simp

theorem stretch4_keeps_arg12 : R4 m c (Proc.devRef .tc main_arg12) = R3 m c (Proc.devRef .tc main_arg12) := by
  show after ops4 (R3 m c) (Proc.devRef .tc main_arg12) = _
  simp only [ops4]
  after_results_simp

theorem stretch4_keeps_arg13 : R4 m c (Proc.devRef .tc main_arg13) = R3 m c (Proc.devRef .tc main_arg13) := by
  show after ops4 (R3 m c) (Proc.devRef .tc main_arg13) = _
  simp only [ops4]
  after_results_simp

theorem stretch5_keeps_arg0 : R5 m c (Proc.devRef .tc main_arg0) = R4 m c (Proc.devRef .tc main_arg0) := by
  show after ops5 (R4 m c) (Proc.devRef .tc main_arg0) = _
  simp only [ops5]
  after_results_simp

theorem stretch5_keeps_arg1 : R5 m c (Proc.devRef .tc main_arg1) = R4 m c (Proc.devRef .tc main_arg1) := by
  show after ops5 (R4 m c) (Proc.devRef .tc main_arg1) = _
  simp only [ops5]
  after_results_simp

theorem stretch5_keeps_arg2 : R5 m c (Proc.devRef .tc main_arg2) = R4 m c (Proc.devRef .tc main_arg2) := by
  show after ops5 (R4 m c) (Proc.devRef .tc main_arg2) = _
  simp only [ops5]
  after_results_simp

theorem stretch5_keeps_arg3 : R5 m c (Proc.devRef .tc main_arg3) = R4 m c (Proc.devRef .tc main_arg3) := by
  show after ops5 (R4 m c) (Proc.devRef .tc main_arg3) = _
  simp only [ops5]
  after_results_simp

theorem stretch5_keeps_arg4 : R5 m c (Proc.devRef .tc main_arg4) = R4 m c (Proc.devRef .tc main_arg4) := by
  show after ops5 (R4 m c) (Proc.devRef .tc main_arg4) = _
  simp only [ops5]
  after_results_simp

theorem stretch5_keeps_arg5 : R5 m c (Proc.devRef .tc main_arg5) = R4 m c (Proc.devRef .tc main_arg5) := by
  show after ops5 (R4 m c) (Proc.devRef .tc main_arg5) = _
  simp only [ops5]
  after_results_simp

theorem stretch5_keeps_arg6 : R5 m c (Proc.devRef .tc main_arg6) = R4 m c (Proc.devRef .tc main_arg6) := by
  show after ops5 (R4 m c) (Proc.devRef .tc main_arg6) = _
  simp only [ops5]
  after_results_simp

theorem stretch5_keeps_arg7 : R5 m c (Proc.devRef .tc main_arg7) = R4 m c (Proc.devRef .tc main_arg7) := by
  show after ops5 (R4 m c) (Proc.devRef .tc main_arg7) = _
  simp only [ops5]
  after_results_simp

theorem stretch5_keeps_arg8 : R5 m c (Proc.devRef .tc main_arg8) = R4 m c (Proc.devRef .tc main_arg8) := by
  show after ops5 (R4 m c) (Proc.devRef .tc main_arg8) = _
  simp only [ops5]
  after_results_simp

theorem stretch5_keeps_arg9 : R5 m c (Proc.devRef .tc main_arg9) = R4 m c (Proc.devRef .tc main_arg9) := by
  show after ops5 (R4 m c) (Proc.devRef .tc main_arg9) = _
  simp only [ops5]
  after_results_simp

theorem stretch5_keeps_arg10 : R5 m c (Proc.devRef .tc main_arg10) = R4 m c (Proc.devRef .tc main_arg10) := by
  show after ops5 (R4 m c) (Proc.devRef .tc main_arg10) = _
  simp only [ops5]
  after_results_simp

theorem stretch5_keeps_arg11 : R5 m c (Proc.devRef .tc main_arg11) = R4 m c (Proc.devRef .tc main_arg11) := by
  show after ops5 (R4 m c) (Proc.devRef .tc main_arg11) = _
  simp only [ops5]
  after_results_simp

theorem stretch5_keeps_arg12 : R5 m c (Proc.devRef .tc main_arg12) = R4 m c (Proc.devRef .tc main_arg12) := by
  show after ops5 (R4 m c) (Proc.devRef .tc main_arg12) = _
  simp only [ops5]
  after_results_simp

theorem stretch5_keeps_arg13 : R5 m c (Proc.devRef .tc main_arg13) = R4 m c (Proc.devRef .tc main_arg13) := by
  show after ops5 (R4 m c) (Proc.devRef .tc main_arg13) = _
  simp only [ops5]
  after_results_simp

/-! ## Each argument's buffer holds its launch contents after every stretch -/

theorem R1_arg0 : R1 m c (Proc.devRef .tc main_arg0) = m ((c.tc : Thread nD τ).loc main_arg0) := (stretch1_keeps_arg0 m c).trans rfl
theorem R1_arg1 : R1 m c (Proc.devRef .tc main_arg1) = m ((c.tc : Thread nD τ).loc main_arg1) := (stretch1_keeps_arg1 m c).trans rfl
theorem R1_arg2 : R1 m c (Proc.devRef .tc main_arg2) = m ((c.tc : Thread nD τ).loc main_arg2) := (stretch1_keeps_arg2 m c).trans rfl
theorem R1_arg3 : R1 m c (Proc.devRef .tc main_arg3) = m ((c.tc : Thread nD τ).loc main_arg3) := (stretch1_keeps_arg3 m c).trans rfl
theorem R1_arg4 : R1 m c (Proc.devRef .tc main_arg4) = m ((c.tc : Thread nD τ).loc main_arg4) := (stretch1_keeps_arg4 m c).trans rfl
theorem R1_arg5 : R1 m c (Proc.devRef .tc main_arg5) = m ((c.tc : Thread nD τ).loc main_arg5) := (stretch1_keeps_arg5 m c).trans rfl
theorem R1_arg6 : R1 m c (Proc.devRef .tc main_arg6) = m ((c.tc : Thread nD τ).loc main_arg6) := (stretch1_keeps_arg6 m c).trans rfl
theorem R1_arg7 : R1 m c (Proc.devRef .tc main_arg7) = m ((c.tc : Thread nD τ).loc main_arg7) := (stretch1_keeps_arg7 m c).trans rfl
theorem R1_arg8 : R1 m c (Proc.devRef .tc main_arg8) = m ((c.tc : Thread nD τ).loc main_arg8) := (stretch1_keeps_arg8 m c).trans rfl
theorem R1_arg9 : R1 m c (Proc.devRef .tc main_arg9) = m ((c.tc : Thread nD τ).loc main_arg9) := (stretch1_keeps_arg9 m c).trans rfl
theorem R1_arg10 : R1 m c (Proc.devRef .tc main_arg10) = m ((c.tc : Thread nD τ).loc main_arg10) := (stretch1_keeps_arg10 m c).trans rfl
theorem R1_arg11 : R1 m c (Proc.devRef .tc main_arg11) = m ((c.tc : Thread nD τ).loc main_arg11) := (stretch1_keeps_arg11 m c).trans rfl
theorem R1_arg12 : R1 m c (Proc.devRef .tc main_arg12) = m ((c.tc : Thread nD τ).loc main_arg12) := (stretch1_keeps_arg12 m c).trans rfl
theorem R1_arg13 : R1 m c (Proc.devRef .tc main_arg13) = m ((c.tc : Thread nD τ).loc main_arg13) := (stretch1_keeps_arg13 m c).trans rfl
theorem R2_arg0 : R2 m c (Proc.devRef .tc main_arg0) = m ((c.tc : Thread nD τ).loc main_arg0) := (stretch2_keeps_arg0 m c).trans (R1_arg0 m c)
theorem R2_arg1 : R2 m c (Proc.devRef .tc main_arg1) = m ((c.tc : Thread nD τ).loc main_arg1) := (stretch2_keeps_arg1 m c).trans (R1_arg1 m c)
theorem R2_arg2 : R2 m c (Proc.devRef .tc main_arg2) = m ((c.tc : Thread nD τ).loc main_arg2) := (stretch2_keeps_arg2 m c).trans (R1_arg2 m c)
theorem R2_arg3 : R2 m c (Proc.devRef .tc main_arg3) = m ((c.tc : Thread nD τ).loc main_arg3) := (stretch2_keeps_arg3 m c).trans (R1_arg3 m c)
theorem R2_arg4 : R2 m c (Proc.devRef .tc main_arg4) = m ((c.tc : Thread nD τ).loc main_arg4) := (stretch2_keeps_arg4 m c).trans (R1_arg4 m c)
theorem R2_arg5 : R2 m c (Proc.devRef .tc main_arg5) = m ((c.tc : Thread nD τ).loc main_arg5) := (stretch2_keeps_arg5 m c).trans (R1_arg5 m c)
theorem R2_arg6 : R2 m c (Proc.devRef .tc main_arg6) = m ((c.tc : Thread nD τ).loc main_arg6) := (stretch2_keeps_arg6 m c).trans (R1_arg6 m c)
theorem R2_arg7 : R2 m c (Proc.devRef .tc main_arg7) = m ((c.tc : Thread nD τ).loc main_arg7) := (stretch2_keeps_arg7 m c).trans (R1_arg7 m c)
theorem R2_arg8 : R2 m c (Proc.devRef .tc main_arg8) = m ((c.tc : Thread nD τ).loc main_arg8) := (stretch2_keeps_arg8 m c).trans (R1_arg8 m c)
theorem R2_arg9 : R2 m c (Proc.devRef .tc main_arg9) = m ((c.tc : Thread nD τ).loc main_arg9) := (stretch2_keeps_arg9 m c).trans (R1_arg9 m c)
theorem R2_arg10 : R2 m c (Proc.devRef .tc main_arg10) = m ((c.tc : Thread nD τ).loc main_arg10) := (stretch2_keeps_arg10 m c).trans (R1_arg10 m c)
theorem R2_arg11 : R2 m c (Proc.devRef .tc main_arg11) = m ((c.tc : Thread nD τ).loc main_arg11) := (stretch2_keeps_arg11 m c).trans (R1_arg11 m c)
theorem R2_arg12 : R2 m c (Proc.devRef .tc main_arg12) = m ((c.tc : Thread nD τ).loc main_arg12) := (stretch2_keeps_arg12 m c).trans (R1_arg12 m c)
theorem R2_arg13 : R2 m c (Proc.devRef .tc main_arg13) = m ((c.tc : Thread nD τ).loc main_arg13) := (stretch2_keeps_arg13 m c).trans (R1_arg13 m c)
theorem R3_arg0 : R3 m c (Proc.devRef .tc main_arg0) = m ((c.tc : Thread nD τ).loc main_arg0) := (stretch3_keeps_arg0 m c).trans (R2_arg0 m c)
theorem R3_arg1 : R3 m c (Proc.devRef .tc main_arg1) = m ((c.tc : Thread nD τ).loc main_arg1) := (stretch3_keeps_arg1 m c).trans (R2_arg1 m c)
theorem R3_arg2 : R3 m c (Proc.devRef .tc main_arg2) = m ((c.tc : Thread nD τ).loc main_arg2) := (stretch3_keeps_arg2 m c).trans (R2_arg2 m c)
theorem R3_arg3 : R3 m c (Proc.devRef .tc main_arg3) = m ((c.tc : Thread nD τ).loc main_arg3) := (stretch3_keeps_arg3 m c).trans (R2_arg3 m c)
theorem R3_arg4 : R3 m c (Proc.devRef .tc main_arg4) = m ((c.tc : Thread nD τ).loc main_arg4) := (stretch3_keeps_arg4 m c).trans (R2_arg4 m c)
theorem R3_arg5 : R3 m c (Proc.devRef .tc main_arg5) = m ((c.tc : Thread nD τ).loc main_arg5) := (stretch3_keeps_arg5 m c).trans (R2_arg5 m c)
theorem R3_arg6 : R3 m c (Proc.devRef .tc main_arg6) = m ((c.tc : Thread nD τ).loc main_arg6) := (stretch3_keeps_arg6 m c).trans (R2_arg6 m c)
theorem R3_arg7 : R3 m c (Proc.devRef .tc main_arg7) = m ((c.tc : Thread nD τ).loc main_arg7) := (stretch3_keeps_arg7 m c).trans (R2_arg7 m c)
theorem R3_arg8 : R3 m c (Proc.devRef .tc main_arg8) = m ((c.tc : Thread nD τ).loc main_arg8) := (stretch3_keeps_arg8 m c).trans (R2_arg8 m c)
theorem R3_arg9 : R3 m c (Proc.devRef .tc main_arg9) = m ((c.tc : Thread nD τ).loc main_arg9) := (stretch3_keeps_arg9 m c).trans (R2_arg9 m c)
theorem R3_arg10 : R3 m c (Proc.devRef .tc main_arg10) = m ((c.tc : Thread nD τ).loc main_arg10) := (stretch3_keeps_arg10 m c).trans (R2_arg10 m c)
theorem R3_arg11 : R3 m c (Proc.devRef .tc main_arg11) = m ((c.tc : Thread nD τ).loc main_arg11) := (stretch3_keeps_arg11 m c).trans (R2_arg11 m c)
theorem R3_arg12 : R3 m c (Proc.devRef .tc main_arg12) = m ((c.tc : Thread nD τ).loc main_arg12) := (stretch3_keeps_arg12 m c).trans (R2_arg12 m c)
theorem R3_arg13 : R3 m c (Proc.devRef .tc main_arg13) = m ((c.tc : Thread nD τ).loc main_arg13) := (stretch3_keeps_arg13 m c).trans (R2_arg13 m c)
theorem R4_arg0 : R4 m c (Proc.devRef .tc main_arg0) = m ((c.tc : Thread nD τ).loc main_arg0) := (stretch4_keeps_arg0 m c).trans (R3_arg0 m c)
theorem R4_arg1 : R4 m c (Proc.devRef .tc main_arg1) = m ((c.tc : Thread nD τ).loc main_arg1) := (stretch4_keeps_arg1 m c).trans (R3_arg1 m c)
theorem R4_arg2 : R4 m c (Proc.devRef .tc main_arg2) = m ((c.tc : Thread nD τ).loc main_arg2) := (stretch4_keeps_arg2 m c).trans (R3_arg2 m c)
theorem R4_arg3 : R4 m c (Proc.devRef .tc main_arg3) = m ((c.tc : Thread nD τ).loc main_arg3) := (stretch4_keeps_arg3 m c).trans (R3_arg3 m c)
theorem R4_arg4 : R4 m c (Proc.devRef .tc main_arg4) = m ((c.tc : Thread nD τ).loc main_arg4) := (stretch4_keeps_arg4 m c).trans (R3_arg4 m c)
theorem R4_arg5 : R4 m c (Proc.devRef .tc main_arg5) = m ((c.tc : Thread nD τ).loc main_arg5) := (stretch4_keeps_arg5 m c).trans (R3_arg5 m c)
theorem R4_arg6 : R4 m c (Proc.devRef .tc main_arg6) = m ((c.tc : Thread nD τ).loc main_arg6) := (stretch4_keeps_arg6 m c).trans (R3_arg6 m c)
theorem R4_arg7 : R4 m c (Proc.devRef .tc main_arg7) = m ((c.tc : Thread nD τ).loc main_arg7) := (stretch4_keeps_arg7 m c).trans (R3_arg7 m c)
theorem R4_arg8 : R4 m c (Proc.devRef .tc main_arg8) = m ((c.tc : Thread nD τ).loc main_arg8) := (stretch4_keeps_arg8 m c).trans (R3_arg8 m c)
theorem R4_arg9 : R4 m c (Proc.devRef .tc main_arg9) = m ((c.tc : Thread nD τ).loc main_arg9) := (stretch4_keeps_arg9 m c).trans (R3_arg9 m c)
theorem R4_arg10 : R4 m c (Proc.devRef .tc main_arg10) = m ((c.tc : Thread nD τ).loc main_arg10) := (stretch4_keeps_arg10 m c).trans (R3_arg10 m c)
theorem R4_arg11 : R4 m c (Proc.devRef .tc main_arg11) = m ((c.tc : Thread nD τ).loc main_arg11) := (stretch4_keeps_arg11 m c).trans (R3_arg11 m c)
theorem R4_arg12 : R4 m c (Proc.devRef .tc main_arg12) = m ((c.tc : Thread nD τ).loc main_arg12) := (stretch4_keeps_arg12 m c).trans (R3_arg12 m c)
theorem R4_arg13 : R4 m c (Proc.devRef .tc main_arg13) = m ((c.tc : Thread nD τ).loc main_arg13) := (stretch4_keeps_arg13 m c).trans (R3_arg13 m c)
theorem R5_arg0 : R5 m c (Proc.devRef .tc main_arg0) = m ((c.tc : Thread nD τ).loc main_arg0) := (stretch5_keeps_arg0 m c).trans (R4_arg0 m c)
theorem R5_arg1 : R5 m c (Proc.devRef .tc main_arg1) = m ((c.tc : Thread nD τ).loc main_arg1) := (stretch5_keeps_arg1 m c).trans (R4_arg1 m c)
theorem R5_arg2 : R5 m c (Proc.devRef .tc main_arg2) = m ((c.tc : Thread nD τ).loc main_arg2) := (stretch5_keeps_arg2 m c).trans (R4_arg2 m c)
theorem R5_arg3 : R5 m c (Proc.devRef .tc main_arg3) = m ((c.tc : Thread nD τ).loc main_arg3) := (stretch5_keeps_arg3 m c).trans (R4_arg3 m c)
theorem R5_arg4 : R5 m c (Proc.devRef .tc main_arg4) = m ((c.tc : Thread nD τ).loc main_arg4) := (stretch5_keeps_arg4 m c).trans (R4_arg4 m c)
theorem R5_arg5 : R5 m c (Proc.devRef .tc main_arg5) = m ((c.tc : Thread nD τ).loc main_arg5) := (stretch5_keeps_arg5 m c).trans (R4_arg5 m c)
theorem R5_arg6 : R5 m c (Proc.devRef .tc main_arg6) = m ((c.tc : Thread nD τ).loc main_arg6) := (stretch5_keeps_arg6 m c).trans (R4_arg6 m c)
theorem R5_arg7 : R5 m c (Proc.devRef .tc main_arg7) = m ((c.tc : Thread nD τ).loc main_arg7) := (stretch5_keeps_arg7 m c).trans (R4_arg7 m c)
theorem R5_arg8 : R5 m c (Proc.devRef .tc main_arg8) = m ((c.tc : Thread nD τ).loc main_arg8) := (stretch5_keeps_arg8 m c).trans (R4_arg8 m c)
theorem R5_arg9 : R5 m c (Proc.devRef .tc main_arg9) = m ((c.tc : Thread nD τ).loc main_arg9) := (stretch5_keeps_arg9 m c).trans (R4_arg9 m c)
theorem R5_arg10 : R5 m c (Proc.devRef .tc main_arg10) = m ((c.tc : Thread nD τ).loc main_arg10) := (stretch5_keeps_arg10 m c).trans (R4_arg10 m c)
theorem R5_arg11 : R5 m c (Proc.devRef .tc main_arg11) = m ((c.tc : Thread nD τ).loc main_arg11) := (stretch5_keeps_arg11 m c).trans (R4_arg11 m c)
theorem R5_arg12 : R5 m c (Proc.devRef .tc main_arg12) = m ((c.tc : Thread nD τ).loc main_arg12) := (stretch5_keeps_arg12 m c).trans (R4_arg12 m c)
theorem R5_arg13 : R5 m c (Proc.devRef .tc main_arg13) = m ((c.tc : Thread nD τ).loc main_arg13) := (stretch5_keeps_arg13 m c).trans (R4_arg13 m c)

end Cert.ReferenceIdeal.HandRun

end
-- ==== Proof.RefLayers.lean ====
/-
  Each layer of the reference is the kernel's fused layer. The reference forms a layer by concatenating its two operands
  along the feature axis and multiplying by the whole weight matrix, then adding the bias broadcast along the rows (and,
  for the node updates, clamping at zero). Term by term the contracted sum over the concatenated axis splits at the
  join into the first operand against the weight's top rows plus the second against its bottom rows. On the extended
  reals this holds whatever the values: only commutativity and associativity of addition are used.
-/
import proofs.«119431_j55594056680038_1_alg».proof.Proof.Gen.ReferenceIdeal
import proofs.«119431_j55594056680038_1_alg».proof.Proof.EdgeMessage1
import proofs.«119431_j55594056680038_1_alg».proof.Proof.NodeUpdate1
import proofs.«119431_j55594056680038_1_alg».proof.Proof.EdgeMessage2
import proofs.«119431_j55594056680038_1_alg».proof.Proof.NodeUpdate2
import proofs.«119431_j55594056680038_1_alg».proof.Proof.EdgeScore
import proofs.«119431_j55594056680038_1_alg».proof.Proof.LibFusedLinear

set_option maxRecDepth 16384

noncomputable section

namespace Cert.ReferenceIdeal.Layers

open Cert.ReferenceIdeal Cert.ReferenceIdeal.Gen Idealize.ShloMosaic Idealize.ShloMosaic.TcCoe Idealize.SL.Sem
open Idealize.ShloMosaic.ValueIdx Cert.Bridge

/-- The layer as the reference computes it — concatenate, multiply by the whole weight matrix, add the bias row — is the fused layer over the weight's top 64 and bottom 64 rows. -/
theorem layer1 (a : FVec Ideal S800000x64 .f32) (b : FVec Ideal S800000x64 .f32) (W : FVec Ideal S128x128 .f32) (bias : FVec Ideal S128 .f32) :
    addf (Host.dotGeneral dot_S800000x128_S128x128_S800000x128_1_0_0_1_n_n none (concatenate S800000x128 1 [⟨S800000x64, a⟩, ⟨S800000x64, b⟩] concatenates_S800000x64_S800000x64_S800000x128_d1) W) (broadcastInDim S800000x128 ![0, 1] bcast_S1x128_S800000x128_0_1 (broadcastInDim S1x128 ![1] bcast_S128_S1x128_1 bias))
      = Cert.KernelIdeal.EdgeMessage1.layer a b (extractStridedSlice Cert.KernelIdeal.S64x128 ![0, 0] W Cert.KernelIdeal.Facts₀.slices_S128x128_S64x128_0_0) (extractStridedSlice Cert.KernelIdeal.S64x128 ![64, 0] W Cert.KernelIdeal.Facts₀.slices_S128x128_S64x128_64_0) (shapeCast Cert.KernelIdeal.S1x128 bias Cert.KernelIdeal.Facts₀.shapeCasts_S128_S1x128) := by
  funext i
  obtain ⟨p, q, rfl⟩ : ∃ (p : Fin 800000) (q : Fin 128), i = ix2 p q := ⟨i 0, i 1, eq_ix2 i⟩
  exact LibFusedLinear.concat_dot_bias_at (A := 64) (B := 64) rfl a b W bias _ _ _ _ _ _ none _ p q

/-- The clamped layer as the reference computes it — concatenate, multiply by the whole weight matrix, add the bias row, clamp at zero — is the fused layer over the weight's top 64 and bottom 128 rows. -/
theorem layer2 (a : FVec Ideal S50000x64 .f32) (b : FVec Ideal S50000x128 .f32) (W : FVec Ideal S192x128 .f32) (bias : FVec Ideal S128 .f32) :
    maximumf (addf (Host.dotGeneral dot_S50000x192_S192x128_S50000x128_1_0_0_1_n_n none (concatenate S50000x192 1 [⟨S50000x64, a⟩, ⟨S50000x128, b⟩] concatenates_S50000x64_S50000x128_S50000x192_d1) W) (broadcastInDim S50000x128 ![0, 1] bcast_S1x128_S50000x128_0_1 (broadcastInDim S1x128 ![1] bcast_S128_S1x128_1 bias))) (broadcastInDim S50000x128 ![] bcast_S_S50000x128 (constant S_ .f32 0x00000000#32))
      = Cert.KernelIdeal.NodeUpdate1.layer a b (extractStridedSlice Cert.KernelIdeal.S64x128 ![0, 0] W Cert.KernelIdeal.Facts₀.slices_S192x128_S64x128_0_0) (extractStridedSlice Cert.KernelIdeal.S128x128 ![64, 0] W Cert.KernelIdeal.Facts₀.slices_S192x128_S128x128_64_0) (shapeCast Cert.KernelIdeal.S1x128 bias Cert.KernelIdeal.Facts₀.shapeCasts_S128_S1x128) := by
  funext i
  obtain ⟨p, q, rfl⟩ : ∃ (p : Fin 50000) (q : Fin 128), i = ix2 p q := ⟨i 0, i 1, eq_ix2 i⟩
  exact LibFusedLinear.relu_concat_dot_bias_at (A := 64) (B := 128) rfl a b W bias _ _ _ _ _ _ _ none _ p q

/-- The layer as the reference computes it — concatenate, multiply by the whole weight matrix, add the bias row — is the fused layer over the weight's top 128 and bottom 64 rows. -/
theorem layer3 (a : FVec Ideal S800000x128 .f32) (b : FVec Ideal S800000x64 .f32) (W : FVec Ideal S192x128 .f32) (bias : FVec Ideal S128 .f32) :
    addf (Host.dotGeneral dot_S800000x192_S192x128_S800000x128_1_0_0_1_n_n none (concatenate S800000x192 1 [⟨S800000x128, a⟩, ⟨S800000x64, b⟩] concatenates_S800000x128_S800000x64_S800000x192_d1) W) (broadcastInDim S800000x128 ![0, 1] bcast_S1x128_S800000x128_0_1 (broadcastInDim S1x128 ![1] bcast_S128_S1x128_1 bias))
      = Cert.KernelIdeal.EdgeMessage2.layer a b (extractStridedSlice Cert.KernelIdeal.S128x128 ![0, 0] W Cert.KernelIdeal.Facts₀.slices_S192x128_S128x128_0_0) (extractStridedSlice Cert.KernelIdeal.S64x128 ![128, 0] W Cert.KernelIdeal.Facts₀.slices_S192x128_S64x128_128_0) (shapeCast Cert.KernelIdeal.S1x128 bias Cert.KernelIdeal.Facts₀.shapeCasts_S128_S1x128) := by
  funext i
  obtain ⟨p, q, rfl⟩ : ∃ (p : Fin 800000) (q : Fin 128), i = ix2 p q := ⟨i 0, i 1, eq_ix2 i⟩
  exact LibFusedLinear.concat_dot_bias_at (A := 128) (B := 64) rfl a b W bias _ _ _ _ _ _ none _ p q

/-- The clamped layer as the reference computes it — concatenate, multiply by the whole weight matrix, add the bias row, clamp at zero — is the fused layer over the weight's top 128 and bottom 128 rows. -/
theorem layer4 (a : FVec Ideal S50000x128 .f32) (b : FVec Ideal S50000x128 .f32) (W : FVec Ideal S256x128 .f32) (bias : FVec Ideal S128 .f32) :
    maximumf (addf (Host.dotGeneral dot_S50000x256_S256x128_S50000x128_1_0_0_1_n_n none (concatenate S50000x256 1 [⟨S50000x128, a⟩, ⟨S50000x128, b⟩] concatenates_S50000x128_S50000x128_S50000x256_d1) W) (broadcastInDim S50000x128 ![0, 1] bcast_S1x128_S50000x128_0_1 (broadcastInDim S1x128 ![1] bcast_S128_S1x128_1 bias))) (broadcastInDim S50000x128 ![] bcast_S_S50000x128 (constant S_ .f32 0x00000000#32))
      = Cert.KernelIdeal.NodeUpdate2.layer a b (extractStridedSlice Cert.KernelIdeal.S128x128 ![0, 0] W Cert.KernelIdeal.Facts₀.slices_S256x128_S128x128_0_0) (extractStridedSlice Cert.KernelIdeal.S128x128 ![128, 0] W Cert.KernelIdeal.Facts₀.slices_S256x128_S128x128_128_0) (shapeCast Cert.KernelIdeal.S1x128 bias Cert.KernelIdeal.Facts₀.shapeCasts_S128_S1x128) := by
  funext i
  obtain ⟨p, q, rfl⟩ : ∃ (p : Fin 50000) (q : Fin 128), i = ix2 p q := ⟨i 0, i 1, eq_ix2 i⟩
  exact LibFusedLinear.relu_concat_dot_bias_at (A := 128) (B := 128) rfl a b W bias _ _ _ _ _ _ _ none _ p q

/-- The layer as the reference computes it — concatenate, multiply by the whole weight matrix, add the bias row — is the fused layer over the weight's top 128 and bottom 128 rows. -/
theorem layer5 (a : FVec Ideal S800000x128 .f32) (b : FVec Ideal S800000x128 .f32) (W : FVec Ideal S256x10 .f32) (bias : FVec Ideal S10 .f32) :
    addf (Host.dotGeneral dot_S800000x256_S256x10_S800000x10_1_0_0_1_n_n none (concatenate S800000x256 1 [⟨S800000x128, a⟩, ⟨S800000x128, b⟩] concatenates_S800000x128_S800000x128_S800000x256_d1) W) (broadcastInDim S800000x10 ![0, 1] bcast_S1x10_S800000x10_0_1 (broadcastInDim S1x10 ![1] bcast_S10_S1x10_1 bias))
      = Cert.KernelIdeal.EdgeScore.layer a b (extractStridedSlice Cert.KernelIdeal.S128x10 ![0, 0] W Cert.KernelIdeal.Facts₀.slices_S256x10_S128x10_0_0) (extractStridedSlice Cert.KernelIdeal.S128x10 ![128, 0] W Cert.KernelIdeal.Facts₀.slices_S256x10_S128x10_128_0) (shapeCast Cert.KernelIdeal.S1x10 bias Cert.KernelIdeal.Facts₀.shapeCasts_S10_S1x10) := by
  funext i
  obtain ⟨p, q, rfl⟩ : ∃ (p : Fin 800000) (q : Fin 10), i = ix2 p q := ⟨i 0, i 1, eq_ix2 i⟩
  exact LibFusedLinear.concat_dot_bias_at (A := 128) (B := 128) rfl a b W bias _ _ _ _ _ _ none _ p q

end Cert.ReferenceIdeal.Layers

end
-- ==== Proof.RefValue.lean ====
/-
  The idealized reference's result as the network's function of its arguments. Stretch by stretch, the buffer that
  carries a layer's output holds the kernel's fused layer of what the stretch read: the host steps around the layers are
  the same operations the kernel's host stretches perform, and each concatenate-and-multiply is the fused layer. Each
  stretch after the first is read in two parts, up to its concatenation and from it on, so that the concatenation's two
  operands are read as whole buffers.
-/
import proofs.«119431_j55594056680038_1_alg».proof.Proof.RefRun
import proofs.«119431_j55594056680038_1_alg».proof.Proof.RefLayers
import proofs.«119431_j55594056680038_1_alg».proof.Proof.KernelFold

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.HandRun Cert.ReferenceIdeal.Layers

section Lists
variable {F : FTy → Type} [FloatOps F]

/-- Stretch 2 up to its concatenation, and from the concatenation on. -/
abbrev ops2a : List (HloOp τ sig (Elt F)) :=
  [ nullary main_cst (constant S_ .f32 0x00000000#32),
    unary main_cst main_v12 (broadcastInDim S50000x128 ![] bcast_S_S50000x128 : (⟨S_, .f32⟩ : BufTy).Contents (Elt F) → (⟨S50000x128, .f32⟩ : BufTy).Contents (Elt F)),
    unary main_arg3 main_v13 (broadcastInDim S800000x1 ![0] bcast_S800000_S800000x1_0 : (⟨S800000, .i32⟩ : BufTy).Contents (Elt F) → (⟨S800000x1, .i32⟩ : BufTy).Contents (Elt F)),
    ternary main_v12 main_v13 main_v11 main_v14 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v15 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v16 (broadcastInDim S50000 ![] bcast_S_S50000 : (⟨S_, .f32⟩ : BufTy).Contents (Elt F) → (⟨S50000, .f32⟩ : BufTy).Contents (Elt F)),
    unary main_arg3 main_v17 (broadcastInDim S800000x1 ![0] bcast_S800000_S800000x1_0 : (⟨S800000, .i32⟩ : BufTy).Contents (Elt F) → (⟨S800000x1, .i32⟩ : BufTy).Contents (Elt F)),
    ternary main_v16 main_v17 main_v15 main_v18 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v19 (broadcastInDim S50000 ![] bcast_S_S50000 : (⟨S_, .f32⟩ : BufTy).Contents (Elt F) → (⟨S50000, .f32⟩ : BufTy).Contents (Elt F)),
    binary main_v18 main_v19 main_v20 (maximumf : (⟨S50000, .f32⟩ : BufTy).Contents (Elt F) → (⟨S50000, .f32⟩ : BufTy).Contents (Elt F) → (⟨S50000, .f32⟩ : BufTy).Contents (Elt F)),
    unary main_v20 main_v21 (broadcastInDim S50000x1 ![0] bcast_S50000_S50000x1_0 : (⟨S50000, .f32⟩ : BufTy).Contents (Elt F) → (⟨S50000x1, .f32⟩ : BufTy).Contents (Elt F)),
    unary main_v21 main_v22 (broadcastInDim S50000x128 ![0, 1] bcast_S50000x1_S50000x128_0_1 : (⟨S50000x1, .f32⟩ : BufTy).Contents (Elt F) → (⟨S50000x128, .f32⟩ : BufTy).Contents (Elt F)),
    binary main_v14 main_v22 main_v23 (Host.divf : (⟨S50000x128, .f32⟩ : BufTy).Contents (Elt F) → (⟨S50000x128, .f32⟩ : BufTy).Contents (Elt F) → (⟨S50000x128, .f32⟩ : BufTy).Contents (Elt F)) ]
abbrev ops2b : List (HloOp τ sig (Elt F)) :=
  [ binary main_arg0 main_v23 main_v24 ((fun a b => concatenate S50000x192 1 [⟨S50000x64, a⟩, ⟨S50000x128, b⟩] concatenates_S50000x64_S50000x128_S50000x192_d1) : (⟨S50000x64, .f32⟩ : BufTy).Contents (Elt F) → (⟨S50000x128, .f32⟩ : BufTy).Contents (Elt F) → (⟨S50000x192, .f32⟩ : BufTy).Contents (Elt F)),
    binary main_v24 main_arg6 main_v25 ((fun l r => Host.dotGeneral dot_S50000x192_S192x128_S50000x128_1_0_0_1_n_n none l r) : (⟨S50000x192, .f32⟩ : BufTy).Contents (Elt F) → (⟨S192x128, .f32⟩ : BufTy).Contents (Elt F) → (⟨S50000x128, .f32⟩ : BufTy).Contents (Elt F)),
    unary main_arg7 main_v26 (broadcastInDim S1x128 ![1] bcast_S128_S1x128_1 : (⟨S128, .f32⟩ : BufTy).Contents (Elt F) → (⟨S1x128, .f32⟩ : BufTy).Contents (Elt F)),
    unary main_v26 main_v27 (broadcastInDim S50000x128 ![0, 1] bcast_S1x128_S50000x128_0_1 : (⟨S1x128, .f32⟩ : BufTy).Contents (Elt F) → (⟨S50000x128, .f32⟩ : BufTy).Contents (Elt F)),
    binary main_v25 main_v27 main_v28 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v28) (TRef.of (T := ⟨S50000x128, .f32⟩) main_call0_v0) (TRef.of (T := ⟨S50000x128, .f32⟩) main_v29) maximumf ]
theorem ops2_split : (ops2 : List (HloOp τ sig (Elt F))) = ops2a ++ ops2b := rfl

/-- Stretch 3 up to its concatenation, and from the concatenation on. -/
abbrev ops3a : List (HloOp τ sig (Elt F)) :=
  [ nullary main_c_4 (constantI S_ 32 0#32),
    unary main_c_4 main_v30 (broadcastInDim S800000 ![] bcast_S_S800000 : (⟨S_, .i32⟩ : BufTy).Contents (Elt F) → (⟨S800000, .i32⟩ : BufTy).Contents (Elt F)),
    binary main_arg2 main_v30 main_v31 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v32 (broadcastInDim S800000 ![] bcast_S_S800000 : (⟨S_, .i32⟩ : BufTy).Contents (Elt F) → (⟨S800000, .i32⟩ : BufTy).Contents (Elt F)),
    binary main_arg2 main_v32 main_v33 (addi : (⟨S800000, .i32⟩ : BufTy).Contents (Elt F) → (⟨S800000, .i32⟩ : BufTy).Contents (Elt F) → (⟨S800000, .i32⟩ : BufTy).Contents (Elt F)),
    ternary main_v31 main_v33 main_arg2 main_v34 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v34 main_v35 (broadcastInDim S800000x1 ![0] bcast_S800000_S800000x1_0 : (⟨S800000, .i32⟩ : BufTy).Contents (Elt F) → (⟨S800000x1, .i32⟩ : BufTy).Contents (Elt F)),
    binary main_v29 main_v35 main_v36 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) ]
abbrev ops3b : List (HloOp τ sig (Elt F)) :=
  [ binary main_v36 main_arg1 main_v37 ((fun a b => concatenate S800000x192 1 [⟨S800000x128, a⟩, ⟨S800000x64, b⟩] concatenates_S800000x128_S800000x64_S800000x192_d1) : (⟨S800000x128, .f32⟩ : BufTy).Contents (Elt F) → (⟨S800000x64, .f32⟩ : BufTy).Contents (Elt F) → (⟨S800000x192, .f32⟩ : BufTy).Contents (Elt F)),
    binary main_v37 main_arg8 main_v38 ((fun l r => Host.dotGeneral dot_S800000x192_S192x128_S800000x128_1_0_0_1_n_n none l r) : (⟨S800000x192, .f32⟩ : BufTy).Contents (Elt F) → (⟨S192x128, .f32⟩ : BufTy).Contents (Elt F) → (⟨S800000x128, .f32⟩ : BufTy).Contents (Elt F)),
    unary main_arg9 main_v39 (broadcastInDim S1x128 ![1] bcast_S128_S1x128_1 : (⟨S128, .f32⟩ : BufTy).Contents (Elt F) → (⟨S1x128, .f32⟩ : BufTy).Contents (Elt F)),
    unary main_v39 main_v40 (broadcastInDim S800000x128 ![0, 1] bcast_S1x128_S800000x128_0_1 : (⟨S1x128, .f32⟩ : BufTy).Contents (Elt F) → (⟨S800000x128, .f32⟩ : BufTy).Contents (Elt F)),
    binary main_v38 main_v40 main_v41 (addf : (⟨S800000x128, .f32⟩ : BufTy).Contents (Elt F) → (⟨S800000x128, .f32⟩ : BufTy).Contents (Elt F) → (⟨S800000x128, .f32⟩ : BufTy).Contents (Elt F)) ]
theorem ops3_split : (ops3 : List (HloOp τ sig (Elt F))) = ops3a ++ ops3b := rfl

/-- Stretch 4 up to its concatenation, and from the concatenation on. -/
abbrev ops4a : List (HloOp τ sig (Elt F)) :=
  [ nullary main_cst_6 (constant S_ .f32 0x00000000#32),
    unary main_cst_6 main_v42 (broadcastInDim S50000x128 ![] bcast_S_S50000x128 : (⟨S_, .f32⟩ : BufTy).Contents (Elt F) → (⟨S50000x128, .f32⟩ : BufTy).Contents (Elt F)),
    unary main_arg3 main_v43 (broadcastInDim S800000x1 ![0] bcast_S800000_S800000x1_0 : (⟨S800000, .i32⟩ : BufTy).Contents (Elt F) → (⟨S800000x1, .i32⟩ : BufTy).Contents (Elt F)),
    ternary main_v42 main_v43 main_v41 main_v44 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_7 (constant S_ .f32 0x3F800000#32),
    unary main_cst_7 main_v45 (broadcastInDim S800000 ![] bcast_S_S800000 : (⟨S_, .f32⟩ : BufTy).Contents (Elt F) → (⟨S800000, .f32⟩ : BufTy).Contents (Elt F)),
    nullary main_cst_8 (constant S_ .f32 0x00000000#32),
    unary main_cst_8 main_v46 (broadcastInDim S50000 ![] bcast_S_S50000 : (⟨S_, .f32⟩ : BufTy).Contents (Elt F) → (⟨S50000, .f32⟩ : BufTy).Contents (Elt F)),
    unary main_arg3 main_v47 (broadcastInDim S800000x1 ![0] bcast_S800000_S800000x1_0 : (⟨S800000, .i32⟩ : BufTy).Contents (Elt F) → (⟨S800000x1, .i32⟩ : BufTy).Contents (Elt F)),
    ternary main_v46 main_v47 main_v45 main_v48 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_9 (constant S_ .f32 0x3F800000#32),
    unary main_cst_9 main_v49 (broadcastInDim S50000 ![] bcast_S_S50000 : (⟨S_, .f32⟩ : BufTy).Contents (Elt F) → (⟨S50000, .f32⟩ : BufTy).Contents (Elt F)),
    binary main_v48 main_v49 main_v50 (maximumf : (⟨S50000, .f32⟩ : BufTy).Contents (Elt F) → (⟨S50000, .f32⟩ : BufTy).Contents (Elt F) → (⟨S50000, .f32⟩ : BufTy).Contents (Elt F)),
    unary main_v50 main_v51 (broadcastInDim S50000x1 ![0] bcast_S50000_S50000x1_0 : (⟨S50000, .f32⟩ : BufTy).Contents (Elt F) → (⟨S50000x1, .f32⟩ : BufTy).Contents (Elt F)),
    unary main_v51 main_v52 (broadcastInDim S50000x128 ![0, 1] bcast_S50000x1_S50000x128_0_1 : (⟨S50000x1, .f32⟩ : BufTy).Contents (Elt F) → (⟨S50000x128, .f32⟩ : BufTy).Contents (Elt F)),
    binary main_v44 main_v52 main_v53 (Host.divf : (⟨S50000x128, .f32⟩ : BufTy).Contents (Elt F) → (⟨S50000x128, .f32⟩ : BufTy).Contents (Elt F) → (⟨S50000x128, .f32⟩ : BufTy).Contents (Elt F)) ]
abbrev ops4b : List (HloOp τ sig (Elt F)) :=
  [ binary main_v29 main_v53 main_v54 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v54 main_arg10 main_v55 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg11 main_v56 (broadcastInDim S1x128 ![1] bcast_S128_S1x128_1 : (⟨S128, .f32⟩ : BufTy).Contents (Elt F) → (⟨S1x128, .f32⟩ : BufTy).Contents (Elt F)),
    unary main_v56 main_v57 (broadcastInDim S50000x128 ![0, 1] bcast_S1x128_S50000x128_0_1 : (⟨S1x128, .f32⟩ : BufTy).Contents (Elt F) → (⟨S50000x128, .f32⟩ : BufTy).Contents (Elt F)),
    binary main_v55 main_v57 main_v58 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v58) (TRef.of (T := ⟨S50000x128, .f32⟩) main_call1_v0) (TRef.of (T := ⟨S50000x128, .f32⟩) main_v59) maximumf ]
theorem ops4_split : (ops4 : List (HloOp τ sig (Elt F))) = ops4a ++ ops4b := rfl

/-- Stretch 5 up to its concatenation, and from the concatenation on. -/
abbrev ops5a : List (HloOp τ sig (Elt F)) :=
  [ nullary main_c_10 (constantI S_ 32 0#32),
    unary main_c_10 main_v60 (broadcastInDim S800000 ![] bcast_S_S800000 : (⟨S_, .i32⟩ : BufTy).Contents (Elt F) → (⟨S800000, .i32⟩ : BufTy).Contents (Elt F)),
    binary main_arg2 main_v60 main_v61 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v62 (broadcastInDim S800000 ![] bcast_S_S800000 : (⟨S_, .i32⟩ : BufTy).Contents (Elt F) → (⟨S800000, .i32⟩ : BufTy).Contents (Elt F)),
    binary main_arg2 main_v62 main_v63 (addi : (⟨S800000, .i32⟩ : BufTy).Contents (Elt F) → (⟨S800000, .i32⟩ : BufTy).Contents (Elt F) → (⟨S800000, .i32⟩ : BufTy).Contents (Elt F)),
    ternary main_v61 main_v63 main_arg2 main_v64 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v64 main_v65 (broadcastInDim S800000x1 ![0] bcast_S800000_S800000x1_0 : (⟨S800000, .i32⟩ : BufTy).Contents (Elt F) → (⟨S800000x1, .i32⟩ : BufTy).Contents (Elt F)),
    binary main_v59 main_v65 main_v66 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_12 (constantI S_ 32 0#32),
    unary main_c_12 main_v67 (broadcastInDim S800000 ![] bcast_S_S800000 : (⟨S_, .i32⟩ : BufTy).Contents (Elt F) → (⟨S800000, .i32⟩ : BufTy).Contents (Elt F)),
    binary main_arg3 main_v67 main_v68 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v69 (broadcastInDim S800000 ![] bcast_S_S800000 : (⟨S_, .i32⟩ : BufTy).Contents (Elt F) → (⟨S800000, .i32⟩ : BufTy).Contents (Elt F)),
    binary main_arg3 main_v69 main_v70 (addi : (⟨S800000, .i32⟩ : BufTy).Contents (Elt F) → (⟨S800000, .i32⟩ : BufTy).Contents (Elt F) → (⟨S800000, .i32⟩ : BufTy).Contents (Elt F)),
    ternary main_v68 main_v70 main_arg3 main_v71 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v71 main_v72 (broadcastInDim S800000x1 ![0] bcast_S800000_S800000x1_0 : (⟨S800000, .i32⟩ : BufTy).Contents (Elt F) → (⟨S800000x1, .i32⟩ : BufTy).Contents (Elt F)),
    binary main_v59 main_v72 main_v73 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) ]
abbrev ops5b : List (HloOp τ sig (Elt F)) :=
  [ binary main_v66 main_v73 main_v74 ((fun a b => concatenate S800000x256 1 [⟨S800000x128, a⟩, ⟨S800000x128, b⟩] concatenates_S800000x128_S800000x128_S800000x256_d1) : (⟨S800000x128, .f32⟩ : BufTy).Contents (Elt F) → (⟨S800000x128, .f32⟩ : BufTy).Contents (Elt F) → (⟨S800000x256, .f32⟩ : BufTy).Contents (Elt F)),
    binary main_v74 main_arg12 main_v75 ((fun l r => Host.dotGeneral dot_S800000x256_S256x10_S800000x10_1_0_0_1_n_n none l r) : (⟨S800000x256, .f32⟩ : BufTy).Contents (Elt F) → (⟨S256x10, .f32⟩ : BufTy).Contents (Elt F) → (⟨S800000x10, .f32⟩ : BufTy).Contents (Elt F)),
    unary main_arg13 main_v76 (broadcastInDim S1x10 ![1] bcast_S10_S1x10_1 : (⟨S10, .f32⟩ : BufTy).Contents (Elt F) → (⟨S1x10, .f32⟩ : BufTy).Contents (Elt F)),
    unary main_v76 main_v77 (broadcastInDim S800000x10 ![0, 1] bcast_S1x10_S800000x10_0_1 : (⟨S1x10, .f32⟩ : BufTy).Contents (Elt F) → (⟨S800000x10, .f32⟩ : BufTy).Contents (Elt F)),
    binary main_v75 main_v77 main_v78 (addf : (⟨S800000x10, .f32⟩ : BufTy).Contents (Elt F) → (⟨S800000x10, .f32⟩ : BufTy).Contents (Elt F) → (⟨S800000x10, .f32⟩ : BufTy).Contents (Elt F)) ]
theorem ops5_split : (ops5 : List (HloOp τ sig (Elt F))) = ops5a ++ ops5b := rfl

end Lists

variable (m : (ℓ : Loc nD τ sig) → Buf (Elt Ideal) ℓ) (c : Dev nD)

/-- The contents when stretch 2 reaches its concatenation. -/
def M2 : Valuation τ sig (Elt Ideal) := after (ops2a (F := Ideal)) (R1 m c)
theorem R2_eq : R2 m c = after ops2b (M2 m c) := by
  show after (ops2 (F := Ideal)) (R1 m c) = _
  rw [ops2_split, StableHlo.after_append]
  rfl
/-- The contents when stretch 3 reaches its concatenation. -/
def M3 : Valuation τ sig (Elt Ideal) := after (ops3a (F := Ideal)) (R2 m c)
theorem R3_eq : R3 m c = after ops3b (M3 m c) := by
  show after (ops3 (F := Ideal)) (R2 m c) = _
  rw [ops3_split, StableHlo.after_append]
  rfl
/-- The contents when stretch 4 reaches its concatenation. -/
def M4 : Valuation τ sig (Elt Ideal) := after (ops4a (F := Ideal)) (R3 m c)
theorem R4_eq : R4 m c = after ops4b (M4 m c) := by
  show after (ops4 (F := Ideal)) (R3 m c) = _
  rw [ops4_split, StableHlo.after_append]
  rfl
/-- The contents when stretch 5 reaches its concatenation. -/
def M5 : Valuation τ sig (Elt Ideal) := after (ops5a (F := Ideal)) (R4 m c)
theorem R5_eq : R5 m c = after ops5b (M5 m c) := by
  show after (ops5 (F := Ideal)) (R4 m c) = _
  rw [ops5_split, StableHlo.after_append]
  rfl

/-! ## Layer 1 -/

/-- After the first stretch: the first layer's edge messages. -/
theorem at_msg1 : R1 m c (Proc.devRef .tc main_v11) = Cert.KernelIdeal.Whole.msg1 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) := by
  show after ops1 (R0 m c) (Proc.devRef .tc main_v11) = _
  simp only [ops1]
  after_results_simp
  rw [layer1]
  rfl

theorem M2_keeps_arg0 : M2 m c (Proc.devRef .tc main_arg0) = R1 m c (Proc.devRef .tc main_arg0) := by
  show after ops2a (R1 m c) (Proc.devRef .tc main_arg0) = _
  simp only [ops2a]
  after_results_simp
theorem M2_arg0 : M2 m c (Proc.devRef .tc main_arg0) = m ((c.tc : Thread nD τ).loc main_arg0) := (M2_keeps_arg0 m c).trans (R1_arg0 m c)
theorem M2_keeps_arg6 : M2 m c (Proc.devRef .tc main_arg6) = R1 m c (Proc.devRef .tc main_arg6) := by
  show after ops2a (R1 m c) (Proc.devRef .tc main_arg6) = _
  simp only [ops2a]
  after_results_simp
theorem M2_arg6 : M2 m c (Proc.devRef .tc main_arg6) = m ((c.tc : Thread nD τ).loc main_arg6) := (M2_keeps_arg6 m c).trans (R1_arg6 m c)
theorem M2_keeps_arg7 : M2 m c (Proc.devRef .tc main_arg7) = R1 m c (Proc.devRef .tc main_arg7) := by
  show after ops2a (R1 m c) (Proc.devRef .tc main_arg7) = _
  simp only [ops2a]
  after_results_simp
theorem M2_arg7 : M2 m c (Proc.devRef .tc main_arg7) = m ((c.tc : Thread nD τ).loc main_arg7) := (M2_keeps_arg7 m c).trans (R1_arg7 m c)
/-- The mean of the first layer's messages at each node. -/
theorem M2_mean : M2 m c (Proc.devRef .tc main_v23) = Cert.KernelIdeal.Whole.meanOver (Cert.KernelIdeal.Whole.msg1 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))) (m ((c.tc : Thread nD τ).loc main_arg3)) := by
  show after ops2a (R1 m c) (Proc.devRef .tc main_v23) = _
  simp only [ops2a]
  after_results_simp
  rw [at_msg1 m c, R1_arg3 m c]
  rfl

/-- After the second stretch: the first layer's node features. -/
theorem at_hid1 : R2 m c (Proc.devRef .tc main_v29) = Cert.KernelIdeal.Whole.hid1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [R2_eq]
  show after ops2b (M2 m c) (Proc.devRef .tc main_v29) = _
  simp only [ops2b]
  after_results_simp
  simp only [TRef.toBuf, TRef.ofBuf, cast_eq]
  rw [M2_mean m c, M2_arg0 m c, M2_arg6 m c, M2_arg7 m c, layer2]
  rfl

/-! ## Layer 2 -/

theorem M3_keeps_arg1 : M3 m c (Proc.devRef .tc main_arg1) = R2 m c (Proc.devRef .tc main_arg1) := by
  show after ops3a (R2 m c) (Proc.devRef .tc main_arg1) = _
  simp only [ops3a]
  after_results_simp
theorem M3_arg1 : M3 m c (Proc.devRef .tc main_arg1) = m ((c.tc : Thread nD τ).loc main_arg1) := (M3_keeps_arg1 m c).trans (R2_arg1 m c)
theorem M3_keeps_arg8 : M3 m c (Proc.devRef .tc main_arg8) = R2 m c (Proc.devRef .tc main_arg8) := by
  show after ops3a (R2 m c) (Proc.devRef .tc main_arg8) = _
  simp only [ops3a]
  after_results_simp
theorem M3_arg8 : M3 m c (Proc.devRef .tc main_arg8) = m ((c.tc : Thread nD τ).loc main_arg8) := (M3_keeps_arg8 m c).trans (R2_arg8 m c)
theorem M3_keeps_arg9 : M3 m c (Proc.devRef .tc main_arg9) = R2 m c (Proc.devRef .tc main_arg9) := by
  show after ops3a (R2 m c) (Proc.devRef .tc main_arg9) = _
  simp only [ops3a]
  after_results_simp
theorem M3_arg9 : M3 m c (Proc.devRef .tc main_arg9) = m ((c.tc : Thread nD τ).loc main_arg9) := (M3_keeps_arg9 m c).trans (R2_arg9 m c)
/-- The first layer's node features gathered at the edges' sources. -/
theorem M3_src : M3 m c (Proc.devRef .tc main_v36) = Host.gather Cert.KernelIdeal.gather_S50000x128_S800000x1_S800000x128_1_0_n_n_0_1_1128 (Cert.KernelIdeal.Whole.hid1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (Cert.KernelIdeal.Whole.wrapIndex (m ((c.tc : Thread nD τ).loc main_arg2))) := by
  show after ops3a (R2 m c) (Proc.devRef .tc main_v36) = _
  simp only [ops3a]
  after_results_simp
  rw [at_hid1 m c, R2_arg2 m c]
  rfl

/-- After the third stretch: the second layer's edge messages. -/
theorem at_msg2 : R3 m c (Proc.devRef .tc main_v41) = Cert.KernelIdeal.Whole.msg2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [R3_eq]
  show after ops3b (M3 m c) (Proc.devRef .tc main_v41) = _
  simp only [ops3b]
  after_results_simp
  rw [M3_src m c, M3_arg1 m c, M3_arg8 m c, M3_arg9 m c, layer3]
  rfl

/-- The first layer's node features are still in their buffer after the third stretch, and when the fourth reaches
    its concatenation. -/
theorem hid1_kept : R3 m c (Proc.devRef .tc main_v29) = Cert.KernelIdeal.Whole.hid1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := (stretch3_keeps_v29 m c).trans (at_hid1 m c)
theorem M4_keeps_v29 : M4 m c (Proc.devRef .tc main_v29) = R3 m c (Proc.devRef .tc main_v29) := by
  show after ops4a (R3 m c) (Proc.devRef .tc main_v29) = _
  simp only [ops4a]
  after_results_simp
theorem M4_hid1 : M4 m c (Proc.devRef .tc main_v29) = Cert.KernelIdeal.Whole.hid1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := (M4_keeps_v29 m c).trans (hid1_kept m c)
theorem M4_keeps_arg10 : M4 m c (Proc.devRef .tc main_arg10) = R3 m c (Proc.devRef .tc main_arg10) := by
  show after ops4a (R3 m c) (Proc.devRef .tc main_arg10) = _
  simp only [ops4a]
  after_results_simp
theorem M4_arg10 : M4 m c (Proc.devRef .tc main_arg10) = m ((c.tc : Thread nD τ).loc main_arg10) := (M4_keeps_arg10 m c).trans (R3_arg10 m c)
theorem M4_keeps_arg11 : M4 m c (Proc.devRef .tc main_arg11) = R3 m c (Proc.devRef .tc main_arg11) := by
  show after ops4a (R3 m c) (Proc.devRef .tc main_arg11) = _
  simp only [ops4a]
  after_results_simp
theorem M4_arg11 : M4 m c (Proc.devRef .tc main_arg11) = m ((c.tc : Thread nD τ).loc main_arg11) := (M4_keeps_arg11 m c).trans (R3_arg11 m c)
/-- The mean of the second layer's messages at each node. -/
theorem M4_mean : M4 m c (Proc.devRef .tc main_v53) = Cert.KernelIdeal.Whole.meanOver (Cert.KernelIdeal.Whole.msg2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg3)) := by
  show after ops4a (R3 m c) (Proc.devRef .tc main_v53) = _
  simp only [ops4a]
  after_results_simp
  rw [at_msg2 m c, R3_arg3 m c]
  rfl

/-- After the fourth stretch: the second layer's node features. -/
theorem at_hid2 : R4 m c (Proc.devRef .tc main_v59) = Cert.KernelIdeal.Whole.hid2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [R4_eq]
  show after ops4b (M4 m c) (Proc.devRef .tc main_v59) = _
  simp only [ops4b]
  after_results_simp
  simp only [TRef.toBuf, TRef.ofBuf, cast_eq]
  rw [M4_hid1 m c, M4_mean m c, M4_arg10 m c, M4_arg11 m c, layer4]
  rfl

/-! ## The predictor -/

theorem M5_keeps_arg12 : M5 m c (Proc.devRef .tc main_arg12) = R4 m c (Proc.devRef .tc main_arg12) := by
  show after ops5a (R4 m c) (Proc.devRef .tc main_arg12) = _
  simp only [ops5a]
  after_results_simp
theorem M5_arg12 : M5 m c (Proc.devRef .tc main_arg12) = m ((c.tc : Thread nD τ).loc main_arg12) := (M5_keeps_arg12 m c).trans (R4_arg12 m c)
theorem M5_keeps_arg13 : M5 m c (Proc.devRef .tc main_arg13) = R4 m c (Proc.devRef .tc main_arg13) := by
  show after ops5a (R4 m c) (Proc.devRef .tc main_arg13) = _
  simp only [ops5a]
  after_results_simp
theorem M5_arg13 : M5 m c (Proc.devRef .tc main_arg13) = m ((c.tc : Thread nD τ).loc main_arg13) := (M5_keeps_arg13 m c).trans (R4_arg13 m c)
/-- The node embeddings gathered at the edges' sources and at their destinations. -/
theorem M5_src : M5 m c (Proc.devRef .tc main_v66) = Host.gather Cert.KernelIdeal.gather_S50000x128_S800000x1_S800000x128_1_0_n_n_0_1_1128 (Cert.KernelIdeal.Whole.hid2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (Cert.KernelIdeal.Whole.wrapIndex (m ((c.tc : Thread nD τ).loc main_arg2))) := by
  show after ops5a (R4 m c) (Proc.devRef .tc main_v66) = _
  simp only [ops5a]
  after_results_simp
  rw [at_hid2 m c, R4_arg2 m c]
  rfl
theorem M5_dst : M5 m c (Proc.devRef .tc main_v73) = Host.gather Cert.KernelIdeal.gather_S50000x128_S800000x1_S800000x128_1_0_n_n_0_1_1128 (Cert.KernelIdeal.Whole.hid2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (Cert.KernelIdeal.Whole.wrapIndex (m ((c.tc : Thread nD τ).loc main_arg3))) := by
  show after ops5a (R4 m c) (Proc.devRef .tc main_v73) = _
  simp only [ops5a]
  after_results_simp
  rw [at_hid2 m c, R4_arg3 m c]
  rfl

/-- After the last stretch: the edge scores. -/
theorem at_score : R5 m c (Proc.devRef .tc main_v78) = Cert.KernelIdeal.Whole.score (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [R5_eq]
  show after ops5b (M5 m c) (Proc.devRef .tc main_v78) = _
  simp only [ops5b]
  after_results_simp
  rw [M5_src m c, M5_dst m c, M5_arg12 m c, M5_arg13 m c, layer5]
  rfl

/-- The reference's run with its result named: the edge scores of the network at the launch arguments, and the
    arguments unchanged. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v78) = Cert.KernelIdeal.Whole.score (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v78).trans (at_score m c),
      (h c main_arg0).trans (R5_arg0 m c),
      (h c main_arg1).trans (R5_arg1 m c),
      (h c main_arg2).trans (R5_arg2 m c),
      (h c main_arg3).trans (R5_arg3 m c),
      (h c main_arg4).trans (R5_arg4 m c),
      (h c main_arg5).trans (R5_arg5 m c),
      (h c main_arg6).trans (R5_arg6 m c),
      (h c main_arg7).trans (R5_arg7 m c),
      (h c main_arg8).trans (R5_arg8 m c),
      (h c main_arg9).trans (R5_arg9 m c),
      (h c main_arg10).trans (R5_arg10 m c),
      (h c main_arg11).trans (R5_arg11 m c),
      (h c main_arg12).trans (R5_arg12 m c),
      (h c main_arg13).trans (R5_arg13 m c)⟩)
    (run_fold m ρ)

end Cert.ReferenceIdeal.RefValue

end
-- ==== Proof.lean ====
/-
  A two-layer GraphSAGE network with an edge predictor, computed by five pipelined fused-linear regions among host
  gathers and scatter-adds, against its plain reference. At the extended reals both programs compute, for every edge,
  score = [h2[src] | h2[dst]] · Wp + bp, where each layer forms per-edge messages [h[src] | e] · Wm + bm, averages them
  over each node's incoming edges (their scatter-added sum over the in-degree clamped below at one) and updates
  h ← max([h | mean] · Wa + ba, 0). The kernel never concatenates: it multiplies each operand by its own block of rows
  of the weight matrix and adds, which is the same contracted sum split at the join. The three programs run without
  fault and leave their arguments as launched; the idealization rewrote nothing; and the two idealized programs end
  with equal results from memories that agree on the arguments.
-/
import proofs.«119431_j55594056680038_1_alg».proof.Defs
import proofs.«119431_j55594056680038_1_alg».proof.Proof.Gen.Kernel
import proofs.«119431_j55594056680038_1_alg».proof.Proof.Gen.Kernel.Skeleton
import proofs.«119431_j55594056680038_1_alg».proof.Proof.Gen.Kernel.Launch
import proofs.«119431_j55594056680038_1_alg».proof.Proof.Gen.Kernel.Points
import proofs.«119431_j55594056680038_1_alg».proof.Proof.Gen.Kernel.Frame
import proofs.«119431_j55594056680038_1_alg».proof.Proof.Gen.KernelIdeal
import proofs.«119431_j55594056680038_1_alg».proof.Proof.Gen.KernelIdeal.Skeleton
import proofs.«119431_j55594056680038_1_alg».proof.Proof.Gen.KernelIdeal.Launch
import proofs.«119431_j55594056680038_1_alg».proof.Proof.Gen.KernelIdeal.Points
import proofs.«119431_j55594056680038_1_alg».proof.Proof.Gen.KernelIdeal.Frame
import proofs.«119431_j55594056680038_1_alg».proof.Proof.Gen.ReferenceIdeal
import proofs.«119431_j55594056680038_1_alg».proof.Proof.Gen.Pre_finite_inputs
import proofs.«119431_j55594056680038_1_alg».proof.Proof.KernelRun
import proofs.«119431_j55594056680038_1_alg».proof.Proof.KernelFold
import proofs.«119431_j55594056680038_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernel_ideal : Cert.frame_KernelIdeal := fun m ρ _ => Cert.KernelIdeal.Gen.frame m ρ

/-- The idealized reference runs and keeps its arguments: its run with the result dropped. -/
theorem frame_reference_ideal : Cert.frame_ReferenceIdeal := fun m ρ _ =>
  (θ_run Cert.ReferenceIdeal.defs _ _).mono (fun _ h c => (h c).2) (Cert.ReferenceIdeal.RefValue.run_named m ρ)

/-- Both idealized programs end with the edge scores of the one network at the shared arguments: the kernel's run
    leaves the composition of its five fused layers in the result buffer, and the reference's run leaves that same
    composition at its own arguments, which agree with the kernel's. -/
theorem algebraic : Cert.algebraic_KernelIdeal_ReferenceIdeal := by
  intro m ρ m' ρ' _ hagree
  refine ⟨fun c => Cert.KernelIdeal.Whole.score (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Whole.out_score m ρ c), (h c).2⟩)
      (Cert.KernelIdeal.Whole.run_named (F := Ideal) m ρ)
  · refine (θ_run Cert.ReferenceIdeal.defs _ _).mono (fun _ h c => ⟨(h c).1.trans ?_, (h c).2⟩)
      (Cert.ReferenceIdeal.RefValue.run_named m' ρ')
    obtain ⟨h0, h1, h2, h3, h4, h5, h6, h7, h8, h9, h10, h11, h12, h13⟩ := hagree c
    rw [h0, h1, h2, h3, h4, h5, h6, h7, h8, h9, h10, h11, h12, h13]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
